-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S100000x128 : Shape := ⟨2, ![100000, 128]⟩
abbrev S300000 : Shape := ⟨1, ![300000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S16x256 : Shape := ⟨2, ![16, 256]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_arg25 : FVec F S16 .f32) (main_v98 : IVec S_ 1) (main_v101 : IVec S16x256 1) (main_c_39 : IVec S_ 1) : IVec S_ 1 :=
  let main_v102 : IVec S_ 1 := (fun x v => Host.reduce IntOp.andi x v reducesTo_S16x256_S_d0_1 h_S_) main_v101 main_c_39
  let main_v103 : IVec S_ 1 := andi main_v98 main_v102
  let main_v104 : FVec F S16 .f32 := Host.absf main_arg25
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  main_v108

def fn_part5 {F : FTy → Type} [FloatOps F] (main_arg22 : FVec F S256x512 .f32) (main_arg23 : FVec F S256 .f32) (main_arg24 : FVec F S16x256 .f32) (main_arg25 : FVec F S16 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x512 .f32 := Host.absf main_arg22
  let main_cst_34 : FVec F S_ .f32 := constant S_ .f32 0x7F800000#32
  let main_v90 : FVec F S256x512 .f32 := broadcastInDim S256x512 ![] bcast_S_S256x512 main_cst_34
  let main_v91 : IVec S256x512 1 := cmpf .olt main_v89 main_v90
  let main_c_35 : IVec S_ 1 := constantI S_ 1 1#1
  let main_v92 : IVec S_ 1 := (fun x v => Host.reduce IntOp.andi x v reducesTo_S256x512_S_d0_1 h_S_) main_v91 main_c_35
  let main_v93 : IVec S_ 1 := andi main_v88 main_v92
  let main_v94 : FVec F S256 .f32 := Host.absf main_arg23
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S16x256 .f32 := Host.absf main_arg24
  let main_cst_38 : FVec F S_ .f32 := constant S_ .f32 0x7F800000#32
  let main_v100 : FVec F S16x256 .f32 := broadcastInDim S16x256 ![] bcast_S_S16x256 main_cst_38
  let main_v101 : IVec S16x256 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S256x128 .f32) (main_arg19 : FVec F S256 .f32) (main_arg20 : FVec F S256x128 .f32) (main_arg21 : FVec F S256 .f32) (main_arg22 : FVec F S256x512 .f32) (main_arg23 : FVec F S256 .f32) (main_arg24 : FVec F S16x256 .f32) (main_arg25 : FVec F S16 .f32) (main_v63 : IVec S_ 1) (main_v67 : IVec S_ 1) : IVec S_ 1 :=
  let main_v68 : IVec S_ 1 := andi main_v63 main_v67
  let main_v69 : FVec F S256x128 .f32 := Host.absf main_arg18
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S256 .f32 := Host.absf main_arg19
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg20
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S256 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S256x256 .f32) (main_arg16 : FVec F S256 .f32) (main_arg17 : FVec F S256x256 .f32) (main_arg18 : FVec F S256x128 .f32) (main_arg19 : FVec F S256 .f32) (main_arg20 : FVec F S256x128 .f32) (main_arg21 : FVec F S256 .f32) (main_arg22 : FVec F S256x512 .f32) (main_arg23 : FVec F S256 .f32) (main_arg24 : FVec F S16x256 .f32) (main_arg25 : FVec F S16 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256x256 .f32 := Host.absf main_arg15
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg16
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg17
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S256x128 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x128 .f32) (main_arg19 : FVec F S256 .f32) (main_arg20 : FVec F S256x128 .f32) (main_arg21 : FVec F S256 .f32) (main_arg22 : FVec F S256x512 .f32) (main_arg23 : FVec F S256 .f32) (main_arg24 : FVec F S16x256 .f32) (main_arg25 : FVec F S16 .f32) (main_v33 : IVec S_ 1) : IVec S_ 1 :=
  let main_v34 : FVec F S256x128 .f32 := Host.absf main_arg11
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x256 .f32 := Host.absf main_arg12
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg13
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg14
  let main_cst_18 : FVec F S_ .f32 := constant S_ .f32 0x7F800000#32
  let main_v50 : FVec F S256x256 .f32 := broadcastInDim S256x256 ![] bcast_S_S256x256 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S256x128 .f32) (main_arg9 : FVec F S256x128 .f32) (main_arg10 : FVec F S256 .f32) (main_arg11 : FVec F S256x128 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x128 .f32) (main_arg19 : FVec F S256 .f32) (main_arg20 : FVec F S256x128 .f32) (main_arg21 : FVec F S256 .f32) (main_arg22 : FVec F S256x512 .f32) (main_arg23 : FVec F S256 .f32) (main_arg24 : FVec F S16x256 .f32) (main_arg25 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg8
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg9
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256 .f32 := Host.absf main_arg10
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S50000x128 .f32) (main_arg1 : FVec F S100000x128 .f32) (main_arg2 : IVec S300000 32) (main_arg3 : IVec S300000 32) (main_arg4 : IVec S300000 32) (main_arg5 : IVec S300000 32) (main_arg6 : FVec F S256x128 .f32) (main_arg7 : FVec F S256 .f32) (main_arg8 : FVec F S256x128 .f32) (main_arg9 : FVec F S256x128 .f32) (main_arg10 : FVec F S256 .f32) (main_arg11 : FVec F S256x128 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x128 .f32) (main_arg19 : FVec F S256 .f32) (main_arg20 : FVec F S256x128 .f32) (main_arg21 : FVec F S256 .f32) (main_arg22 : FVec F S256x512 .f32) (main_arg23 : FVec F S256 .f32) (main_arg24 : FVec F S16x256 .f32) (main_arg25 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg6
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S50000x128 : Shape := ⟨2, ![50000, 128]⟩
abbrev S100000x128 : Shape := ⟨2, ![100000, 128]⟩
abbrev S300000 : Shape := ⟨1, ![300000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S16x256 : Shape := ⟨2, ![16, 256]⟩
abbrev S16 : Shape := ⟨1, ![16]⟩
abbrev S_ : Shape := ⟨0, ![]⟩
abbrev S100000 : Shape := ⟨1, ![100000]⟩
abbrev S300000x1 : Shape := ⟨2, ![300000, 1]⟩
abbrev S100000x1 : Shape := ⟨2, ![100000, 1]⟩
abbrev S50000 : Shape := ⟨1, ![50000]⟩
abbrev S50000x1 : Shape := ⟨2, ![50000, 1]⟩
abbrev S300000x128 : Shape := ⟨2, ![300000, 128]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S50000x256 : Shape := ⟨2, ![50000, 256]⟩
abbrev S300000x256 : Shape := ⟨2, ![300000, 256]⟩
abbrev S400x256 : Shape := ⟨2, ![400, 256]⟩
abbrev S8x256 : Shape := ⟨2, ![8, 256]⟩
abbrev S200x256 : Shape := ⟨2, ![200, 256]⟩
abbrev S1x512 : Shape := ⟨2, ![1, 512]⟩
abbrev S512x256 : Shape := ⟨2, ![512, 256]⟩
abbrev S256x16 : Shape := ⟨2, ![256, 16]⟩
abbrev S1x16 : Shape := ⟨2, ![1, 16]⟩

abbrev nBuf : Space → Nat
  | .hbm => 148
  | .vmem => 52
  | .smem => 0
  | _ => 0

abbrev hbmTy0_0 (i : Nat) : BufTy := match i % 128 with
  | 0 => ⟨S50000x128, .f32⟩
  | 1 => ⟨S100000x128, .f32⟩
  | 2 => ⟨S300000, .i32⟩
  | 3 => ⟨S300000, .i32⟩
  | 4 => ⟨S300000, .i32⟩
  | 5 => ⟨S300000, .i32⟩
  | 6 => ⟨S256x128, .f32⟩
  | 7 => ⟨S256, .f32⟩
  | 8 => ⟨S256x128, .f32⟩
  | 9 => ⟨S256x128, .f32⟩
  | 10 => ⟨S256, .f32⟩
  | 11 => ⟨S256x128, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x128, .f32⟩
  | 19 => ⟨S256, .f32⟩
  | 20 => ⟨S256x128, .f32⟩
  | 21 => ⟨S256, .f32⟩
  | 22 => ⟨S256x512, .f32⟩
  | 23 => ⟨S256, .f32⟩
  | 24 => ⟨S16x256, .f32⟩
  | 25 => ⟨S16, .f32⟩
  | 26 => ⟨S_, .f32⟩
  | 27 => ⟨S300000, .f32⟩
  | 28 => ⟨S_, .f32⟩
  | 29 => ⟨S100000, .f32⟩
  | 30 => ⟨S300000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .f32⟩
  | 40 => ⟨S50000, .f32⟩
  | 41 => ⟨S300000x1, .i32⟩
  | 42 => ⟨S50000, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S50000x1, .f32⟩
  | 50 => ⟨S_, .i32⟩
  | 51 => ⟨S300000, .i32⟩
  | 52 => ⟨S300000, .i1⟩
  | 53 => ⟨S_, .i32⟩
  | 54 => ⟨S300000, .i32⟩
  | 55 => ⟨S300000, .i32⟩
  | 56 => ⟨S300000, .i32⟩
  | 57 => ⟨S300000x1, .i32⟩
  | 58 => ⟨S300000x128, .f32⟩
  | 59 => ⟨S_, .f32⟩
  | 60 => ⟨S100000x128, .f32⟩
  | 61 => ⟨S300000x1, .i32⟩
  | 62 => ⟨S100000x128, .f32⟩
  | 63 => ⟨S_, .i32⟩
  | 64 => ⟨S300000, .i32⟩
  | 65 => ⟨S300000, .i1⟩
  | 66 => ⟨S_, .i32⟩
  | 67 => ⟨S300000, .i32⟩
  | 68 => ⟨S300000, .i32⟩
  | 69 => ⟨S300000, .i32⟩
  | 70 => ⟨S300000x1, .i32⟩
  | 71 => ⟨S300000x128, .f32⟩
  | 72 => ⟨S_, .f32⟩
  | 73 => ⟨S50000x128, .f32⟩
  | 74 => ⟨S300000x1, .i32⟩
  | 75 => ⟨S50000x128, .f32⟩
  | 76 => ⟨S128x256, .f32⟩
  | 77 => ⟨S128x256, .f32⟩
  | 78 => ⟨S1x256, .f32⟩
  | 79 => ⟨S100000x256, .bf16⟩
  | 80 => ⟨S128x256, .f32⟩
  | 81 => ⟨S128x256, .f32⟩
  | 82 => ⟨S1x256, .f32⟩
  | 83 => ⟨S50000x256, .bf16⟩
  | 84 => ⟨S_, .i32⟩
  | 85 => ⟨S300000, .i32⟩
  | 86 => ⟨S300000, .i1⟩
  | 87 => ⟨S_, .i32⟩
  | 88 => ⟨S300000, .i32⟩
  | 89 => ⟨S300000, .i32⟩
  | 90 => ⟨S300000, .i32⟩
  | 91 => ⟨S300000x1, .i32⟩
  | 92 => ⟨S300000x256, .bf16⟩
  | 93 => ⟨S300000x256, .f32⟩
  | 94 => ⟨S_, .f32⟩
  | 95 => ⟨S100000x256, .f32⟩
  | 96 => ⟨S300000x1, .i32⟩
  | 97 => ⟨S100000x256, .f32⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S300000x256, .bf16⟩
  | 107 => ⟨S300000x256, .f32⟩
  | 108 => ⟨S_, .f32⟩
  | 109 => ⟨S50000x256, .f32⟩
  | 110 => ⟨S300000x1, .i32⟩
  | 111 => ⟨S50000x256, .f32⟩
  | 112 => ⟨S256x256, .f32⟩
  | 113 => ⟨S256x256, .f32⟩
  | 114 => ⟨S128x256, .f32⟩
  | 115 => ⟨S1x256, .f32⟩
  | 116 => ⟨S1x256, .f32⟩
  | 117 => ⟨S400x256, .f32⟩
  | 118 => ⟨S_, .f32⟩
  | 119 => ⟨S256, .f32⟩
  | 120 => ⟨S1x256, .f32⟩
  | 121 => ⟨S_, .f32⟩
  | 122 => ⟨S1x256, .f32⟩
  | 123 => ⟨S1x256, .f32⟩
  | 124 => ⟨S256x256, .f32⟩
  | 125 => ⟨S256x256, .f32⟩
  | 126 => ⟨S128x256, .f32⟩
  | 127 => ⟨S1x256, .f32⟩
  | _ => ⟨S50000x128, .f32⟩

abbrev hbmTy0_1 (i : Nat) : BufTy := match i % 128 with
  | 0 => ⟨S1x256, .f32⟩
  | 1 => ⟨S200x256, .f32⟩
  | 2 => ⟨S_, .f32⟩
  | 3 => ⟨S256, .f32⟩
  | 4 => ⟨S1x256, .f32⟩
  | 5 => ⟨S_, .f32⟩
  | 6 => ⟨S1x256, .f32⟩
  | 7 => ⟨S1x256, .f32⟩
  | 8 => ⟨S1x512, .f32⟩
  | 9 => ⟨S512x256, .f32⟩
  | 10 => ⟨S1x256, .f32⟩
  | 11 => ⟨S1x256, .f32⟩
  | 12 => ⟨S1x256, .f32⟩
  | 13 => ⟨S_, .f32⟩
  | 14 => ⟨S1x256, .f32⟩
  | 15 => ⟨S1x256, .f32⟩
  | 16 => ⟨S256x16, .f32⟩
  | 17 => ⟨S1x16, .f32⟩
  | 18 => ⟨S1x16, .f32⟩
  | 19 => ⟨S1x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .f32⟩
  | .local _ .vmem, ⟨7, _⟩ => ⟨S1x256, .f32⟩
  | .local _ .vmem, ⟨8, _⟩ => ⟨S128x256, .f32⟩
  | .local _ .vmem, ⟨9, _⟩ => ⟨S2000x256, .bf16⟩
  | .local _ .vmem, ⟨10, _⟩ => ⟨S2000x256, .bf16⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x256, .f32⟩
  | .local _ .vmem, ⟨18, _⟩ => ⟨S1x256, .f32⟩
  | .local _ .vmem, ⟨19, _⟩ => ⟨S128x256, .f32⟩
  | .local _ .vmem, ⟨20, _⟩ => ⟨S2000x256, .bf16⟩
  | .local _ .vmem, ⟨21, _⟩ => ⟨S2000x256, .bf16⟩
  | .local _ .vmem, ⟨22, _⟩ => ⟨S2000x256, .f32⟩
  | .local _ .vmem, ⟨23, _⟩ => ⟨S2000x256, .f32⟩
  | .local _ .vmem, ⟨24, _⟩ => ⟨S2000x1, .f32⟩
  | .local _ .vmem, ⟨25, _⟩ => ⟨S2000x1, .f32⟩
  | .local _ .vmem, ⟨26, _⟩ => ⟨S2000x256, .bf16⟩
  | .local _ .vmem, ⟨27, _⟩ => ⟨S2000x256, .bf16⟩
  | .local _ .vmem, ⟨28, _⟩ => ⟨S2000x128, .f32⟩
  | .local _ .vmem, ⟨29, _⟩ => ⟨S2000x128, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S128x256, .f32⟩
  | .local _ .vmem, ⟨34, _⟩ => ⟨S1x256, .f32⟩
  | .local _ .vmem, ⟨35, _⟩ => ⟨S8x256, .f32⟩
  | .local _ .vmem, ⟨36, _⟩ => ⟨S8x256, .f32⟩
  | .local _ .vmem, ⟨37, _⟩ => ⟨S2000x256, .f32⟩
  | .local _ .vmem, ⟨38, _⟩ => ⟨S2000x256, .f32⟩
  | .local _ .vmem, ⟨39, _⟩ => ⟨S2000x1, .f32⟩
  | .local _ .vmem, ⟨40, _⟩ => ⟨S2000x1, .f32⟩
  | .local _ .vmem, ⟨41, _⟩ => ⟨S2000x256, .bf16⟩
  | .local _ .vmem, ⟨42, _⟩ => ⟨S2000x256, .bf16⟩
  | .local _ .vmem, ⟨43, _⟩ => ⟨S2000x128, .f32⟩
  | .local _ .vmem, ⟨44, _⟩ => ⟨S2000x128, .f32⟩
  | .local _ .vmem, ⟨45, _⟩ => ⟨S256x256, .f32⟩
  | .local _ .vmem, ⟨46, _⟩ => ⟨S1x256, .f32⟩
  | .local _ .vmem, ⟨47, _⟩ => ⟨S256x256, .f32⟩
  | .local _ .vmem, ⟨48, _⟩ => ⟨S128x256, .f32⟩
  | .local _ .vmem, ⟨49, _⟩ => ⟨S1x256, .f32⟩
  | .local _ .vmem, ⟨50, _⟩ => ⟨S8x256, .f32⟩
  | .local _ .vmem, ⟨51, _⟩ => ⟨S8x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst_3 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_4 : Ref sig .tc := ⟨.hbm, 43, rfl⟩
abbrev main_v12 : Ref sig .tc := ⟨.hbm, 44, rfl⟩
abbrev main_v13 : Ref sig .tc := ⟨.hbm, 45, rfl⟩
abbrev main_cst_5 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c : Ref sig .tc := ⟨.hbm, 50, rfl⟩
abbrev main_v17 : Ref sig .tc := ⟨.hbm, 51, rfl⟩
abbrev main_v18 : Ref sig .tc := ⟨.hbm, 52, rfl⟩
abbrev main_c_6 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst_7 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_c_8 : Ref sig .tc := ⟨.hbm, 63, rfl⟩
abbrev main_v27 : Ref sig .tc := ⟨.hbm, 64, rfl⟩
abbrev main_v28 : Ref sig .tc := ⟨.hbm, 65, rfl⟩
abbrev main_c_9 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_10 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_c_12 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_13 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_14 : Ref sig .tc := ⟨.hbm, 98, rfl⟩
abbrev main_v56 : Ref sig .tc := ⟨.hbm, 99, rfl⟩
abbrev main_v57 : Ref sig .tc := ⟨.hbm, 100, rfl⟩
abbrev main_c_15 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_16 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_17 : Ref sig .tc := ⟨.hbm, 118, rfl⟩
abbrev main_v73 : Ref sig .tc := ⟨.hbm, 119, rfl⟩
abbrev main_v74 : Ref sig .tc := ⟨.hbm, 120, rfl⟩
abbrev main_cst_18 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_19 : Ref sig .tc := ⟨.hbm, 130, rfl⟩
abbrev main_v83 : Ref sig .tc := ⟨.hbm, 131, rfl⟩
abbrev main_v84 : Ref sig .tc := ⟨.hbm, 132, rfl⟩
abbrev main_cst_20 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_call0_cst : Ref sig .tc := ⟨.hbm, 141, rfl⟩
abbrev main_call0_v0 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg9_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg2_1 : Ref sig .tc := ⟨.vmem, 42, rfl⟩
abbrev cc3_stg3_0 : Ref sig .tc := ⟨.vmem, 43, rfl⟩
abbrev cc3_stg3_1 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem9_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem2_1 : DmaSem sig := 42
abbrev cc3_sem3_0 : DmaSem sig := 43
abbrev cc3_sem3_1 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S8x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  bcast_S_S300000 : S_.BroadcastsInDim S300000 (![] : Fin 0 → Fin S300000.rank)
  bcast_S_S100000 : S_.BroadcastsInDim S100000 (![] : Fin 0 → Fin S100000.rank)
  bcast_S300000_S300000x1_0 : S300000.BroadcastsInDim S300000x1 (![0] : Fin 1 → Fin S300000x1.rank)
  shapeCasts_S100000_S100000x1 : S100000.ShapeCasts S100000x1
  bcast_S_S50000 : S_.BroadcastsInDim S50000 (![] : Fin 0 → Fin S50000.rank)
  shapeCasts_S50000_S50000x1 : S50000.ShapeCasts S50000x1
  bcast_S_S100000x128 : S_.BroadcastsInDim S100000x128 (![] : Fin 0 → Fin S100000x128.rank)
  bcast_S_S50000x128 : S_.BroadcastsInDim S50000x128 (![] : Fin 0 → Fin S50000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S100000x256 : S_.BroadcastsInDim S100000x256 (![] : Fin 0 → Fin S100000x256.rank)
  bcast_S_S50000x256 : S_.BroadcastsInDim S50000x256 (![] : Fin 0 → Fin S50000x256.rank)
  transposes_S256x256_S256x256_1_0 : S256x256.Transposes [1, 0] S256x256
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S2000x256_S256 : S2000x256.Reduces [0] S256
  broadcasts_S1x256_S8x256 : S1x256.Broadcasts S8x256
  inb_S8x256_S8x256_0_0 : ∀ a, (![0, 0] : Fin 2 → Nat) a + S8x256.size a ≤ S8x256.size a
  h_S8x256 : 0 < S8x256.numel
  reducesTo_S400x256_S256_d0 : S400x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  reducesTo_S200x256_S256_d0 : S200x256.ReducesTo [0] S256
  concatenates_S1x256_S1x256_S1x512_d1 : Shape.Concatenates [S1x256, S1x256] S1x512 1
  transposes_S256x512_S512x256_1_0 : S256x512.Transposes [1, 0] S512x256
  transposes_S16x256_S256x16_1_0 : S16x256.Transposes [1, 0] S256x16
  bcast_S16_S1x16_1 : S16.BroadcastsInDim S1x16 (![1] : Fin 1 → Fin S1x16.rank)
  scatter_S100000_S300000x1_S300000_n_0_0_1_wf : ScatterDims.WF S100000 S300000x1 S300000 [] [0] [0] 1
  scatter_S50000_S300000x1_S300000_n_0_0_1_wf : ScatterDims.WF S50000 S300000x1 S300000 [] [0] [0] 1
  gather_S50000x128_S300000x1_S300000x128_1_0_n_n_0_1_1128_wf : GatherDims.WF S50000x128 S300000x1 S300000x128 [1] [0] [] [0] [] 1 ![1, 128]
  scatter_S100000x128_S300000x1_S300000x128_1_0_0_1_wf : ScatterDims.WF S100000x128 S300000x1 S300000x128 [1] [0] [0] 1
  gather_S100000x128_S300000x1_S300000x128_1_0_n_n_0_1_1128_wf : GatherDims.WF S100000x128 S300000x1 S300000x128 [1] [0] [] [0] [] 1 ![1, 128]
  scatter_S50000x128_S300000x1_S300000x128_1_0_0_1_wf : ScatterDims.WF S50000x128 S300000x1 S300000x128 [1] [0] [0] 1
  dot_S2000x128_S128x256_S2000x256_1_0_0_1_n_n_wf : DotDims.WF S2000x128 S128x256 S2000x256 [1] [0] [0] [1] [] []
  gather_S50000x256_S300000x1_S300000x256_1_0_n_n_0_1_1256_wf : GatherDims.WF S50000x256 S300000x1 S300000x256 [1] [0] [] [0] [] 1 ![1, 256]
  scatter_S100000x256_S300000x1_S300000x256_1_0_0_1_wf : ScatterDims.WF S100000x256 S300000x1 S300000x256 [1] [0] [0] 1
  gather_S100000x256_S300000x1_S300000x256_1_0_n_n_0_1_1256_wf : GatherDims.WF S100000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  dot_S1x512_S512x256_S1x256_1_0_0_1_n_n_wf : DotDims.WF S1x512 S512x256 S1x256 [1] [0] [0] [1] [] []
  dot_S1x256_S256x16_S1x16_1_0_0_1_n_n_wf : DotDims.WF S1x256 S256x16 S1x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .bf16 = 32 ∨ (Rect.block (s := S100000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .f32 = 32 ∨ (Rect.block (s := S128x256) S128x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .bf16 = 32 ∨ (Rect.block (s := S50000x256) S2000x256.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .bf16 = 32 ∨ (Rect.block (s := S100000x256) S2000x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x256.size a ≤ S128x256.size a
  hwx2_7 : ∀ i : grid2.Coords, EltTy.bits .f32 = 32 ∨ (Rect.block (s := S128x256) S128x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8x256.size a ≤ S400x256.size a
  hwx2_9 : ∀ i : grid2.Coords, EltTy.bits .f32 = 32 ∨ (Rect.block (s := S400x256) S8x256.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .bf16 = 32 ∨ (Rect.block (s := S50000x256) S2000x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x256.size a ≤ S128x256.size a
  hwx3_7 : ∀ i : grid3.Coords, EltTy.bits .f32 = 32 ∨ (Rect.block (s := S128x256) S128x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S8x256.size a ≤ S200x256.size a
  hwx3_9 : ∀ i : grid3.Coords, EltTy.bits .f32 = 32 ∨ (Rect.block (s := S200x256) S8x256.size (cc3_transform_9 i) (hinb3_9 i)).WholeWords (EltTy.packing .f32)

variable [Facts₀]

def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v55) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S2000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v67) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S128x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v71) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v72) S8x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v66) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg0) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v77) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v80) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S256x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v79) S128x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v81) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v82) S8x256.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S50000x128 : Shape := ⟨2, ![50000, 128]⟩
abbrev S100000x128 : Shape := ⟨2, ![100000, 128]⟩
abbrev S300000 : Shape := ⟨1, ![300000]⟩
abbrev S256x128 : Shape := ⟨2, ![256, 128]⟩
abbrev S256 : Shape := ⟨1, ![256]⟩
abbrev S256x256 : Shape := ⟨2, ![256, 256]⟩
abbrev S256x512 : Shape := ⟨2, ![256, 512]⟩
abbrev S16x256 : Shape := ⟨2, ![16, 256]⟩
abbrev S16 : Shape := ⟨1, ![16]⟩
abbrev S_ : Shape := ⟨0, ![]⟩
abbrev S300000x1 : Shape := ⟨2, ![300000, 1]⟩
abbrev S300000x128 : Shape := ⟨2, ![300000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S50000 : Shape := ⟨1, ![50000]⟩
abbrev S50000x1 : Shape := ⟨2, ![50000, 1]⟩
abbrev S50000x256 : Shape := ⟨2, ![50000, 256]⟩
abbrev S300000x256 : Shape := ⟨2, ![300000, 256]⟩
abbrev S1x512 : Shape := ⟨2, ![1, 512]⟩
abbrev S512x256 : Shape := ⟨2, ![512, 256]⟩
abbrev S256x16 : Shape := ⟨2, ![256, 16]⟩
abbrev S1x16 : Shape := ⟨2, ![1, 16]⟩

abbrev nBuf : Space → Nat
  | .hbm => 206
  | .vmem => 0
  | .smem => 0
  | _ => 0

abbrev hbmTy0_0 (i : Nat) : BufTy := match i % 128 with
  | 0 => ⟨S50000x128, .f32⟩
  | 1 => ⟨S100000x128, .f32⟩
  | 2 => ⟨S300000, .i32⟩
  | 3 => ⟨S300000, .i32⟩
  | 4 => ⟨S300000, .i32⟩
  | 5 => ⟨S300000, .i32⟩
  | 6 => ⟨S256x128, .f32⟩
  | 7 => ⟨S256, .f32⟩
  | 8 => ⟨S256x128, .f32⟩
  | 9 => ⟨S256x128, .f32⟩
  | 10 => ⟨S256, .f32⟩
  | 11 => ⟨S256x128, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x128, .f32⟩
  | 19 => ⟨S256, .f32⟩
  | 20 => ⟨S256x128, .f32⟩
  | 21 => ⟨S256, .f32⟩
  | 22 => ⟨S256x512, .f32⟩
  | 23 => ⟨S256, .f32⟩
  | 24 => ⟨S16x256, .f32⟩
  | 25 => ⟨S16, .f32⟩
  | 26 => ⟨S_, .i32⟩
  | 27 => ⟨S300000, .i32⟩
  | 28 => ⟨S300000, .i1⟩
  | 29 => ⟨S_, .i32⟩
  | 30 => ⟨S300000, .i32⟩
  | 31 => ⟨S300000, .i32⟩
  | 32 => ⟨S300000, .i32⟩
  | 33 => ⟨S300000x1, .i32⟩
  | 34 => ⟨S300000x128, .f32⟩
  | 35 => ⟨S_, .f32⟩
  | 36 => ⟨S100000x128, .f32⟩
  | 37 => ⟨S300000x1, .i32⟩
  | 38 => ⟨S100000x128, .f32⟩
  | 39 => ⟨S_, .f32⟩
  | 40 => ⟨S300000, .f32⟩
  | 41 => ⟨S_, .f32⟩
  | 42 => ⟨S100000, .f32⟩
  | 43 => ⟨S300000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x128, .f32⟩
  | 50 => ⟨S100000x128, .f32⟩
  | 51 => ⟨S128x256, .f32⟩
  | 52 => ⟨S100000x256, .f32⟩
  | 53 => ⟨S1x256, .f32⟩
  | 54 => ⟨S100000x256, .f32⟩
  | 55 => ⟨S100000x256, .f32⟩
  | 56 => ⟨S128x256, .f32⟩
  | 57 => ⟨S100000x256, .f32⟩
  | 58 => ⟨S100000x256, .f32⟩
  | 59 => ⟨S_, .f32⟩
  | 60 => ⟨S100000x256, .f32⟩
  | 61 => ⟨S100000x256, .f32⟩
  | 62 => ⟨S_, .i32⟩
  | 63 => ⟨S300000, .i32⟩
  | 64 => ⟨S300000, .i1⟩
  | 65 => ⟨S_, .i32⟩
  | 66 => ⟨S300000, .i32⟩
  | 67 => ⟨S300000, .i32⟩
  | 68 => ⟨S300000, .i32⟩
  | 69 => ⟨S300000x1, .i32⟩
  | 70 => ⟨S300000x128, .f32⟩
  | 71 => ⟨S_, .f32⟩
  | 72 => ⟨S50000x128, .f32⟩
  | 73 => ⟨S300000x1, .i32⟩
  | 74 => ⟨S50000x128, .f32⟩
  | 75 => ⟨S_, .f32⟩
  | 76 => ⟨S300000, .f32⟩
  | 77 => ⟨S_, .f32⟩
  | 78 => ⟨S50000, .f32⟩
  | 79 => ⟨S300000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S128x256, .f32⟩
  | 88 => ⟨S50000x256, .f32⟩
  | 89 => ⟨S1x256, .f32⟩
  | 90 => ⟨S50000x256, .f32⟩
  | 91 => ⟨S50000x256, .f32⟩
  | 92 => ⟨S128x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S300000x256, .f32⟩
  | 107 => ⟨S_, .f32⟩
  | 108 => ⟨S100000x256, .f32⟩
  | 109 => ⟨S300000x1, .i32⟩
  | 110 => ⟨S100000x256, .f32⟩
  | 111 => ⟨S_, .f32⟩
  | 112 => ⟨S300000, .f32⟩
  | 113 => ⟨S_, .f32⟩
  | 114 => ⟨S100000, .f32⟩
  | 115 => ⟨S300000x1, .i32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x256, .f32⟩
  | 122 => ⟨S100000x256, .f32⟩
  | 123 => ⟨S256x256, .f32⟩
  | 124 => ⟨S100000x256, .f32⟩
  | 125 => ⟨S1x256, .f32⟩
  | 126 => ⟨S100000x256, .f32⟩
  | 127 => ⟨S100000x256, .f32⟩
  | _ => ⟨S50000x128, .f32⟩

abbrev hbmTy0_1 (i : Nat) : BufTy := match i % 128 with
  | 0 => ⟨S256x256, .f32⟩
  | 1 => ⟨S100000x256, .f32⟩
  | 2 => ⟨S100000x256, .f32⟩
  | 3 => ⟨S_, .i32⟩
  | 4 => ⟨S300000, .i32⟩
  | 5 => ⟨S300000, .i1⟩
  | 6 => ⟨S_, .i32⟩
  | 7 => ⟨S300000, .i32⟩
  | 8 => ⟨S300000, .i32⟩
  | 9 => ⟨S300000, .i32⟩
  | 10 => ⟨S300000x1, .i32⟩
  | 11 => ⟨S300000x256, .f32⟩
  | 12 => ⟨S_, .f32⟩
  | 13 => ⟨S50000x256, .f32⟩
  | 14 => ⟨S300000x1, .i32⟩
  | 15 => ⟨S50000x256, .f32⟩
  | 16 => ⟨S_, .f32⟩
  | 17 => ⟨S300000, .f32⟩
  | 18 => ⟨S_, .f32⟩
  | 19 => ⟨S50000, .f32⟩
  | 20 => ⟨S300000x1, .i32⟩
  | 21 => ⟨S50000, .f32⟩
  | 22 => ⟨S_, .f32⟩
  | 23 => ⟨S50000, .f32⟩
  | 24 => ⟨S50000, .f32⟩
  | 25 => ⟨S50000x1, .f32⟩
  | 26 => ⟨S50000x256, .f32⟩
  | 27 => ⟨S50000x256, .f32⟩
  | 28 => ⟨S256x256, .f32⟩
  | 29 => ⟨S50000x256, .f32⟩
  | 30 => ⟨S1x256, .f32⟩
  | 31 => ⟨S50000x256, .f32⟩
  | 32 => ⟨S50000x256, .f32⟩
  | 33 => ⟨S256x256, .f32⟩
  | 34 => ⟨S50000x256, .f32⟩
  | 35 => ⟨S50000x256, .f32⟩
  | 36 => ⟨S128x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S_, .f32⟩
  | 43 => ⟨S50000x256, .f32⟩
  | 44 => ⟨S50000x256, .f32⟩
  | 45 => ⟨S128x256, .f32⟩
  | 46 => ⟨S100000x256, .f32⟩
  | 47 => ⟨S100000x256, .f32⟩
  | 48 => ⟨S1x256, .f32⟩
  | 49 => ⟨S100000x256, .f32⟩
  | 50 => ⟨S100000x256, .f32⟩
  | 51 => ⟨S_, .f32⟩
  | 52 => ⟨S100000x256, .f32⟩
  | 53 => ⟨S100000x256, .f32⟩
  | 54 => ⟨S_, .f32⟩
  | 55 => ⟨S256, .f32⟩
  | 56 => ⟨S1x256, .f32⟩
  | 57 => ⟨S_, .f32⟩
  | 58 => ⟨S1x256, .f32⟩
  | 59 => ⟨S1x256, .f32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S1x512, .f32⟩
  | 67 => ⟨S512x256, .f32⟩
  | 68 => ⟨S1x256, .f32⟩
  | 69 => ⟨S1x256, .f32⟩
  | 70 => ⟨S1x256, .f32⟩
  | 71 => ⟨S_, .f32⟩
  | 72 => ⟨S1x256, .f32⟩
  | 73 => ⟨S1x256, .f32⟩
  | 74 => ⟨S256x16, .f32⟩
  | 75 => ⟨S1x16, .f32⟩
  | 76 => ⟨S1x16, .f32⟩
  | 77 => ⟨S1x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call0_cst : Ref sig .tc := ⟨.hbm, 59, rfl⟩
abbrev main_call0_v0 : Ref sig .tc := ⟨.hbm, 60, rfl⟩
abbrev main_v27 : Ref sig .tc := ⟨.hbm, 61, rfl⟩
abbrev main_c_4 : Ref sig .tc := ⟨.hbm, 62, rfl⟩
abbrev main_v28 : Ref sig .tc := ⟨.hbm, 63, rfl⟩
abbrev main_v29 : Ref sig .tc := ⟨.hbm, 64, rfl⟩
abbrev main_c_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_6 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_cst_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_9 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_call1_cst : Ref sig .tc := ⟨.hbm, 95, rfl⟩
abbrev main_call1_v0 : Ref sig .tc := ⟨.hbm, 96, rfl⟩
abbrev main_v55 : Ref sig .tc := ⟨.hbm, 97, rfl⟩
abbrev main_c_10 : Ref sig .tc := ⟨.hbm, 98, rfl⟩
abbrev main_v56 : Ref sig .tc := ⟨.hbm, 99, rfl⟩
abbrev main_v57 : Ref sig .tc := ⟨.hbm, 100, rfl⟩
abbrev main_c_11 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_12 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_cst_13 : Ref sig .tc := ⟨.hbm, 111, rfl⟩
abbrev main_v66 : Ref sig .tc := ⟨.hbm, 112, rfl⟩
abbrev main_cst_14 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_cst_15 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_c_16 : Ref sig .tc := ⟨.hbm, 131, rfl⟩
abbrev main_v83 : Ref sig .tc := ⟨.hbm, 132, rfl⟩
abbrev main_v84 : Ref sig .tc := ⟨.hbm, 133, rfl⟩
abbrev main_c_17 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_18 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_19 : Ref sig .tc := ⟨.hbm, 144, rfl⟩
abbrev main_v93 : Ref sig .tc := ⟨.hbm, 145, rfl⟩
abbrev main_cst_20 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_21 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_call2_cst : Ref sig .tc := ⟨.hbm, 170, rfl⟩
abbrev main_call2_v0 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_call3_cst : Ref sig .tc := ⟨.hbm, 179, rfl⟩
abbrev main_call3_v0 : Ref sig .tc := ⟨.hbm, 180, rfl⟩
abbrev main_v123 : Ref sig .tc := ⟨.hbm, 181, rfl⟩
abbrev main_cst_22 : Ref sig .tc := ⟨.hbm, 182, rfl⟩
abbrev main_v124 : Ref sig .tc := ⟨.hbm, 183, rfl⟩
abbrev main_v125 : Ref sig .tc := ⟨.hbm, 184, rfl⟩
abbrev main_cst_23 : Ref sig .tc := ⟨.hbm, 185, rfl⟩
abbrev main_v126 : Ref sig .tc := ⟨.hbm, 186, rfl⟩
abbrev main_v127 : Ref sig .tc := ⟨.hbm, 187, rfl⟩
abbrev main_cst_24 : Ref sig .tc := ⟨.hbm, 188, rfl⟩
abbrev main_v128 : Ref sig .tc := ⟨.hbm, 189, rfl⟩
abbrev main_v129 : Ref sig .tc := ⟨.hbm, 190, rfl⟩
abbrev main_cst_25 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_call4_cst : Ref sig .tc := ⟨.hbm, 199, rfl⟩
abbrev main_call4_v0 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S100000x1_S100000x256_0_1 : S100000x1.BroadcastsInDim S100000x256 (![0, 1] : Fin 2 → Fin S100000x256.rank)
  transposes_S256x256_S256x256_1_0 : S256x256.Transposes [1, 0] S256x256
  bcast_S50000x1_S50000x256_0_1 : S50000x1.BroadcastsInDim S50000x256 (![0, 1] : Fin 2 → Fin S50000x256.rank)
  reducesTo_S50000x256_S256_d0 : S50000x256.ReducesTo [0] S256
  h_S_ : 0 < S_.numel
  bcast_S_S1x256 : S_.BroadcastsInDim S1x256 (![] : Fin 0 → Fin S1x256.rank)
  reducesTo_S100000x256_S256_d0 : S100000x256.ReducesTo [0] S256
  concatenates_S1x256_S1x256_S1x512_d1 : Shape.Concatenates [S1x256, S1x256] S1x512 1
  transposes_S256x512_S512x256_1_0 : S256x512.Transposes [1, 0] S512x256
  transposes_S16x256_S256x16_1_0 : S16x256.Transposes [1, 0] S256x16
  bcast_S16_S1x16_1 : S16.BroadcastsInDim S1x16 (![1] : Fin 1 → Fin S1x16.rank)
  gather_S50000x128_S300000x1_S300000x128_1_0_n_n_0_1_1128_wf : GatherDims.WF S50000x128 S300000x1 S300000x128 [1] [0] [] [0] [] 1 ![1, 128]
  scatter_S100000x128_S300000x1_S300000x128_1_0_0_1_wf : ScatterDims.WF S100000x128 S300000x1 S300000x128 [1] [0] [0] 1
  scatter_S100000_S300000x1_S300000_n_0_0_1_wf : ScatterDims.WF S100000 S300000x1 S300000 [] [0] [0] 1
  dot_S100000x128_S128x256_S100000x256_1_0_0_1_n_n_wf : DotDims.WF S100000x128 S128x256 S100000x256 [1] [0] [0] [1] [] []
  gather_S100000x128_S300000x1_S300000x128_1_0_n_n_0_1_1128_wf : GatherDims.WF S100000x128 S300000x1 S300000x128 [1] [0] [] [0] [] 1 ![1, 128]
  scatter_S50000x128_S300000x1_S300000x128_1_0_0_1_wf : ScatterDims.WF S50000x128 S300000x1 S300000x128 [1] [0] [0] 1
  scatter_S50000_S300000x1_S300000_n_0_0_1_wf : ScatterDims.WF S50000 S300000x1 S300000 [] [0] [0] 1
  dot_S50000x128_S128x256_S50000x256_1_0_0_1_n_n_wf : DotDims.WF S50000x128 S128x256 S50000x256 [1] [0] [0] [1] [] []
  gather_S50000x256_S300000x1_S300000x256_1_0_n_n_0_1_1256_wf : GatherDims.WF S50000x256 S300000x1 S300000x256 [1] [0] [] [0] [] 1 ![1, 256]
  scatter_S100000x256_S300000x1_S300000x256_1_0_0_1_wf : ScatterDims.WF S100000x256 S300000x1 S300000x256 [1] [0] [0] 1
  dot_S100000x256_S256x256_S100000x256_1_0_0_1_n_n_wf : DotDims.WF S100000x256 S256x256 S100000x256 [1] [0] [0] [1] [] []
  gather_S100000x256_S300000x1_S300000x256_1_0_n_n_0_1_1256_wf : GatherDims.WF S100000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []
  dot_S1x512_S512x256_S1x256_1_0_0_1_n_n_wf : DotDims.WF S1x512 S512x256 S1x256 [1] [0] [0] [1] [] []
  dot_S1x256_S256x16_S1x16_1_0_0_1_n_n_wf : DotDims.WF S1x256 S256x16 S1x16 [1] [0] [0] [1] [] []

variable [Facts₀]

def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf

class Facts : Prop extends Facts₀ where

variable [Facts]
-- ==== Proof.KernelOutcome.lean ====
/-
  The idealized kernel's run with its result named: every weakly fair execution of @main terminates, nothing
  faulting, and the result buffer ends at the contents the fold through @main's segments (host stretches and the four
  pipelined regions, in order) leaves there: the last segment's thread state holds every unscoped buffer at that
  boundary's contents, and the final memory is read against it.
-/
import proofs.«125567_j52707838656535_2_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last segment boundary's contents and the arguments unchanged. -/
theorem run : θ_run defs (onTc (τ := τ) (main (F := F))) ⟨m, fun _ => 0, ρ⟩ (fun r => ∀ c : Dev nD,
      r.2.mem ((c.tc : Thread nD τ).loc main_v96) = W11 m ρ c (Proc.devRef .tc main_v96)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v96 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c),
       (h c _ (mem_uc main_arg19 (by decide))).trans (W11_main_arg19 m ρ c),
       (h c _ (mem_uc main_arg20 (by decide))).trans (W11_main_arg20 m ρ c),
       (h c _ (mem_uc main_arg21 (by decide))).trans (W11_main_arg21 m ρ c),
       (h c _ (mem_uc main_arg22 (by decide))).trans (W11_main_arg22 m ρ c),
       (h c _ (mem_uc main_arg23 (by decide))).trans (W11_main_arg23 m ρ c),
       (h c _ (mem_uc main_arg24 (by decide))).trans (W11_main_arg24 m ρ c),
       (h c _ (mem_uc main_arg25 (by decide))).trans (W11_main_arg25 m ρ c)⟩)

end Cert.KernelIdeal.Outcome

end
-- ==== Proof.KernelGlue.lean ====
/-
  What each pipelined region of the idealized kernel is handed.

  Between the four regions @main runs the reference program's own host lines: the scatter-adds that aggregate
  neighbour rows, the clamped neighbour counts and their reciprocals, the transposed weight matrices and the bias
  rows. Each array a region reads is therefore one of the reference program's stage values, over the launch contents
  or over what an earlier region left.
-/
import proofs.«125567_j52707838656535_2_alg».proof.Proof.Gen.KernelIdeal.Frame
import proofs.«125567_j52707838656535_2_alg».proof.Proof.Gen.ReferenceIdeal.Read
import Idealize.ShloMosaic.Lib.StableHlo.Run
import Idealize.ShloMosaic.Lib.IdealHost

set_option maxRecDepth 16384

noncomputable section

namespace Cert.KernelIdeal.Glue

open Cert.KernelIdeal Cert.KernelIdeal.Gen Idealize.ShloMosaic Idealize.ShloMosaic.TcCoe Idealize.SL.Sem Idealize.ShloMosaic.StableHlo
open scoped BigOperators

variable (m : (ℓ : Loc nD τ sig) → Buf (Elt Ideal) ℓ) (ρ : Dev nD → PrngReg)

/-- No operation of a host stretch writes the buffer: one inequality of references per operation. -/
local macro "not_written" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The launch contents of core `c`'s buffer `b`. -/
abbrev arg (c : Dev nD) (b : Ref sig .tc) : Buf (Elt Ideal) ((c : Thread nD τ).loc b) := m ((c : Thread nD τ).loc b)

/-- The element-wise quotient of two `f32` arrays of one shape. -/
abbrev quot (S : Shape) (x y : FVec Ideal S .f32) : FVec Ideal S .f32 := Host.divf x y

/-! ## A buffer a host stretch does not write is carried across it -/

theorem keepH0 (c : Dev nD) (b : Ref sig .tc)
    (h : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ h
theorem keepH1 (c : Dev nD) (b : Ref sig .tc)
    (h : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ h
theorem keepH2 (c : Dev nD) (b : Ref sig .tc)
    (h : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ h
theorem keepH3 (c : Dev nD) (b : Ref sig .tc)
    (h : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ h

/-! ## Region 0's arrays at its entry

The aggregated first-layer rows of the paper side, the reciprocal clamped counts as a column, the root rows, and the
two transposed weight matrices with the bias row between them. -/

theorem W1_main_v26 (c : Dev nD) :
    W1 m ρ c (Proc.devRef .tc main_v26) =
      Cert.ReferenceIdeal.Read.val_main_v9 (F := Ideal) (arg m c main_arg0) (arg m c main_arg2) (arg m c main_arg3) := by
  show StableHlo.after hostOps0 _ (Proc.devRef .tc main_v26) = _
  after_results_simp
  rfl

theorem W1_main_v8 (c : Dev nD) :
    W1 m ρ c (Proc.devRef .tc main_v8) =
      (shapeCast S100000x1 (quot S100000 (Cert.ReferenceIdeal.Read.val_main_v14 (F := Ideal)) (Cert.ReferenceIdeal.Read.val_main_v15 (F := Ideal) (arg m c main_arg3)))
        shapeCasts_S100000_S100000x1 : Vec Ideal S100000x1 .f32) := by
  show StableHlo.after hostOps0 _ (Proc.devRef .tc main_v8) = _
  after_results_simp
  rfl

theorem W1_main_arg1 (c : Dev nD) : W1 m ρ c (Proc.devRef .tc main_arg1) = arg m c main_arg1 :=
  ((keepH0 m ρ c main_arg1 (by not_written hostOps0)).trans rfl)

theorem W1_main_v37 (c : Dev nD) :
    W1 m ρ c (Proc.devRef .tc main_v37) =
      Cert.ReferenceIdeal.Read.val_main_v19 (F := Ideal) (arg m c main_arg6) := by
  show StableHlo.after hostOps0 _ (Proc.devRef .tc main_v37) = _
  after_results_simp
  rfl

theorem W1_main_v39 (c : Dev nD) :
    W1 m ρ c (Proc.devRef .tc main_v39) =
      (shapeCast S1x256 (arg m c main_arg7) shapeCasts_S256_S1x256 : Vec Ideal S1x256 .f32) := by
  show StableHlo.after hostOps0 _ (Proc.devRef .tc main_v39) = _
  after_results_simp
  rfl

theorem W1_main_v38 (c : Dev nD) :
    W1 m ρ c (Proc.devRef .tc main_v38) =
      Cert.ReferenceIdeal.Read.val_main_v24 (F := Ideal) (arg m c main_arg8) := by
  show StableHlo.after hostOps0 _ (Proc.devRef .tc main_v38) = _
  after_results_simp
  rfl

/-! ## Region 1's arrays at its entry

The same on the author side; the first two were computed before region 0, which does not touch them. -/

theorem W1_main_v36 (c : Dev nD) :
    W1 m ρ c (Proc.devRef .tc main_v36) =
      Cert.ReferenceIdeal.Read.val_main_v37 (F := Ideal) (arg m c main_arg1) (arg m c main_arg4) (arg m c main_arg5) := by
  show StableHlo.after hostOps0 _ (Proc.devRef .tc main_v36) = _
  after_results_simp
  rfl

theorem W1_main_v16 (c : Dev nD) :
    W1 m ρ c (Proc.devRef .tc main_v16) =
      (shapeCast S50000x1 (quot S50000 (Cert.ReferenceIdeal.Read.val_main_v42 (F := Ideal)) (Cert.ReferenceIdeal.Read.val_main_v43 (F := Ideal) (arg m c main_arg5)))
        shapeCasts_S50000_S50000x1 : Vec Ideal S50000x1 .f32) := by
  show StableHlo.after hostOps0 _ (Proc.devRef .tc main_v16) = _
  after_results_simp
  rfl

theorem W3_main_v36 (c : Dev nD) :
    W3 m ρ c (Proc.devRef .tc main_v36) = Cert.ReferenceIdeal.Read.val_main_v37 (F := Ideal) (arg m c main_arg1) (arg m c main_arg4) (arg m c main_arg5) :=
  ((keepH1 m ρ c main_v36 (by not_written hostOps1)).trans ((W2_of_ne m ρ c main_v36 (by decide)).trans (W1_main_v36 m ρ c)))

theorem W3_main_v16 (c : Dev nD) :
    W3 m ρ c (Proc.devRef .tc main_v16) =
      (shapeCast S50000x1 (quot S50000 (Cert.ReferenceIdeal.Read.val_main_v42 (F := Ideal)) (Cert.ReferenceIdeal.Read.val_main_v43 (F := Ideal) (arg m c main_arg5)))
        shapeCasts_S50000_S50000x1 : Vec Ideal S50000x1 .f32) :=
  ((keepH1 m ρ c main_v16 (by not_written hostOps1)).trans ((W2_of_ne m ρ c main_v16 (by decide)).trans (W1_main_v16 m ρ c)))

theorem W3_main_arg0 (c : Dev nD) : W3 m ρ c (Proc.devRef .tc main_arg0) = arg m c main_arg0 :=
  ((keepH1 m ρ c main_arg0 (by not_written hostOps1)).trans ((W2_of_ne m ρ c main_arg0 (by decide)).trans ((keepH0 m ρ c main_arg0 (by not_written hostOps0)).trans rfl)))

theorem W2_arg9 (c : Dev nD) : W2 m ρ c (Proc.devRef .tc main_arg9) = arg m c main_arg9 :=
  ((W2_of_ne m ρ c main_arg9 (by decide)).trans ((keepH0 m ρ c main_arg9 (by not_written hostOps0)).trans rfl))
theorem W2_arg10 (c : Dev nD) : W2 m ρ c (Proc.devRef .tc main_arg10) = arg m c main_arg10 :=
  ((W2_of_ne m ρ c main_arg10 (by decide)).trans ((keepH0 m ρ c main_arg10 (by not_written hostOps0)).trans rfl))
theorem W2_arg11 (c : Dev nD) : W2 m ρ c (Proc.devRef .tc main_arg11) = arg m c main_arg11 :=
  ((W2_of_ne m ρ c main_arg11 (by decide)).trans ((keepH0 m ρ c main_arg11 (by not_written hostOps0)).trans rfl))

theorem W3_main_v41 (c : Dev nD) :
    W3 m ρ c (Proc.devRef .tc main_v41) =
      Cert.ReferenceIdeal.Read.val_main_v47 (F := Ideal) (arg m c main_arg9) := by
  show StableHlo.after hostOps1 _ (Proc.devRef .tc main_v41) = _
  after_results
  rw [W2_arg9 m ρ c]
  rfl

theorem W3_main_v43 (c : Dev nD) :
    W3 m ρ c (Proc.devRef .tc main_v43) =
      (shapeCast S1x256 (arg m c main_arg10) shapeCasts_S256_S1x256 : Vec Ideal S1x256 .f32) := by
  show StableHlo.after hostOps1 _ (Proc.devRef .tc main_v43) = _
  after_results
  rw [W2_arg10 m ρ c]
  rfl

theorem W3_main_v42 (c : Dev nD) :
    W3 m ρ c (Proc.devRef .tc main_v42) =
      Cert.ReferenceIdeal.Read.val_main_v52 (F := Ideal) (arg m c main_arg11) := by
  show StableHlo.after hostOps1 _ (Proc.devRef .tc main_v42) = _
  after_results
  rw [W2_arg11 m ρ c]
  rfl

/-! ## Region 2's arrays at its entry

The paper side's second layer: the aggregate of the rows region 1 left (gathered along the edges, scatter-added by
target), the reciprocal counts again, the rows region 0 left, the root rows, and the weights and bias rows. -/

theorem W4_arg2 (c : Dev nD) : W4 m ρ c (Proc.devRef .tc main_arg2) = arg m c main_arg2 :=
  ((W4_of_ne m ρ c main_arg2 (by decide)).trans ((keepH1 m ρ c main_arg2 (by not_written hostOps1)).trans ((W2_of_ne m ρ c main_arg2 (by decide)).trans ((keepH0 m ρ c main_arg2 (by not_written hostOps0)).trans rfl))))
theorem W4_arg3 (c : Dev nD) : W4 m ρ c (Proc.devRef .tc main_arg3) = arg m c main_arg3 :=
  ((W4_of_ne m ρ c main_arg3 (by decide)).trans ((keepH1 m ρ c main_arg3 (by not_written hostOps1)).trans ((W2_of_ne m ρ c main_arg3 (by decide)).trans ((keepH0 m ρ c main_arg3 (by not_written hostOps0)).trans rfl))))
theorem W4_arg4 (c : Dev nD) : W4 m ρ c (Proc.devRef .tc main_arg4) = arg m c main_arg4 :=
  ((W4_of_ne m ρ c main_arg4 (by decide)).trans ((keepH1 m ρ c main_arg4 (by not_written hostOps1)).trans ((W2_of_ne m ρ c main_arg4 (by decide)).trans ((keepH0 m ρ c main_arg4 (by not_written hostOps0)).trans rfl))))
theorem W4_arg5 (c : Dev nD) : W4 m ρ c (Proc.devRef .tc main_arg5) = arg m c main_arg5 :=
  ((W4_of_ne m ρ c main_arg5 (by decide)).trans ((keepH1 m ρ c main_arg5 (by not_written hostOps1)).trans ((W2_of_ne m ρ c main_arg5 (by decide)).trans ((keepH0 m ρ c main_arg5 (by not_written hostOps0)).trans rfl))))
theorem W4_arg12 (c : Dev nD) : W4 m ρ c (Proc.devRef .tc main_arg12) = arg m c main_arg12 :=
  ((W4_of_ne m ρ c main_arg12 (by decide)).trans ((keepH1 m ρ c main_arg12 (by not_written hostOps1)).trans ((W2_of_ne m ρ c main_arg12 (by decide)).trans ((keepH0 m ρ c main_arg12 (by not_written hostOps0)).trans rfl))))
theorem W4_arg13 (c : Dev nD) : W4 m ρ c (Proc.devRef .tc main_arg13) = arg m c main_arg13 :=
  ((W4_of_ne m ρ c main_arg13 (by decide)).trans ((keepH1 m ρ c main_arg13 (by not_written hostOps1)).trans ((W2_of_ne m ρ c main_arg13 (by decide)).trans ((keepH0 m ρ c main_arg13 (by not_written hostOps0)).trans rfl))))
theorem W4_arg14 (c : Dev nD) : W4 m ρ c (Proc.devRef .tc main_arg14) = arg m c main_arg14 :=
  ((W4_of_ne m ρ c main_arg14 (by decide)).trans ((keepH1 m ρ c main_arg14 (by not_written hostOps1)).trans ((W2_of_ne m ρ c main_arg14 (by decide)).trans ((keepH0 m ρ c main_arg14 (by not_written hostOps0)).trans rfl))))
theorem W4_arg20 (c : Dev nD) : W4 m ρ c (Proc.devRef .tc main_arg20) = arg m c main_arg20 :=
  ((W4_of_ne m ρ c main_arg20 (by decide)).trans ((keepH1 m ρ c main_arg20 (by not_written hostOps1)).trans ((W2_of_ne m ρ c main_arg20 (by decide)).trans ((keepH0 m ρ c main_arg20 (by not_written hostOps0)).trans rfl))))
theorem W4_arg21 (c : Dev nD) : W4 m ρ c (Proc.devRef .tc main_arg21) = arg m c main_arg21 :=
  ((W4_of_ne m ρ c main_arg21 (by decide)).trans ((keepH1 m ρ c main_arg21 (by not_written hostOps1)).trans ((W2_of_ne m ρ c main_arg21 (by decide)).trans ((keepH0 m ρ c main_arg21 (by not_written hostOps0)).trans rfl))))

/-- What region 0 left is untouched up to region 1's exit. -/
theorem W4_main_v40 (c : Dev nD) : W4 m ρ c (Proc.devRef .tc main_v40) = W2 m ρ c (Proc.devRef .tc main_v40) :=
  ((W4_of_ne m ρ c main_v40 (by decide)).trans (keepH1 m ρ c main_v40 (by not_written hostOps1)))

theorem W5_main_v55 (c : Dev nD) :
    W5 m ρ c (Proc.devRef .tc main_v55) =
      (Host.scatterAdd (F := Ideal) (φ := .f32) Cert.ReferenceIdeal.scatter_S100000x256_S300000x1_S300000x256_1_0_0_1 (Cert.ReferenceIdeal.Read.val_main_v63 (F := Ideal)) (Cert.ReferenceIdeal.Read.val_main_v64 (F := Ideal) (arg m c main_arg3))
        (Host.gather (α := EReal) Cert.ReferenceIdeal.gather_S50000x256_S300000x1_S300000x256_1_0_n_n_0_1_1256 (W4 m ρ c (Proc.devRef .tc main_v44) : Vec Ideal S50000x256 .f32) (Cert.ReferenceIdeal.Read.val_main_v61 (F := Ideal) (arg m c main_arg2))) : Vec Ideal S100000x256 .f32) := by
  show StableHlo.after hostOps2 _ (Proc.devRef .tc main_v55) = _
  after_results_simp
  rw [W4_arg2 m ρ c, W4_arg3 m ρ c]
  rfl

theorem W5_main_v8 (c : Dev nD) :
    W5 m ρ c (Proc.devRef .tc main_v8) =
      (shapeCast S100000x1 (quot S100000 (Cert.ReferenceIdeal.Read.val_main_v14 (F := Ideal)) (Cert.ReferenceIdeal.Read.val_main_v15 (F := Ideal) (arg m c main_arg3)))
        shapeCasts_S100000_S100000x1 : Vec Ideal S100000x1 .f32) :=
  ((keepH2 m ρ c main_v8 (by not_written hostOps2)).trans ((W4_of_ne m ρ c main_v8 (by decide)).trans ((keepH1 m ρ c main_v8 (by not_written hostOps1)).trans (((W2_arr m ρ c 1).trans (((dat0 (V1 m ρ) c).arrAt_in 1 rfl _).trans (A_eq0 (V1 m ρ) c 1))).trans (W1_main_v8 m ρ c)))))

theorem W5_main_v40 (c : Dev nD) : W5 m ρ c (Proc.devRef .tc main_v40) = W2 m ρ c (Proc.devRef .tc main_v40) :=
  ((keepH2 m ρ c main_v40 (by not_written hostOps2)).trans (W4_main_v40 m ρ c))

theorem W5_main_arg1 (c : Dev nD) : W5 m ρ c (Proc.devRef .tc main_arg1) = arg m c main_arg1 :=
  ((keepH2 m ρ c main_arg1 (by not_written hostOps2)).trans ((W4_of_ne m ρ c main_arg1 (by decide)).trans ((keepH1 m ρ c main_arg1 (by not_written hostOps1)).trans (((W2_arr m ρ c 2).trans (((dat0 (V1 m ρ) c).arrAt_in 2 rfl _).trans (A_eq0 (V1 m ρ) c 2))).trans (W1_main_arg1 m ρ c)))))

theorem W5_main_v67 (c : Dev nD) :
    W5 m ρ c (Proc.devRef .tc main_v67) =
      Cert.ReferenceIdeal.Read.val_main_v75 (F := Ideal) (arg m c main_arg12) := by
  show StableHlo.after hostOps2 _ (Proc.devRef .tc main_v67) = _
  after_results_simp
  rw [W4_arg12 m ρ c]
  rfl

theorem W5_main_v70 (c : Dev nD) :
    W5 m ρ c (Proc.devRef .tc main_v70) =
      (shapeCast S1x256 (arg m c main_arg13) shapeCasts_S256_S1x256 : Vec Ideal S1x256 .f32) := by
  show StableHlo.after hostOps2 _ (Proc.devRef .tc main_v70) = _
  after_results_simp
  rw [W4_arg13 m ρ c]
  rfl

theorem W5_main_v68 (c : Dev nD) :
    W5 m ρ c (Proc.devRef .tc main_v68) =
      Cert.ReferenceIdeal.Read.val_main_v80 (F := Ideal) (arg m c main_arg14) := by
  show StableHlo.after hostOps2 _ (Proc.devRef .tc main_v68) = _
  after_results_simp
  rw [W4_arg14 m ρ c]
  rfl

theorem W5_main_v69 (c : Dev nD) :
    W5 m ρ c (Proc.devRef .tc main_v69) =
      Cert.ReferenceIdeal.Read.val_main_v117 (F := Ideal) (arg m c main_arg20) := by
  show StableHlo.after hostOps2 _ (Proc.devRef .tc main_v69) = _
  after_results_simp
  rw [W4_arg20 m ρ c]
  rfl

theorem W5_main_v71 (c : Dev nD) :
    W5 m ρ c (Proc.devRef .tc main_v71) =
      (shapeCast S1x256 (arg m c main_arg21) shapeCasts_S256_S1x256 : Vec Ideal S1x256 .f32) := by
  show StableHlo.after hostOps2 _ (Proc.devRef .tc main_v71) = _
  after_results_simp
  rw [W4_arg21 m ρ c]
  rfl

/-! ## Region 3's arrays at its entry

The author side's second layer, over the rows region 0 left. -/

theorem W5_main_v66 (c : Dev nD) :
    W5 m ρ c (Proc.devRef .tc main_v66) =
      (Host.scatterAdd (F := Ideal) (φ := .f32) Cert.ReferenceIdeal.scatter_S50000x256_S300000x1_S300000x256_1_0_0_1 (Cert.ReferenceIdeal.Read.val_main_v90 (F := Ideal)) (Cert.ReferenceIdeal.Read.val_main_v91 (F := Ideal) (arg m c main_arg5))
        (Host.gather (α := EReal) Cert.ReferenceIdeal.gather_S100000x256_S300000x1_S300000x256_1_0_n_n_0_1_1256 (W2 m ρ c (Proc.devRef .tc main_v40) : Vec Ideal S100000x256 .f32) (Cert.ReferenceIdeal.Read.val_main_v88 (F := Ideal) (arg m c main_arg4))) : Vec Ideal S50000x256 .f32) := by
  show StableHlo.after hostOps2 _ (Proc.devRef .tc main_v66) = _
  after_results_simp
  rw [W4_arg4 m ρ c, W4_arg5 m ρ c, W4_main_v40 m ρ c]
  rfl

theorem W7_main_v66 (c : Dev nD) :
    W7 m ρ c (Proc.devRef .tc main_v66) =
      (Host.scatterAdd (F := Ideal) (φ := .f32) Cert.ReferenceIdeal.scatter_S50000x256_S300000x1_S300000x256_1_0_0_1 (Cert.ReferenceIdeal.Read.val_main_v90 (F := Ideal)) (Cert.ReferenceIdeal.Read.val_main_v91 (F := Ideal) (arg m c main_arg5))
        (Host.gather (α := EReal) Cert.ReferenceIdeal.gather_S100000x256_S300000x1_S300000x256_1_0_n_n_0_1_1256 (W2 m ρ c (Proc.devRef .tc main_v40) : Vec Ideal S100000x256 .f32) (Cert.ReferenceIdeal.Read.val_main_v88 (F := Ideal) (arg m c main_arg4))) : Vec Ideal S50000x256 .f32) :=
  ((keepH3 m ρ c main_v66 (by not_written hostOps3)).trans ((W6_of_ne m ρ c main_v66 (by decide)).trans (W5_main_v66 m ρ c)))

theorem W7_main_v16 (c : Dev nD) :
    W7 m ρ c (Proc.devRef .tc main_v16) =
      (shapeCast S50000x1 (quot S50000 (Cert.ReferenceIdeal.Read.val_main_v42 (F := Ideal)) (Cert.ReferenceIdeal.Read.val_main_v43 (F := Ideal) (arg m c main_arg5)))
        shapeCasts_S50000_S50000x1 : Vec Ideal S50000x1 .f32) :=
  ((keepH3 m ρ c main_v16 (by not_written hostOps3)).trans ((W6_of_ne m ρ c main_v16 (by decide)).trans ((keepH2 m ρ c main_v16 (by not_written hostOps2)).trans (((W4_arr m ρ c 1).trans (((dat1 (V3 m ρ) c).arrAt_in 1 rfl _).trans (A_eq1 (V3 m ρ) c 1))).trans (W3_main_v16 m ρ c)))))

theorem W7_main_v44 (c : Dev nD) : W7 m ρ c (Proc.devRef .tc main_v44) = W4 m ρ c (Proc.devRef .tc main_v44) :=
  ((keepH3 m ρ c main_v44 (by not_written hostOps3)).trans ((W6_of_ne m ρ c main_v44 (by decide)).trans (keepH2 m ρ c main_v44 (by not_written hostOps2))))

theorem W7_main_arg0 (c : Dev nD) : W7 m ρ c (Proc.devRef .tc main_arg0) = arg m c main_arg0 :=
  ((keepH3 m ρ c main_arg0 (by not_written hostOps3)).trans ((W6_of_ne m ρ c main_arg0 (by decide)).trans ((keepH2 m ρ c main_arg0 (by not_written hostOps2)).trans (((W4_arr m ρ c 2).trans (((dat1 (V3 m ρ) c).arrAt_in 2 rfl _).trans (A_eq1 (V3 m ρ) c 2))).trans (W3_main_arg0 m ρ c)))))

theorem W6_arg15 (c : Dev nD) : W6 m ρ c (Proc.devRef .tc main_arg15) = arg m c main_arg15 :=
  ((W6_of_ne m ρ c main_arg15 (by decide)).trans ((keepH2 m ρ c main_arg15 (by not_written hostOps2)).trans ((W4_of_ne m ρ c main_arg15 (by decide)).trans ((keepH1 m ρ c main_arg15 (by not_written hostOps1)).trans ((W2_of_ne m ρ c main_arg15 (by decide)).trans ((keepH0 m ρ c main_arg15 (by not_written hostOps0)).trans rfl))))))
theorem W6_arg16 (c : Dev nD) : W6 m ρ c (Proc.devRef .tc main_arg16) = arg m c main_arg16 :=
  ((W6_of_ne m ρ c main_arg16 (by decide)).trans ((keepH2 m ρ c main_arg16 (by not_written hostOps2)).trans ((W4_of_ne m ρ c main_arg16 (by decide)).trans ((keepH1 m ρ c main_arg16 (by not_written hostOps1)).trans ((W2_of_ne m ρ c main_arg16 (by decide)).trans ((keepH0 m ρ c main_arg16 (by not_written hostOps0)).trans rfl))))))
theorem W6_arg17 (c : Dev nD) : W6 m ρ c (Proc.devRef .tc main_arg17) = arg m c main_arg17 :=
  ((W6_of_ne m ρ c main_arg17 (by decide)).trans ((keepH2 m ρ c main_arg17 (by not_written hostOps2)).trans ((W4_of_ne m ρ c main_arg17 (by decide)).trans ((keepH1 m ρ c main_arg17 (by not_written hostOps1)).trans ((W2_of_ne m ρ c main_arg17 (by decide)).trans ((keepH0 m ρ c main_arg17 (by not_written hostOps0)).trans rfl))))))
theorem W6_arg18 (c : Dev nD) : W6 m ρ c (Proc.devRef .tc main_arg18) = arg m c main_arg18 :=
  ((W6_of_ne m ρ c main_arg18 (by decide)).trans ((keepH2 m ρ c main_arg18 (by not_written hostOps2)).trans ((W4_of_ne m ρ c main_arg18 (by decide)).trans ((keepH1 m ρ c main_arg18 (by not_written hostOps1)).trans ((W2_of_ne m ρ c main_arg18 (by decide)).trans ((keepH0 m ρ c main_arg18 (by not_written hostOps0)).trans rfl))))))
theorem W6_arg19 (c : Dev nD) : W6 m ρ c (Proc.devRef .tc main_arg19) = arg m c main_arg19 :=
  ((W6_of_ne m ρ c main_arg19 (by decide)).trans ((keepH2 m ρ c main_arg19 (by not_written hostOps2)).trans ((W4_of_ne m ρ c main_arg19 (by decide)).trans ((keepH1 m ρ c main_arg19 (by not_written hostOps1)).trans ((W2_of_ne m ρ c main_arg19 (by decide)).trans ((keepH0 m ρ c main_arg19 (by not_written hostOps0)).trans rfl))))))

theorem W7_main_v77 (c : Dev nD) :
    W7 m ρ c (Proc.devRef .tc main_v77) =
      Cert.ReferenceIdeal.Read.val_main_v102 (F := Ideal) (arg m c main_arg15) := by
  show StableHlo.after hostOps3 _ (Proc.devRef .tc main_v77) = _
  after_results
  rw [W6_arg15 m ρ c]
  rfl

theorem W7_main_v80 (c : Dev nD) :
    W7 m ρ c (Proc.devRef .tc main_v80) =
      (shapeCast S1x256 (arg m c main_arg16) shapeCasts_S256_S1x256 : Vec Ideal S1x256 .f32) := by
  show StableHlo.after hostOps3 _ (Proc.devRef .tc main_v80) = _
  after_results
  rw [W6_arg16 m ρ c]
  rfl

theorem W7_main_v78 (c : Dev nD) :
    W7 m ρ c (Proc.devRef .tc main_v78) =
      Cert.ReferenceIdeal.Read.val_main_v107 (F := Ideal) (arg m c main_arg17) := by
  show StableHlo.after hostOps3 _ (Proc.devRef .tc main_v78) = _
  after_results
  rw [W6_arg17 m ρ c]
  rfl

theorem W7_main_v79 (c : Dev nD) :
    W7 m ρ c (Proc.devRef .tc main_v79) =
      Cert.ReferenceIdeal.Read.val_main_v110 (F := Ideal) (arg m c main_arg18) := by
  show StableHlo.after hostOps3 _ (Proc.devRef .tc main_v79) = _
  after_results
  rw [W6_arg18 m ρ c]
  rfl

theorem W7_main_v81 (c : Dev nD) :
    W7 m ρ c (Proc.devRef .tc main_v81) =
      (shapeCast S1x256 (arg m c main_arg19) shapeCasts_S256_S1x256 : Vec Ideal S1x256 .f32) := by
  show StableHlo.after hostOps3 _ (Proc.devRef .tc main_v81) = _
  after_results
  rw [W6_arg19 m ρ c]
  rfl

end Cert.KernelIdeal.Glue

end
-- ==== Proof.RefLayers.lean ====
import proofs.«125567_j52707838656535_2_alg».proof.Proof.Gen.ReferenceIdeal.Read
import Idealize.ShloMosaic.Lib.ValueIdx
import Idealize.ShloMosaic.Lib.IdealHost
import Idealize.ShloMosaic.PureOps.Ideal.Laws

/-!
# The reference's two layers and its pooling, read at an index

Each dense layer of the reference is a chain of elementwise operations, broadcasts, transposes and
contractions; read at one output coordinate it is the closed formula stated below: the mean of the
neighbour rows (an opaque scattered sum divided by the clamped count) times the neighbour weights,
plus the bias, plus the root rows times the root weights, clamped below at zero.
-/

noncomputable section

namespace Cert.ReferenceIdeal.Layers

open Cert.ReferenceIdeal Cert.ReferenceIdeal.Read Idealize.ShloMosaic Idealize.ShloMosaic.ValueIdx
open scoped BigOperators

/-! ## Index equations for layer one, paper side -/

theorem lidx_v20 (i : Fin 100000) (j : Fin 256) (k : Fin 128) : lidx_main_v20 (ix2 i j) k = ix2 i k :=
  funext fun a => by match a with | ⟨0, _⟩ => rfl | ⟨1, _⟩ => rfl
theorem ridx_v20 (i : Fin 100000) (j : Fin 256) (k : Fin 128) : ridx_main_v20 (ix2 i j) k = ix2 k j :=
  funext fun a => by match a with | ⟨0, _⟩ => rfl | ⟨1, _⟩ => rfl
theorem lidx_v25 (i : Fin 100000) (j : Fin 256) (k : Fin 128) : lidx_main_v25 (ix2 i j) k = ix2 i k :=
  funext fun a => by match a with | ⟨0, _⟩ => rfl | ⟨1, _⟩ => rfl
theorem ridx_v25 (i : Fin 100000) (j : Fin 256) (k : Fin 128) : ridx_main_v25 (ix2 i j) k = ix2 k j :=
  funext fun a => by match a with | ⟨0, _⟩ => rfl | ⟨1, _⟩ => rfl
theorem idx_v19 (k : Fin 128) (j : Fin 256) : idx_main_v19 (ix2 k j) = ix2 j k :=
  funext fun a => by match a with | ⟨0, _⟩ => rfl | ⟨1, _⟩ => rfl
theorem idx_v24 (k : Fin 128) (j : Fin 256) : idx_main_v24 (ix2 k j) = ix2 j k :=
  funext fun a => by match a with | ⟨0, _⟩ => rfl | ⟨1, _⟩ => rfl
theorem idx_v17 (i : Fin 100000) (k : Fin 128) : idx_main_v17 (ix2 i k) = ix2 i (0 : Fin 1) :=
  funext fun a => by match a with | ⟨0, _⟩ => rfl | ⟨1, _⟩ => rfl
theorem idx_v16 (i : Fin 100000) : idx_main_v16 (ix2 i (0 : Fin 1)) = ix1 i :=
  funext fun a => by match a with | ⟨0, _⟩ => rfl
theorem idx_v22 (i : Fin 100000) (j : Fin 256) : idx_main_v22 (ix2 i j) = ix2 (0 : Fin 1) j :=
  funext fun a => by match a with | ⟨0, _⟩ => rfl | ⟨1, _⟩ => rfl
theorem idx_v21 (j : Fin 256) : idx_main_v21 (ix2 (0 : Fin 1) j) = ix1 j :=
  funext fun a => by match a with | ⟨0, _⟩ => rfl

/-- The mean of the neighbour rows of paper node `i`, coordinate `k`. -/
theorem v18_apply (x0 : (⟨S50000x128, .f32⟩ : BufTy).Contents (Elt Ideal)) (x2 x3 : (⟨S300000, .i32⟩ : BufTy).Contents (Elt Ideal))
    (i : Fin 100000) (k : Fin 128) :
    val_main_v18 (F := Ideal) x0 x2 x3 (ix2 i k)
      = Ideal.div (val_main_v9 (F := Ideal) x0 x2 x3 (ix2 i k)) (max (val_main_v13 (F := Ideal) x3 (ix1 i)) (Ideal.ofBits .f32 0x3F800000#32)) := by
  rw [val_main_v18_apply, val_main_v17_apply, idx_v17, val_main_v16_apply, idx_v16, val_main_v15_apply, val_main_v14_apply,
    val_main_cst_3_apply]
  rfl

theorem h1p_apply (x0 : (⟨S50000x128, .f32⟩ : BufTy).Contents (Elt Ideal)) (x1 : (⟨S100000x128, .f32⟩ : BufTy).Contents (Elt Ideal))
    (x2 x3 : (⟨S300000, .i32⟩ : BufTy).Contents (Elt Ideal)) (x6 : (⟨S256x128, .f32⟩ : BufTy).Contents (Elt Ideal))
    (x7 : (⟨S256, .f32⟩ : BufTy).Contents (Elt Ideal)) (x8 : (⟨S256x128, .f32⟩ : BufTy).Contents (Elt Ideal))
    (i : Fin 100000) (j : Fin 256) :
    val_main_v27 (F := Ideal) x0 x1 x2 x3 x6 x7 x8 (ix2 i j)
      = max (((∑ k : Fin 128, Ideal.div (val_main_v9 (F := Ideal) x0 x2 x3 (ix2 i k)) (max (val_main_v13 (F := Ideal) x3 (ix1 i)) (Ideal.ofBits .f32 0x3F800000#32)) * x6 (ix2 j k))
          + x7 (ix1 j)) + ∑ k : Fin 128, x1 (ix2 i k) * x8 (ix2 j k)) (Ideal.ofBits .f32 0x00000000#32) := by
  rw [val_main_v27_apply, val_main_v26_apply, val_main_v23_apply, val_main_v20_apply, val_main_v25_apply, val_main_v22_apply,
    idx_v22, val_main_v21_apply, idx_v21, val_main_call0_v0_apply, val_main_call0_cst_apply]
  have e1 : ∀ k : Fin 128, val_main_v18 (F := Ideal) x0 x2 x3 (lidx_main_v20 (ix2 i j) k) * val_main_v19 (F := Ideal) x6 (ridx_main_v20 (ix2 i j) k)
      = Ideal.div (val_main_v9 (F := Ideal) x0 x2 x3 (ix2 i k)) (max (val_main_v13 (F := Ideal) x3 (ix1 i)) (Ideal.ofBits .f32 0x3F800000#32)) * x6 (ix2 j k) := by
    intro k
    rw [lidx_v20, ridx_v20, v18_apply, val_main_v19_apply, idx_v19]
  have e2 : ∀ k : Fin 128, x1 (lidx_main_v25 (ix2 i j) k) * val_main_v24 (F := Ideal) x8 (ridx_main_v25 (ix2 i j) k)
      = x1 (ix2 i k) * x8 (ix2 j k) := by
    intro k
    rw [lidx_v25, ridx_v25, val_main_v24_apply, idx_v24]
  rw [Finset.sum_congr rfl fun k _ => e1 k, Finset.sum_congr rfl fun k _ => e2 k]
  rfl

/-! ## Layer two, paper side -/

theorem lidx_v76 (i : Fin 100000) (j : Fin 256) (k : Fin 256) : lidx_main_v76 (ix2 i j) k = ix2 i k :=
  funext fun a => by match a with | ⟨0, _⟩ => rfl | ⟨1, _⟩ => rfl
theorem ridx_v76 (i : Fin 100000) (j : Fin 256) (k : Fin 256) : ridx_main_v76 (ix2 i j) k = ix2 k j :=
  funext fun a => by match a with | ⟨0, _⟩ => rfl | ⟨1, _⟩ => rfl
theorem lidx_v81 (i : Fin 100000) (j : Fin 256) (k : Fin 256) : lidx_main_v81 (ix2 i j) k = ix2 i k :=
  funext fun a => by match a with | ⟨0, _⟩ => rfl | ⟨1, _⟩ => rfl
theorem ridx_v81 (i : Fin 100000) (j : Fin 256) (k : Fin 256) : ridx_main_v81 (ix2 i j) k = ix2 k j :=
  funext fun a => by match a with | ⟨0, _⟩ => rfl | ⟨1, _⟩ => rfl
theorem lidx_v118 (i : Fin 100000) (j : Fin 256) (k : Fin 128) : lidx_main_v118 (ix2 i j) k = ix2 i k :=
  funext fun a => by match a with | ⟨0, _⟩ => rfl | ⟨1, _⟩ => rfl
theorem ridx_v118 (i : Fin 100000) (j : Fin 256) (k : Fin 128) : ridx_main_v118 (ix2 i j) k = ix2 k j :=
  funext fun a => by match a with | ⟨0, _⟩ => rfl | ⟨1, _⟩ => rfl
theorem idx_v75 (k : Fin 256) (j : Fin 256) : idx_main_v75 (ix2 k j) = ix2 j k :=
  funext fun a => by match a with | ⟨0, _⟩ => rfl | ⟨1, _⟩ => rfl
theorem idx_v80 (k : Fin 256) (j : Fin 256) : idx_main_v80 (ix2 k j) = ix2 j k :=
  funext fun a => by match a with | ⟨0, _⟩ => rfl | ⟨1, _⟩ => rfl
theorem idx_v117 (k : Fin 128) (j : Fin 256) : idx_main_v117 (ix2 k j) = ix2 j k :=
  funext fun a => by match a with | ⟨0, _⟩ => rfl | ⟨1, _⟩ => rfl
theorem idx_v73 (i : Fin 100000) (k : Fin 256) : idx_main_v73 (ix2 i k) = ix2 i (0 : Fin 1) :=
  funext fun a => by match a with | ⟨0, _⟩ => rfl | ⟨1, _⟩ => rfl
theorem idx_v72 (i : Fin 100000) : idx_main_v72 (ix2 i (0 : Fin 1)) = ix1 i :=
  funext fun a => by match a with | ⟨0, _⟩ => rfl
theorem idx_v78 (i : Fin 100000) (j : Fin 256) : idx_main_v78 (ix2 i j) = ix2 (0 : Fin 1) j :=
  funext fun a => by match a with | ⟨0, _⟩ => rfl | ⟨1, _⟩ => rfl
theorem idx_v77 (j : Fin 256) : idx_main_v77 (ix2 (0 : Fin 1) j) = ix1 j :=
  funext fun a => by match a with | ⟨0, _⟩ => rfl
theorem idx_v121 (i : Fin 100000) (j : Fin 256) : idx_main_v121 (ix2 i j) = ix2 (0 : Fin 1) j :=
  funext fun a => by match a with | ⟨0, _⟩ => rfl | ⟨1, _⟩ => rfl
theorem idx_v120 (j : Fin 256) : idx_main_v120 (ix2 (0 : Fin 1) j) = ix1 j :=
  funext fun a => by match a with | ⟨0, _⟩ => rfl

/-- The mean of the layer-one neighbour rows of paper node `i`, coordinate `k`. -/
theorem v74_apply (x0 : (⟨S50000x128, .f32⟩ : BufTy).Contents (Elt Ideal)) (x1 : (⟨S100000x128, .f32⟩ : BufTy).Contents (Elt Ideal)) (x2 : (⟨S300000, .i32⟩ : BufTy).Contents (Elt Ideal)) (x3 : (⟨S300000, .i32⟩ : BufTy).Contents (Elt Ideal)) (x4 : (⟨S300000, .i32⟩ : BufTy).Contents (Elt Ideal)) (x5 : (⟨S300000, .i32⟩ : BufTy).Contents (Elt Ideal)) (x9 : (⟨S256x128, .f32⟩ : BufTy).Contents (Elt Ideal)) (x10 : (⟨S256, .f32⟩ : BufTy).Contents (Elt Ideal)) (x11 : (⟨S256x128, .f32⟩ : BufTy).Contents (Elt Ideal))
    (i : Fin 100000) (k : Fin 256) :
    val_main_v74 (F := Ideal) x0 x1 x2 x3 x4 x5 x9 x10 x11 (ix2 i k)
      = Ideal.div (val_main_v65 (F := Ideal) x0 x1 x2 x3 x4 x5 x9 x10 x11 (ix2 i k)) (max (val_main_v69 (F := Ideal) x3 (ix1 i)) (Ideal.ofBits .f32 0x3F800000#32)) := by
  rw [val_main_v74_apply, val_main_v73_apply, idx_v73, val_main_v72_apply, idx_v72, val_main_v71_apply, val_main_v70_apply,
    val_main_cst_15_apply]
  rfl

/-- Layer two at paper node `i`, output coordinate `j`. -/
theorem h2p_apply (x0 : (⟨S50000x128, .f32⟩ : BufTy).Contents (Elt Ideal)) (x1 : (⟨S100000x128, .f32⟩ : BufTy).Contents (Elt Ideal)) (x2 : (⟨S300000, .i32⟩ : BufTy).Contents (Elt Ideal)) (x3 : (⟨S300000, .i32⟩ : BufTy).Contents (Elt Ideal)) (x4 : (⟨S300000, .i32⟩ : BufTy).Contents (Elt Ideal)) (x5 : (⟨S300000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x128, .f32⟩ : BufTy).Contents (Elt Ideal)) (x10 : (⟨S256, .f32⟩ : BufTy).Contents (Elt Ideal)) (x11 : (⟨S256x128, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x20 : (⟨S256x128, .f32⟩ : BufTy).Contents (Elt Ideal)) (x21 : (⟨S256, .f32⟩ : BufTy).Contents (Elt Ideal))
    (i : Fin 100000) (j : Fin 256) :
    val_main_v123 (F := Ideal) x0 x1 x2 x3 x4 x5 x6 x7 x8 x9 x10 x11 x12 x13 x14 x20 x21 (ix2 i j)
      = max (((((∑ k : Fin 256, Ideal.div (val_main_v65 (F := Ideal) x0 x1 x2 x3 x4 x5 x9 x10 x11 (ix2 i k)) (max (val_main_v69 (F := Ideal) x3 (ix1 i)) (Ideal.ofBits .f32 0x3F800000#32)) * x12 (ix2 j k))
          + x13 (ix1 j)) + ∑ k : Fin 256, val_main_v27 (F := Ideal) x0 x1 x2 x3 x6 x7 x8 (ix2 i k) * x14 (ix2 j k))
          + ∑ k : Fin 128, x1 (ix2 i k) * x20 (ix2 j k)) + x21 (ix1 j)) (Ideal.ofBits .f32 0x00000000#32) := by
  rw [val_main_v123_apply, val_main_v122_apply, val_main_v119_apply, val_main_v82_apply, val_main_v79_apply,
    val_main_v76_apply, val_main_v81_apply, val_main_v118_apply,
    val_main_v78_apply, idx_v78, val_main_v77_apply, idx_v77,
    val_main_v121_apply, idx_v121, val_main_v120_apply, idx_v120,
    val_main_call3_v0_apply, val_main_call3_cst_apply]
  have e1 : ∀ k : Fin 256, val_main_v74 (F := Ideal) x0 x1 x2 x3 x4 x5 x9 x10 x11 (lidx_main_v76 (ix2 i j) k) * val_main_v75 (F := Ideal) x12 (ridx_main_v76 (ix2 i j) k)
      = Ideal.div (val_main_v65 (F := Ideal) x0 x1 x2 x3 x4 x5 x9 x10 x11 (ix2 i k)) (max (val_main_v69 (F := Ideal) x3 (ix1 i)) (Ideal.ofBits .f32 0x3F800000#32)) * x12 (ix2 j k) := by
    intro k
    rw [lidx_v76, ridx_v76, v74_apply, val_main_v75_apply, idx_v75]
  have e2 : ∀ k : Fin 256, val_main_v27 (F := Ideal) x0 x1 x2 x3 x6 x7 x8 (lidx_main_v81 (ix2 i j) k) * val_main_v80 (F := Ideal) x14 (ridx_main_v81 (ix2 i j) k)
      = val_main_v27 (F := Ideal) x0 x1 x2 x3 x6 x7 x8 (ix2 i k) * x14 (ix2 j k) := by
    intro k
    rw [lidx_v81, ridx_v81, val_main_v80_apply, idx_v80]
  have e3 : ∀ k : Fin 128, x1 (lidx_main_v118 (ix2 i j) k) * val_main_v117 (F := Ideal) x20 (ridx_main_v118 (ix2 i j) k)
      = x1 (ix2 i k) * x20 (ix2 j k) := by
    intro k
    rw [lidx_v118, ridx_v118, val_main_v117_apply, idx_v117]
  rw [Finset.sum_congr rfl fun k _ => e1 k, Finset.sum_congr rfl fun k _ => e2 k, Finset.sum_congr rfl fun k _ => e3 k]
  rfl

/-! ## The two mean pools -/

theorem idx_v129 (j : Fin 256) : idx_main_v129 (ix2 (0 : Fin 1) j) = ix1 j :=
  funext fun a => by match a with | ⟨0, _⟩ => rfl
theorem idx_v128 (j : Fin 256) (k : Fin 100000) : idx_main_v128 (ix1 j) k = ix2 k j :=
  funext fun a => by match a with | ⟨0, _⟩ => rfl | ⟨1, _⟩ => rfl
theorem idx_v125 (j : Fin 256) : idx_main_v125 (ix2 (0 : Fin 1) j) = ix1 j :=
  funext fun a => by match a with | ⟨0, _⟩ => rfl
theorem idx_v124 (j : Fin 256) (k : Fin 50000) : idx_main_v124 (ix1 j) k = ix2 k j :=
  funext fun a => by match a with | ⟨0, _⟩ => rfl | ⟨1, _⟩ => rfl

/-- The mean over all paper nodes of layer two, coordinate `j`. -/
theorem poolP_apply (x0 : (⟨S50000x128, .f32⟩ : BufTy).Contents (Elt Ideal)) (x1 : (⟨S100000x128, .f32⟩ : BufTy).Contents (Elt Ideal)) (x2 : (⟨S300000, .i32⟩ : BufTy).Contents (Elt Ideal)) (x3 : (⟨S300000, .i32⟩ : BufTy).Contents (Elt Ideal)) (x4 : (⟨S300000, .i32⟩ : BufTy).Contents (Elt Ideal)) (x5 : (⟨S300000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x128, .f32⟩ : BufTy).Contents (Elt Ideal)) (x10 : (⟨S256, .f32⟩ : BufTy).Contents (Elt Ideal)) (x11 : (⟨S256x128, .f32⟩ : BufTy).Contents (Elt Ideal)) (x12 : (⟨S256x256, .f32⟩ : BufTy).Contents (Elt Ideal)) (x13 : (⟨S256, .f32⟩ : BufTy).Contents (Elt Ideal)) (x14 : (⟨S256x256, .f32⟩ : BufTy).Contents (Elt Ideal)) (x20 : (⟨S256x128, .f32⟩ : BufTy).Contents (Elt Ideal)) (x21 : (⟨S256, .f32⟩ : BufTy).Contents (Elt Ideal))
    (j : Fin 256) :
    val_main_v131 (F := Ideal) x0 x1 x2 x3 x4 x5 x6 x7 x8 x9 x10 x11 x12 x13 x14 x20 x21 (ix2 (0 : Fin 1) j)
      = Ideal.div ((Ideal.ofBits .f32 0x00000000#32) + ∑ i : Fin 100000, val_main_v123 (F := Ideal) x0 x1 x2 x3 x4 x5 x6 x7 x8 x9 x10 x11 x12 x13 x14 x20 x21 (ix2 i j)) (Ideal.ofBits .f32 0x47C35000#32) := by
  rw [val_main_v131_apply, val_main_v129_apply, idx_v129, val_main_v128_apply, val_main_v130_apply, val_main_cst_25_apply,
    val_main_cst_24_apply]
  rw [Finset.sum_congr rfl fun k _ => congrArg (val_main_v123 (F := Ideal) x0 x1 x2 x3 x4 x5 x6 x7 x8 x9 x10 x11 x12 x13 x14 x20 x21) (idx_v128 j k)]
  rfl

/-- The mean over all author nodes of layer two, coordinate `j`. -/
theorem poolA_apply (x0 : (⟨S50000x128, .f32⟩ : BufTy).Contents (Elt Ideal)) (x1 : (⟨S100000x128, .f32⟩ : BufTy).Contents (Elt Ideal)) (x2 : (⟨S300000, .i32⟩ : BufTy).Contents (Elt Ideal)) (x3 : (⟨S300000, .i32⟩ : BufTy).Contents (Elt Ideal)) (x4 : (⟨S300000, .i32⟩ : BufTy).Contents (Elt Ideal)) (x5 : (⟨S300000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x128, .f32⟩ : BufTy).Contents (Elt Ideal)) (x10 : (⟨S256, .f32⟩ : BufTy).Contents (Elt Ideal)) (x11 : (⟨S256x128, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x18 : (⟨S256x128, .f32⟩ : BufTy).Contents (Elt Ideal)) (x19 : (⟨S256, .f32⟩ : BufTy).Contents (Elt Ideal))
    (j : Fin 256) :
    val_main_v127 (F := Ideal) x0 x1 x2 x3 x4 x5 x6 x7 x8 x9 x10 x11 x15 x16 x17 x18 x19 (ix2 (0 : Fin 1) j)
      = Ideal.div ((Ideal.ofBits .f32 0x00000000#32) + ∑ i : Fin 50000, val_main_v116 (F := Ideal) x0 x1 x2 x3 x4 x5 x6 x7 x8 x9 x10 x11 x15 x16 x17 x18 x19 (ix2 i j)) (Ideal.ofBits .f32 0x47435000#32) := by
  rw [val_main_v127_apply, val_main_v125_apply, idx_v125, val_main_v124_apply, val_main_v126_apply, val_main_cst_23_apply,
    val_main_cst_22_apply]
  rw [Finset.sum_congr rfl fun k _ => congrArg (val_main_v116 (F := Ideal) x0 x1 x2 x3 x4 x5 x6 x7 x8 x9 x10 x11 x15 x16 x17 x18 x19) (idx_v124 j k)]
  rfl

/-! ## Layer one, author side -/

theorem lidx_v48 (i : Fin 50000) (j : Fin 256) (k : Fin 128) : lidx_main_v48 (ix2 i j) k = ix2 i k :=
  funext fun a => by match a with | ⟨0, _⟩ => rfl | ⟨1, _⟩ => rfl
theorem ridx_v48 (i : Fin 50000) (j : Fin 256) (k : Fin 128) : ridx_main_v48 (ix2 i j) k = ix2 k j :=
  funext fun a => by match a with | ⟨0, _⟩ => rfl | ⟨1, _⟩ => rfl
theorem lidx_v53 (i : Fin 50000) (j : Fin 256) (k : Fin 128) : lidx_main_v53 (ix2 i j) k = ix2 i k :=
  funext fun a => by match a with | ⟨0, _⟩ => rfl | ⟨1, _⟩ => rfl
theorem ridx_v53 (i : Fin 50000) (j : Fin 256) (k : Fin 128) : ridx_main_v53 (ix2 i j) k = ix2 k j :=
  funext fun a => by match a with | ⟨0, _⟩ => rfl | ⟨1, _⟩ => rfl
theorem idx_v47 (k : Fin 128) (j : Fin 256) : idx_main_v47 (ix2 k j) = ix2 j k :=
  funext fun a => by match a with | ⟨0, _⟩ => rfl | ⟨1, _⟩ => rfl
theorem idx_v52 (k : Fin 128) (j : Fin 256) : idx_main_v52 (ix2 k j) = ix2 j k :=
  funext fun a => by match a with | ⟨0, _⟩ => rfl | ⟨1, _⟩ => rfl
theorem idx_v45 (i : Fin 50000) (k : Fin 128) : idx_main_v45 (ix2 i k) = ix2 i (0 : Fin 1) :=
  funext fun a => by match a with | ⟨0, _⟩ => rfl | ⟨1, _⟩ => rfl
theorem idx_v44 (i : Fin 50000) : idx_main_v44 (ix2 i (0 : Fin 1)) = ix1 i :=
  funext fun a => by match a with | ⟨0, _⟩ => rfl
theorem idx_v50 (i : Fin 50000) (j : Fin 256) : idx_main_v50 (ix2 i j) = ix2 (0 : Fin 1) j :=
  funext fun a => by match a with | ⟨0, _⟩ => rfl | ⟨1, _⟩ => rfl
theorem idx_v49 (j : Fin 256) : idx_main_v49 (ix2 (0 : Fin 1) j) = ix1 j :=
  funext fun a => by match a with | ⟨0, _⟩ => rfl

/-- The mean of the neighbour rows of author node `i`, coordinate `k`. -/
theorem v46_apply (x1 : (⟨S100000x128, .f32⟩ : BufTy).Contents (Elt Ideal)) (x4 : (⟨S300000, .i32⟩ : BufTy).Contents (Elt Ideal)) (x5 : (⟨S300000, .i32⟩ : BufTy).Contents (Elt Ideal))
    (i : Fin 50000) (k : Fin 128) :
    val_main_v46 (F := Ideal) x1 x4 x5 (ix2 i k)
      = Ideal.div (val_main_v37 (F := Ideal) x1 x4 x5 (ix2 i k)) (max (val_main_v41 (F := Ideal) x5 (ix1 i)) (Ideal.ofBits .f32 0x3F800000#32)) := by
  rw [val_main_v46_apply, val_main_v45_apply, idx_v45, val_main_v44_apply, idx_v44, val_main_v43_apply, val_main_v42_apply,
    val_main_cst_9_apply]
  rfl

/-- Layer one at author node `i`, output coordinate `j`. -/
theorem h1a_apply (x0 : (⟨S50000x128, .f32⟩ : BufTy).Contents (Elt Ideal)) (x1 : (⟨S100000x128, .f32⟩ : BufTy).Contents (Elt Ideal)) (x4 : (⟨S300000, .i32⟩ : BufTy).Contents (Elt Ideal)) (x5 : (⟨S300000, .i32⟩ : BufTy).Contents (Elt Ideal)) (x9 : (⟨S256x128, .f32⟩ : BufTy).Contents (Elt Ideal)) (x10 : (⟨S256, .f32⟩ : BufTy).Contents (Elt Ideal)) (x11 : (⟨S256x128, .f32⟩ : BufTy).Contents (Elt Ideal))
    (i : Fin 50000) (j : Fin 256) :
    val_main_v55 (F := Ideal) x0 x1 x4 x5 x9 x10 x11 (ix2 i j)
      = max (((∑ k : Fin 128, Ideal.div (val_main_v37 (F := Ideal) x1 x4 x5 (ix2 i k)) (max (val_main_v41 (F := Ideal) x5 (ix1 i)) (Ideal.ofBits .f32 0x3F800000#32)) * x9 (ix2 j k))
          + x10 (ix1 j)) + ∑ k : Fin 128, x0 (ix2 i k) * x11 (ix2 j k)) (Ideal.ofBits .f32 0x00000000#32) := by
  rw [val_main_v55_apply, val_main_v54_apply, val_main_v51_apply, val_main_v48_apply, val_main_v53_apply, val_main_v50_apply,
    idx_v50, val_main_v49_apply, idx_v49, val_main_call1_v0_apply, val_main_call1_cst_apply]
  have e1 : ∀ k : Fin 128, val_main_v46 (F := Ideal) x1 x4 x5 (lidx_main_v48 (ix2 i j) k) * val_main_v47 (F := Ideal) x9 (ridx_main_v48 (ix2 i j) k)
      = Ideal.div (val_main_v37 (F := Ideal) x1 x4 x5 (ix2 i k)) (max (val_main_v41 (F := Ideal) x5 (ix1 i)) (Ideal.ofBits .f32 0x3F800000#32)) * x9 (ix2 j k) := by
    intro k
    rw [lidx_v48, ridx_v48, v46_apply, val_main_v47_apply, idx_v47]
  have e2 : ∀ k : Fin 128, x0 (lidx_main_v53 (ix2 i j) k) * val_main_v52 (F := Ideal) x11 (ridx_main_v53 (ix2 i j) k)
      = x0 (ix2 i k) * x11 (ix2 j k) := by
    intro k
    rw [lidx_v53, ridx_v53, val_main_v52_apply, idx_v52]
  rw [Finset.sum_congr rfl fun k _ => e1 k, Finset.sum_congr rfl fun k _ => e2 k]
  rfl

/-! ## Layer two, author side -/

theorem lidx_v103 (i : Fin 50000) (j : Fin 256) (k : Fin 256) : lidx_main_v103 (ix2 i j) k = ix2 i k :=
  funext fun a => by match a with | ⟨0, _⟩ => rfl | ⟨1, _⟩ => rfl
theorem ridx_v103 (i : Fin 50000) (j : Fin 256) (k : Fin 256) : ridx_main_v103 (ix2 i j) k = ix2 k j :=
  funext fun a => by match a with | ⟨0, _⟩ => rfl | ⟨1, _⟩ => rfl
theorem lidx_v108 (i : Fin 50000) (j : Fin 256) (k : Fin 256) : lidx_main_v108 (ix2 i j) k = ix2 i k :=
  funext fun a => by match a with | ⟨0, _⟩ => rfl | ⟨1, _⟩ => rfl
theorem ridx_v108 (i : Fin 50000) (j : Fin 256) (k : Fin 256) : ridx_main_v108 (ix2 i j) k = ix2 k j :=
  funext fun a => by match a with | ⟨0, _⟩ => rfl | ⟨1, _⟩ => rfl
theorem lidx_v111 (i : Fin 50000) (j : Fin 256) (k : Fin 128) : lidx_main_v111 (ix2 i j) k = ix2 i k :=
  funext fun a => by match a with | ⟨0, _⟩ => rfl | ⟨1, _⟩ => rfl
theorem ridx_v111 (i : Fin 50000) (j : Fin 256) (k : Fin 128) : ridx_main_v111 (ix2 i j) k = ix2 k j :=
  funext fun a => by match a with | ⟨0, _⟩ => rfl | ⟨1, _⟩ => rfl
theorem idx_v102 (k : Fin 256) (j : Fin 256) : idx_main_v102 (ix2 k j) = ix2 j k :=
  funext fun a => by match a with | ⟨0, _⟩ => rfl | ⟨1, _⟩ => rfl
theorem idx_v107 (k : Fin 256) (j : Fin 256) : idx_main_v107 (ix2 k j) = ix2 j k :=
  funext fun a => by match a with | ⟨0, _⟩ => rfl | ⟨1, _⟩ => rfl
theorem idx_v110 (k : Fin 128) (j : Fin 256) : idx_main_v110 (ix2 k j) = ix2 j k :=
  funext fun a => by match a with | ⟨0, _⟩ => rfl | ⟨1, _⟩ => rfl
theorem idx_v100 (i : Fin 50000) (k : Fin 256) : idx_main_v100 (ix2 i k) = ix2 i (0 : Fin 1) :=
  funext fun a => by match a with | ⟨0, _⟩ => rfl | ⟨1, _⟩ => rfl
theorem idx_v99 (i : Fin 50000) : idx_main_v99 (ix2 i (0 : Fin 1)) = ix1 i :=
  funext fun a => by match a with | ⟨0, _⟩ => rfl
theorem idx_v105 (i : Fin 50000) (j : Fin 256) : idx_main_v105 (ix2 i j) = ix2 (0 : Fin 1) j :=
  funext fun a => by match a with | ⟨0, _⟩ => rfl | ⟨1, _⟩ => rfl
theorem idx_v104 (j : Fin 256) : idx_main_v104 (ix2 (0 : Fin 1) j) = ix1 j :=
  funext fun a => by match a with | ⟨0, _⟩ => rfl
theorem idx_v114 (i : Fin 50000) (j : Fin 256) : idx_main_v114 (ix2 i j) = ix2 (0 : Fin 1) j :=
  funext fun a => by match a with | ⟨0, _⟩ => rfl | ⟨1, _⟩ => rfl
theorem idx_v113 (j : Fin 256) : idx_main_v113 (ix2 (0 : Fin 1) j) = ix1 j :=
  funext fun a => by match a with | ⟨0, _⟩ => rfl

/-- The mean of the layer-one neighbour rows of author node `i`, coordinate `k`. -/
theorem v101_apply (x0 : (⟨S50000x128, .f32⟩ : BufTy).Contents (Elt Ideal)) (x1 : (⟨S100000x128, .f32⟩ : BufTy).Contents (Elt Ideal)) (x2 : (⟨S300000, .i32⟩ : BufTy).Contents (Elt Ideal)) (x3 : (⟨S300000, .i32⟩ : BufTy).Contents (Elt Ideal)) (x4 : (⟨S300000, .i32⟩ : BufTy).Contents (Elt Ideal)) (x5 : (⟨S300000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal))
    (i : Fin 50000) (k : Fin 256) :
    val_main_v101 (F := Ideal) x0 x1 x2 x3 x4 x5 x6 x7 x8 (ix2 i k)
      = Ideal.div (val_main_v92 (F := Ideal) x0 x1 x2 x3 x4 x5 x6 x7 x8 (ix2 i k)) (max (val_main_v96 (F := Ideal) x5 (ix1 i)) (Ideal.ofBits .f32 0x3F800000#32)) := by
  rw [val_main_v101_apply, val_main_v100_apply, idx_v100, val_main_v99_apply, idx_v99, val_main_v98_apply, val_main_v97_apply,
    val_main_cst_21_apply]
  rfl

/-- Layer two at author node `i`, output coordinate `j`. -/
theorem h2a_apply (x0 : (⟨S50000x128, .f32⟩ : BufTy).Contents (Elt Ideal)) (x1 : (⟨S100000x128, .f32⟩ : BufTy).Contents (Elt Ideal)) (x2 : (⟨S300000, .i32⟩ : BufTy).Contents (Elt Ideal)) (x3 : (⟨S300000, .i32⟩ : BufTy).Contents (Elt Ideal)) (x4 : (⟨S300000, .i32⟩ : BufTy).Contents (Elt Ideal)) (x5 : (⟨S300000, .i32⟩ : BufTy).Contents (Elt Ideal)) (x6 : (⟨S256x128, .f32⟩ : BufTy).Contents (Elt Ideal)) (x7 : (⟨S256, .f32⟩ : BufTy).Contents (Elt Ideal)) (x8 : (⟨S256x128, .f32⟩ : BufTy).Contents (Elt Ideal)) (x9 : (⟨S256x128, .f32⟩ : BufTy).Contents (Elt Ideal)) (x10 : (⟨S256, .f32⟩ : BufTy).Contents (Elt Ideal)) (x11 : (⟨S256x128, .f32⟩ : BufTy).Contents (Elt Ideal)) (x15 : (⟨S256x256, .f32⟩ : BufTy).Contents (Elt Ideal)) (x16 : (⟨S256, .f32⟩ : BufTy).Contents (Elt Ideal)) (x17 : (⟨S256x256, .f32⟩ : BufTy).Contents (Elt Ideal)) (x18 : (⟨S256x128, .f32⟩ : BufTy).Contents (Elt Ideal)) (x19 : (⟨S256, .f32⟩ : BufTy).Contents (Elt Ideal))
    (i : Fin 50000) (j : Fin 256) :
    val_main_v116 (F := Ideal) x0 x1 x2 x3 x4 x5 x6 x7 x8 x9 x10 x11 x15 x16 x17 x18 x19 (ix2 i j)
      = max (((((∑ k : Fin 256, Ideal.div (val_main_v92 (F := Ideal) x0 x1 x2 x3 x4 x5 x6 x7 x8 (ix2 i k)) (max (val_main_v96 (F := Ideal) x5 (ix1 i)) (Ideal.ofBits .f32 0x3F800000#32)) * x15 (ix2 j k))
          + x16 (ix1 j)) + ∑ k : Fin 256, val_main_v55 (F := Ideal) x0 x1 x4 x5 x9 x10 x11 (ix2 i k) * x17 (ix2 j k))
          + ∑ k : Fin 128, x0 (ix2 i k) * x18 (ix2 j k)) + x19 (ix1 j)) (Ideal.ofBits .f32 0x00000000#32) := by
  rw [val_main_v116_apply, val_main_v115_apply, val_main_v112_apply, val_main_v109_apply, val_main_v106_apply,
    val_main_v103_apply, val_main_v108_apply, val_main_v111_apply,
    val_main_v105_apply, idx_v105, val_main_v104_apply, idx_v104,
    val_main_v114_apply, idx_v114, val_main_v113_apply, idx_v113,
    val_main_call2_v0_apply, val_main_call2_cst_apply]
  have e1 : ∀ k : Fin 256, val_main_v101 (F := Ideal) x0 x1 x2 x3 x4 x5 x6 x7 x8 (lidx_main_v103 (ix2 i j) k) * val_main_v102 (F := Ideal) x15 (ridx_main_v103 (ix2 i j) k)
      = Ideal.div (val_main_v92 (F := Ideal) x0 x1 x2 x3 x4 x5 x6 x7 x8 (ix2 i k)) (max (val_main_v96 (F := Ideal) x5 (ix1 i)) (Ideal.ofBits .f32 0x3F800000#32)) * x15 (ix2 j k) := by
    intro k
    rw [lidx_v103, ridx_v103, v101_apply, val_main_v102_apply, idx_v102]
  have e2 : ∀ k : Fin 256, val_main_v55 (F := Ideal) x0 x1 x4 x5 x9 x10 x11 (lidx_main_v108 (ix2 i j) k) * val_main_v107 (F := Ideal) x17 (ridx_main_v108 (ix2 i j) k)
      = val_main_v55 (F := Ideal) x0 x1 x4 x5 x9 x10 x11 (ix2 i k) * x17 (ix2 j k) := by
    intro k
    rw [lidx_v108, ridx_v108, val_main_v107_apply, idx_v107]
  have e3 : ∀ k : Fin 128, x0 (lidx_main_v111 (ix2 i j) k) * val_main_v110 (F := Ideal) x18 (ridx_main_v111 (ix2 i j) k)
      = x0 (ix2 i k) * x18 (ix2 j k) := by
    intro k
    rw [lidx_v111, ridx_v111, val_main_v110_apply, idx_v110]
  rw [Finset.sum_congr rfl fun k _ => e1 k, Finset.sum_congr rfl fun k _ => e2 k, Finset.sum_congr rfl fun k _ => e3 k]
  rfl

/-! ## The neighbour counts are computed twice by the same operations -/

theorem v69_eq_v13 (x3 : (⟨S300000, .i32⟩ : BufTy).Contents (Elt Ideal)) :
    val_main_v69 (F := Ideal) x3 = val_main_v13 (F := Ideal) x3 := rfl

theorem v96_eq_v41 (x5 : (⟨S300000, .i32⟩ : BufTy).Contents (Elt Ideal)) :
    val_main_v96 (F := Ideal) x5 = val_main_v41 (F := Ideal) x5 := rfl

end Cert.ReferenceIdeal.Layers
-- ==== Proof.LibMeanPoolAlgebra.lean ====
/-
  The arithmetic on the extended reals that joins the two sides of a mean-aggregating graph layer.

  * A row's mean written as a product with the reciprocal count, `a * (1 / max c 1)`, is the quotient `a / max c 1`:
    the divisor `max c 1` is at least one, hence not zero, and off zero the ideal division is the product with the
    inverse.
  * Eight copies of `c / 8` add up to `c`, for every extended real `c` (the infinities included).
  * A sum of four or five terms may be taken in either of the two orders the layer's two spellings use: addition of
    extended reals is commutative and associative.
-/
import Mathlib.Data.EReal.Basic
import Mathlib.Data.EReal.Operations
import Mathlib.Algebra.BigOperators.Fin
import Idealize.ShloMosaic.PureOps.Ideal.Laws
import Idealize.ShloMosaic.Lib.IdealHost

noncomputable section

open scoped BigOperators
open Idealize.ShloMosaic

namespace Cert.SageAlgebra

/-- A count clamped below by one is not zero. -/
theorem max_one_ne_zero (c : EReal) : max c 1 ≠ 0 :=
  ne_of_gt (lt_of_lt_of_le zero_lt_one (le_max_right c 1))

/-- The product with the reciprocal of a clamped count is the quotient by it. -/
theorem mul_recip_count (a c : EReal) : a * Ideal.div 1 (max c 1) = Ideal.div a (max c 1) :=
  Ideal.mul_one_div (max_one_ne_zero c)

/-- The f32 pattern `0x3E000000` is one eighth. -/
theorem ofBits_eighth : Ideal.ofBits .f32 0x3E000000#32 = (((1 : ℝ) / 8 : ℝ) : EReal) := by
  simp [Ideal.ofBits, Ideal.ieee, -EReal.coe_mul]; norm_num

/-- Eight copies of an eighth of `c` add up to `c`, at the infinities too. -/
theorem eight_eighths (c : EReal) : ∑ _s : Fin 8, c * (((1 : ℝ) / 8 : ℝ) : EReal) = c := by
  rw [Finset.sum_const, Finset.card_univ, Fintype.card_fin, EReal.nsmul_eq_mul]
  have h8 : ((8 : ℕ) : EReal) = ((8 : ℝ) : EReal) := by norm_cast
  rw [h8]
  induction c using EReal.rec with
  | bot => rw [EReal.bot_mul_coe_of_pos (by norm_num), EReal.coe_mul_bot_of_pos (by norm_num)]
  | coe r => rw [← EReal.coe_mul, ← EReal.coe_mul]; congr 1; ring
  | top => rw [EReal.top_mul_coe_of_pos (by norm_num), EReal.coe_mul_top_of_pos (by norm_num)]

/-- The first layer's sum in its two orders. -/
theorem sum3_comm (s₁ s₂ b : EReal) : (s₁ + s₂) + b = (s₁ + b) + s₂ := add_right_comm s₁ s₂ b

/-- The second layer's sum in its two orders. -/
theorem sum5_comm (s₁ s₂ s₃ b₁ b₂ : EReal) :
    (((s₁ + s₂) + s₃) + b₁) + b₂ = (((s₁ + b₁) + s₂) + s₃) + b₂ := by
  rw [add_right_comm (s₁ + s₂) s₃ b₁, add_right_comm s₁ s₂ b₁]

end Cert.SageAlgebra

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.KernelBodies.lean ====
/-
  What the four kernel bodies compute, entry by entry, at the ideal values.

  A layer-one body takes a block of 2000 rows: it scales each aggregated row by that row's reciprocal count, multiplies
  by the neighbour weights, adds the root rows times the root weights and the bias row, and clamps below at zero. Entry
  (p, q) of its result is therefore
      max ((∑ k, (agg (p, k) * inv (p, 0)) * Wl (k, q)) + (∑ k, root (p, k) * Wr (k, q)) + b (0, q)) 0.
  A layer-two body does the same with a third product (the skip rows times the skip weights) and a second bias row,
  then adds up the 2000 clamped rows of its block column by column; the stored block repeats an eighth of that
  column sum on each of its 8 rows.
-/
import proofs.«125567_j52707838656535_2_alg».proof.Proof.Gen.KernelIdeal.Skeleton
import proofs.«125567_j52707838656535_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Bodies

open Cert.KernelIdeal Cert.KernelIdeal.Gen
open Idealize.ShloMosaic Idealize.ShloMosaic.ValueIdx Idealize.ShloMosaic.DenseLayers
open scoped BigOperators

/-- A bias row broadcast down 2000 rows reads its entry of the same column. -/
theorem biasRow_apply (v : Vec Ideal S1x256 .f32) (p : Fin 2000) (q : Fin 256) :
    broadcastTo S2000x256 v broadcasts_S1x256_S2000x256 (ix2 p q) = v (ix2 (0 : Fin 1) q) := by
  refine broadcastTo_apply v broadcasts_S1x256_S2000x256 (ix2 p q) (ix2 (0 : Fin 1) q) fun ax => ?_
  match ax with
  | ⟨0, _⟩ => rfl
  | ⟨1, _⟩ => rfl

/-- The reciprocal-count column broadcast along 128 columns reads its entry of the same row. -/
theorem invCol128_apply (v : Vec Ideal S2000x1 .f32) (p : Fin 2000) (q : Fin 128) :
    broadcastTo S2000x128 v broadcasts_S2000x1_S2000x128 (ix2 p q) = v (ix2 p (0 : Fin 1)) :=
  broadcastTo_column_apply v broadcasts_S2000x1_S2000x128 p q

/-- The reciprocal-count column broadcast along 256 columns reads its entry of the same row. -/
theorem invCol256_apply (v : Vec Ideal S2000x1 .f32) (p : Fin 2000) (q : Fin 256) :
    broadcastTo S2000x256 v broadcasts_S2000x1_S2000x256 (ix2 p q) = v (ix2 p (0 : Fin 1)) :=
  broadcastTo_column_apply v broadcasts_S2000x1_S2000x256 p q

/-- The layer-one entry as a function of the loaded blocks. -/
def layer1Entry (agg : Vec Ideal S2000x128 .f32) (inv : Vec Ideal S2000x1 .f32) (root : Vec Ideal S2000x128 .f32)
    (wl wr : Vec Ideal S128x256 .f32) (b : Vec Ideal S1x256 .f32) (p : Fin 2000) (q : Fin 256) : EReal :=
  max (((∑ k : Fin 128, (agg (ix2 p k) * inv (ix2 p (0 : Fin 1))) * wl (ix2 k q))
    + ∑ k : Fin 128, root (ix2 p k) * wr (ix2 k q)) + b (ix2 (0 : Fin 1) q)) 0

theorem sage1_entry (agg : Vec Ideal S2000x128 .f32) (inv : Vec Ideal S2000x1 .f32) (root : Vec Ideal S2000x128 .f32)
    (wl wr : Vec Ideal S128x256 .f32) (b : Vec Ideal S1x256 .f32) (p : Fin 2000) (q : Fin 256) :
    k0_pay1 (F := Ideal) agg inv root wl wr b (ix2 p q) = layer1Entry agg inv root wl wr b p q := by
  unfold k0_pay1 layer1Entry
  simp only [truncf_apply, maximumf_apply, addf_apply, broadcast_apply, shapeCast_self]
  refine congrArg₂ max (congrArg₂ (· + ·) (congrArg₂ (· + ·) ?_ ?_) (biasRow_apply b p q)) Ideal.ofBits_zero_f32
  · refine (matmul_rowcol_zero_apply _ none _ _ p q).trans (Finset.sum_congr rfl fun k _ => ?_)
    simp only [truncf_apply, mulf_apply]
    exact congrArg (fun z => agg (ix2 p k) * z * wl (ix2 k q)) (invCol128_apply inv p k)
  · refine (matmul_rowcol_zero_apply _ none _ _ p q).trans (Finset.sum_congr rfl fun k _ => ?_)
    simp only [truncf_apply]

/-- The layer-two entry, before the column sum, as a function of the loaded blocks. -/
def layer2Entry (agg : Vec Ideal S2000x256 .f32) (inv : Vec Ideal S2000x1 .f32) (root : Vec Ideal S2000x256 .bf16)
    (skip : Vec Ideal S2000x128 .f32) (wl wr : Vec Ideal S256x256 .f32) (ws : Vec Ideal S128x256 .f32)
    (b bs : Vec Ideal S1x256 .f32) (p : Fin 2000) (q : Fin 256) : EReal :=
  max (((((∑ k : Fin 256, (agg (ix2 p k) * inv (ix2 p (0 : Fin 1))) * wl (ix2 k q))
    + ∑ k : Fin 256, root (ix2 p k) * wr (ix2 k q)) + ∑ k : Fin 128, skip (ix2 p k) * ws (ix2 k q))
    + b (ix2 (0 : Fin 1) q)) + bs (ix2 (0 : Fin 1) q)) 0

/-- The coordinates a column's sum over the 2000 rows runs through. -/
theorem colLift (p : Fin 2000) (q : Fin 256) : reduces_S2000x256_S256.lift (ix1 q) p = ix2 p q := by
  funext ax; apply Fin.ext
  match ax with
  | ⟨0, _⟩ => rfl
  | ⟨1, _⟩ => rfl

/-- A layer-two body's column sum: the sum over the block's rows of the clamped entries. -/
theorem sage2_colsum (agg : Vec Ideal S2000x256 .f32) (inv : Vec Ideal S2000x1 .f32) (root : Vec Ideal S2000x256 .bf16)
    (skip : Vec Ideal S2000x128 .f32) (wl wr : Vec Ideal S256x256 .f32) (ws : Vec Ideal S128x256 .f32)
    (b bs : Vec Ideal S1x256 .f32) (q : Fin 256) :
    k2_pay2 (F := Ideal) agg inv root skip wl wr ws b bs (ix1 q)
      = ∑ p : Fin 2000, layer2Entry agg inv root skip wl wr ws b bs p q := by
  unfold k2_pay2
  refine (Ideal.multiReduction_add_single _ _ reduces_S2000x256_S256 _ _ (ix1 q)).trans
    (Finset.sum_congr rfl fun p _ => ?_)
  rw [colLift p q]
  unfold layer2Entry
  simp only [truncf_apply, maximumf_apply, addf_apply, broadcast_apply, shapeCast_self]
  refine congrArg₂ max (congrArg₂ (· + ·) (congrArg₂ (· + ·) (congrArg₂ (· + ·) (congrArg₂ (· + ·) ?_ ?_) ?_)
    (biasRow_apply b p q)) (biasRow_apply bs p q)) Ideal.ofBits_zero_f32
  · refine (matmul_rowcol_zero_apply _ none _ _ p q).trans (Finset.sum_congr rfl fun k _ => ?_)
    simp only [truncf_apply, mulf_apply]
    exact congrArg (fun z => agg (ix2 p k) * z * wl (ix2 k q)) (invCol256_apply inv p k)
  · exact matmul_rowcol_zero_apply _ none _ _ p q
  · exact (matmul_rowcol_zero_apply _ none _ _ p q).trans (Finset.sum_congr rfl fun k _ => rfl)

/-- The stored block repeats an eighth of the column sum on each of its 8 rows. -/
theorem sage2_store (v : FVec Ideal S256 .f32) (s : Fin 8) (q : Fin 256) :
    k2_pay1 (F := Ideal) v (ix2 s q) = v (ix1 q) * Ideal.ofBits .f32 0x3E000000#32 := by
  unfold k2_pay1
  simp only [shapeCast_self]
  refine (broadcastTo_1b_ab_apply _ broadcasts_S1x256_S8x256 s q).trans ?_
  simp only [mulf_apply, broadcast_apply]
  exact congrArg (· * _) (shapeCast_a_1a_apply v shapeCasts_S256_S1x256 (0 : Fin 1) q)

/-- The two layer-one bodies are one term, and so are the two layer-two bodies. -/
theorem pay1_twin : @k1_pay1 Ideal _ = @k0_pay1 Ideal _ := rfl
theorem pay2_twin : @k3_pay2 Ideal _ = @k2_pay2 Ideal _ := rfl
theorem store_twin : @k3_pay1 Ideal _ = @k2_pay1 Ideal _ := rfl

end Cert.KernelIdeal.Bodies

end
-- ==== Proof.LayerOneArrays.lean ====
/-
  What the first layer's two pipelined regions leave in their result arrays, as one function of the arrays the
  region finds at its entry.

  A region's grid point t stages rows 2000·t … 2000·t + 1999 of the aggregated rows, the reciprocal-count column and
  the root rows, and the whole weight matrices and bias row; the body's result for the point is written back to the
  same rows of the result array. Entry (r, s) of the result array is therefore the layer-one entry of row r of the
  three row-blocked arrays; the 50 (resp. 25) blocks tile the 100000 (resp. 50000) rows.
-/
import proofs.«125567_j52707838656535_2_alg».proof.Proof.Gen.KernelIdeal.Frame
import proofs.«125567_j52707838656535_2_alg».proof.Proof.KernelBodies
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.KernelIdeal.Bodies
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The layer-one entry at row `r`, column `s` of whole arrays with `n` rows. -/
def layer1At {n : ℕ} (A : (⟨2, ![n, 128]⟩ : Shape).Idx → EReal) (INV : (⟨2, ![n, 1]⟩ : Shape).Idx → EReal)
    (X : (⟨2, ![n, 128]⟩ : Shape).Idx → EReal) (WL : (⟨2, ![128, 256]⟩ : Shape).Idx → EReal)
    (B : (⟨2, ![1, 256]⟩ : Shape).Idx → EReal) (WR : (⟨2, ![128, 256]⟩ : Shape).Idx → EReal) (r : Fin n) (s : Fin 256) : EReal :=
  max (((∑ k : Fin 128, (A (ix2 r k) * INV (ix2 r (0 : Fin 1))) * WL (ix2 k s))
    + ∑ k : Fin 128, X (ix2 r k) * WR (ix2 k s)) + B (ix2 (0 : Fin 1) s)) 0

/-- A block's entry is the whole arrays' entry, once every block read is the array's read on the block's row. -/
theorem layer1Entry_eq {n : ℕ} (b0 : Vec Ideal S2000x128 .f32) (b1 : Vec Ideal S2000x1 .f32) (b2 : Vec Ideal S2000x128 .f32)
    (b3 b5 : Vec Ideal S128x256 .f32) (b4 : Vec Ideal S1x256 .f32)
    (A : (⟨2, ![n, 128]⟩ : Shape).Idx → EReal) (INV : (⟨2, ![n, 1]⟩ : Shape).Idx → EReal)
    (X : (⟨2, ![n, 128]⟩ : Shape).Idx → EReal) (WL : (⟨2, ![128, 256]⟩ : Shape).Idx → EReal)
    (B : (⟨2, ![1, 256]⟩ : Shape).Idx → EReal) (WR : (⟨2, ![128, 256]⟩ : Shape).Idx → EReal)
    (p : Fin 2000) (q : Fin 256) (r : Fin n) (s : Fin 256)
    (h0 : ∀ k : Fin 128, b0 (ix2 p k) = A (ix2 r k)) (h1 : b1 (ix2 p (0 : Fin 1)) = INV (ix2 r (0 : Fin 1)))
    (h2 : ∀ k : Fin 128, b2 (ix2 p k) = X (ix2 r k)) (h3 : ∀ k : Fin 128, b3 (ix2 k q) = WL (ix2 k s))
    (h4 : b4 (ix2 (0 : Fin 1) q) = B (ix2 (0 : Fin 1) s)) (h5 : ∀ k : Fin 128, b5 (ix2 k q) = WR (ix2 k s)) :
    layer1Entry b0 b1 b2 b3 b5 b4 p q = layer1At A INV X WL B WR r s := by
  unfold layer1Entry layer1At
  rw [h1, h4]
  refine congrArg₂ max (congrArg₂ (· + ·) (congrArg₂ (· + ·) ?_ ?_) rfl) rfl
  · exact Finset.sum_congr rfl fun k _ => by rw [h0 k, h3 k]
  · exact Finset.sum_congr rfl fun k _ => by rw [h2 k, h5 k]

/-! ## Region 0: the paper side, 50 blocks of 2000 rows -/

/-- The block index of every window at every point of region 0's grid. -/
theorem where0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array of region 0 as a function of the arrays at its entry. -/
def result0 (c : Dev nD) : S100000x256.Idx → EReal := fun i =>
  layer1At (n := 100000) (V c main_v26) (V c main_v8) (V c main_arg1) (V c main_v37) (V c main_v39) (V c main_v38) (i 0) (i 1)

theorem flushed0 (c : Dev nD) (t : Fin cfg0.N) :
    (dat0 V c).flushed 6 t = ((cfg0.win 6).blk t).view.read (Elt Ideal) (result0 V c) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S2000x1) origin2,
    View.ld_unit_zero (S := S128x256) origin2, View.ld_unit_zero (S := S1x256) origin2]
  obtain ⟨e00, e01, e10, e11, e20, e21, e30, e31, e40, e41, e50, e51, e60, e61⟩ := where0 t
  funext j
  obtain ⟨p, q, rfl⟩ : ∃ (p : Fin 2000) (q : Fin 256), j = ix2 p q := ⟨j 0, j 1, eq_ix2 j⟩
  have hr : ((((cfg0.win 6).blk t).view.emb (ix2 p q)) 0).val = t.val * 2000 + 1 * p.val := by
    show win0_6.index t (0 : Fin 2) * 2000 + 1 * p.val = _
    rw [e60]
  have hs : ((((cfg0.win 6).blk t).view.emb (ix2 p q)) 1).val = q.val := by
    show win0_6.index t (1 : Fin 2) * 256 + 1 * q.val = _
    rw [e61]; omega
  refine (sage1_entry _ _ _ _ _ _ p q).trans ?_
  show _ = layer1At (n := 100000) _ _ _ _ _ _ ((((cfg0.win 6).blk t).view.emb (ix2 p q)) 0) ((((cfg0.win 6).blk t).view.emb (ix2 p q)) 1)
  generalize ((((cfg0.win 6).blk t).view.emb (ix2 p q)) 0) = r at hr
  generalize ((((cfg0.win 6).blk t).view.emb (ix2 p q)) 1) = s at hs
  have hsq : s = q := Fin.ext hs
  subst hsq
  refine layer1Entry_eq _ _ _ _ _ _ _ _ _ _ _ _ p s r s ?_ ?_ ?_ ?_ ?_ ?_
  · intro k
    show V c main_v26 (((cfg0.win 0).blk t).view.emb (ix2 p k)) = V c main_v26 (ix2 r k)
    refine congrArg (V c main_v26) (funext fun a => Fin.ext ?_)
    match a with
    | ⟨0, _⟩ => show win0_0.index t (0 : Fin 2) * 2000 + 1 * p.val = r.val; omega
    | ⟨1, _⟩ => show win0_0.index t (1 : Fin 2) * 128 + 1 * k.val = k.val; omega
  · show V c main_v8 (((cfg0.win 1).blk t).view.emb (ix2 p (0 : Fin 1))) = V c main_v8 (ix2 r (0 : Fin 1))
    refine congrArg (V c main_v8) (funext fun a => Fin.ext ?_)
    match a with
    | ⟨0, _⟩ => show win0_1.index t (0 : Fin 2) * 2000 + 1 * p.val = r.val; omega
    | ⟨1, _⟩ => show win0_1.index t (1 : Fin 2) * 1 + 1 * 0 = 0; omega
  · intro k
    show V c main_arg1 (((cfg0.win 2).blk t).view.emb (ix2 p k)) = V c main_arg1 (ix2 r k)
    refine congrArg (V c main_arg1) (funext fun a => Fin.ext ?_)
    match a with
    | ⟨0, _⟩ => show win0_2.index t (0 : Fin 2) * 2000 + 1 * p.val = r.val; omega
    | ⟨1, _⟩ => show win0_2.index t (1 : Fin 2) * 128 + 1 * k.val = k.val; omega
  · intro k
    show V c main_v37 (((cfg0.win 3).blk t).view.emb (ix2 k s)) = V c main_v37 (ix2 k s)
    refine congrArg (V c main_v37) (funext fun a => Fin.ext ?_)
    match a with
    | ⟨0, _⟩ => show win0_3.index t (0 : Fin 2) * 128 + 1 * k.val = k.val; omega
    | ⟨1, _⟩ => show win0_3.index t (1 : Fin 2) * 256 + 1 * s.val = s.val; omega
  · show V c main_v39 (((cfg0.win 4).blk t).view.emb (ix2 (0 : Fin 1) s)) = V c main_v39 (ix2 (0 : Fin 1) s)
    refine congrArg (V c main_v39) (funext fun a => Fin.ext ?_)
    match a with
    | ⟨0, _⟩ => show win0_4.index t (0 : Fin 2) * 1 + 1 * 0 = 0; omega
    | ⟨1, _⟩ => show win0_4.index t (1 : Fin 2) * 256 + 1 * s.val = s.val; omega
  · intro k
    show V c main_v38 (((cfg0.win 5).blk t).view.emb (ix2 k s)) = V c main_v38 (ix2 k s)
    refine congrArg (V c main_v38) (funext fun a => Fin.ext ?_)
    match a with
    | ⟨0, _⟩ => show win0_5.index t (0 : Fin 2) * 128 + 1 * k.val = k.val; omega
    | ⟨1, _⟩ => show win0_5.index t (1 : Fin 2) * 256 + 1 * s.val = s.val; omega

/-- An index of the result array lies in point `t`'s block iff each coordinate is in the block's range. -/
theorem mem_block0 (t : Fin cfg0.N) (i : S100000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v40).slice (win0_6.rect t)).set ↔ _
  rw [View.set_slice_whole, Rect.mem_set_unit]
  exact Iff.rfl

/-- Row `r` lies in the block of point `r / 2000`: the blocks tile the rows. -/
theorem cover0 (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have hN : grid0.N = 50 := N_0
  let t : Fin cfg0.N := ⟨(i 0).val / 2000, by show (i 0).val / 2000 < grid0.N; omega⟩
  obtain ⟨-, -, -, -, -, -, -, -, -, -, -, -, e60, e61⟩ := where0 t
  have ht : t.val = (i 0).val / 2000 := rfl
  refine ⟨t, flush0_6 t, ?_⟩
  rw [mem_block0]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 256 ≤ (i 1).val ∧ (i 1).val < win0_6.index t (1 : Fin 2) * 256 + 256; omega

/-- Region 0's result array after the region. -/
theorem final0 (c : Dev nD) : (dat0 V c).arrAt 6 cfg0.N = result0 V c :=
  (dat0 V c).arrAt_eq_of_cover 6 (result0 V c) (fun t _ => flushed0 V c t) cover0

/-! ## Region 1: the author side, 25 blocks of 2000 rows -/

/-- The block index of every window at every point of region 1's grid. -/
theorem where1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The result array of region 1 as a function of the arrays at its entry. -/
def result1 (c : Dev nD) : S50000x256.Idx → EReal := fun i =>
  layer1At (n := 50000) (V c main_v36) (V c main_v16) (V c main_arg0) (V c main_v41) (V c main_v43) (V c main_v42) (i 0) (i 1)

theorem flushed1 (c : Dev nD) (t : Fin cfg1.N) :
    (dat1 V c).flushed 6 t = ((cfg1.win 6).blk t).view.read (Elt Ideal) (result1 V c) := by
  show (cfg1.win 6).cut (grid1.coords t) ((dat1 V c).after 6 t) = _
  rw [after1_6]
  unfold out1_6
  rw [View.canon_unit_zero origin2]
  simp only [View.ld_unit_zero (S := S2000x128) origin2, View.ld_unit_zero (S := S2000x1) origin2,
    View.ld_unit_zero (S := S128x256) origin2, View.ld_unit_zero (S := S1x256) origin2]
  obtain ⟨e00, e01, e10, e11, e20, e21, e30, e31, e40, e41, e50, e51, e60, e61⟩ := where1 t
  funext j
  obtain ⟨p, q, rfl⟩ : ∃ (p : Fin 2000) (q : Fin 256), j = ix2 p q := ⟨j 0, j 1, eq_ix2 j⟩
  have hr : ((((cfg1.win 6).blk t).view.emb (ix2 p q)) 0).val = t.val * 2000 + 1 * p.val := by
    show win1_6.index t (0 : Fin 2) * 2000 + 1 * p.val = _
    rw [e60]
  have hs : ((((cfg1.win 6).blk t).view.emb (ix2 p q)) 1).val = q.val := by
    show win1_6.index t (1 : Fin 2) * 256 + 1 * q.val = _
    rw [e61]; omega
  refine (show k1_pay1 (F := Ideal) _ _ _ _ _ _ (ix2 p q) = k0_pay1 (F := Ideal) _ _ _ _ _ _ (ix2 p q) from rfl).trans ?_
  refine (sage1_entry _ _ _ _ _ _ p q).trans ?_
  show _ = layer1At (n := 50000) _ _ _ _ _ _ ((((cfg1.win 6).blk t).view.emb (ix2 p q)) 0) ((((cfg1.win 6).blk t).view.emb (ix2 p q)) 1)
  generalize ((((cfg1.win 6).blk t).view.emb (ix2 p q)) 0) = r at hr
  generalize ((((cfg1.win 6).blk t).view.emb (ix2 p q)) 1) = s at hs
  have hsq : s = q := Fin.ext hs
  subst hsq
  refine layer1Entry_eq _ _ _ _ _ _ _ _ _ _ _ _ p s r s ?_ ?_ ?_ ?_ ?_ ?_
  · intro k
    show V c main_v36 (((cfg1.win 0).blk t).view.emb (ix2 p k)) = V c main_v36 (ix2 r k)
    refine congrArg (V c main_v36) (funext fun a => Fin.ext ?_)
    match a with
    | ⟨0, _⟩ => show win1_0.index t (0 : Fin 2) * 2000 + 1 * p.val = r.val; omega
    | ⟨1, _⟩ => show win1_0.index t (1 : Fin 2) * 128 + 1 * k.val = k.val; omega
  · show V c main_v16 (((cfg1.win 1).blk t).view.emb (ix2 p (0 : Fin 1))) = V c main_v16 (ix2 r (0 : Fin 1))
    refine congrArg (V c main_v16) (funext fun a => Fin.ext ?_)
    match a with
    | ⟨0, _⟩ => show win1_1.index t (0 : Fin 2) * 2000 + 1 * p.val = r.val; omega
    | ⟨1, _⟩ => show win1_1.index t (1 : Fin 2) * 1 + 1 * 0 = 0; omega
  · intro k
    show V c main_arg0 (((cfg1.win 2).blk t).view.emb (ix2 p k)) = V c main_arg0 (ix2 r k)
    refine congrArg (V c main_arg0) (funext fun a => Fin.ext ?_)
    match a with
    | ⟨0, _⟩ => show win1_2.index t (0 : Fin 2) * 2000 + 1 * p.val = r.val; omega
    | ⟨1, _⟩ => show win1_2.index t (1 : Fin 2) * 128 + 1 * k.val = k.val; omega
  · intro k
    show V c main_v41 (((cfg1.win 3).blk t).view.emb (ix2 k s)) = V c main_v41 (ix2 k s)
    refine congrArg (V c main_v41) (funext fun a => Fin.ext ?_)
    match a with
    | ⟨0, _⟩ => show win1_3.index t (0 : Fin 2) * 128 + 1 * k.val = k.val; omega
    | ⟨1, _⟩ => show win1_3.index t (1 : Fin 2) * 256 + 1 * s.val = s.val; omega
  · show V c main_v43 (((cfg1.win 4).blk t).view.emb (ix2 (0 : Fin 1) s)) = V c main_v43 (ix2 (0 : Fin 1) s)
    refine congrArg (V c main_v43) (funext fun a => Fin.ext ?_)
    match a with
    | ⟨0, _⟩ => show win1_4.index t (0 : Fin 2) * 1 + 1 * 0 = 0; omega
    | ⟨1, _⟩ => show win1_4.index t (1 : Fin 2) * 256 + 1 * s.val = s.val; omega
  · intro k
    show V c main_v42 (((cfg1.win 5).blk t).view.emb (ix2 k s)) = V c main_v42 (ix2 k s)
    refine congrArg (V c main_v42) (funext fun a => Fin.ext ?_)
    match a with
    | ⟨0, _⟩ => show win1_5.index t (0 : Fin 2) * 128 + 1 * k.val = k.val; omega
    | ⟨1, _⟩ => show win1_5.index t (1 : Fin 2) * 256 + 1 * s.val = s.val; omega

/-- An index of the result array lies in point `t`'s block iff each coordinate is in the block's range. -/
theorem mem_block1 (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v44).slice (win1_6.rect t)).set ↔ _
  rw [View.set_slice_whole, Rect.mem_set_unit]
  exact Iff.rfl

/-- Row `r` lies in the block of point `r / 2000`: the blocks tile the rows. -/
theorem cover1 (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  have hN : grid1.N = 25 := N_1
  let t : Fin cfg1.N := ⟨(i 0).val / 2000, by show (i 0).val / 2000 < grid1.N; omega⟩
  obtain ⟨-, -, -, -, -, -, -, -, -, -, -, -, e60, e61⟩ := where1 t
  have ht : t.val = (i 0).val / 2000 := rfl
  refine ⟨t, flush1_6 t, ?_⟩
  rw [mem_block1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- Region 1's result array after the region. -/
theorem final1 (c : Dev nD) : (dat1 V c).arrAt 6 cfg1.N = result1 V c :=
  (dat1 V c).arrAt_eq_of_cover 6 (result1 V c) (fun t _ => flushed1 V c t) cover1

end Cert.KernelIdeal.Arrays

end
-- ==== Proof.LibFiniteSums.lean ====
/-
  General lemmas on finite sums, for value proofs on the extended reals. Nothing here mentions a program.

  * `sum_split`     a sum over `Fin N`, `N = m * n`, as the double sum over `a < m`, `b < n` at position `b + n * a`
                    (an array axis cut into `m` blocks of `n`);
  * `sum_comm4`     four nested sums over finite types: the inner two move outside;
  * `sum_mul_coe`   `(∑ f) * x = ∑ (f * x)` on the extended reals for a real `x ≥ 0`, whatever the terms are
                    (infinities of both signs included): a mean's division by a positive count distributes over a sum;
  * `sum_idx1`, `sum_idx3`   a sum over a rank-1 / rank-3 index set of literal extents as the sum over its coordinates
                    (the library's `ValueIdx.sum_idx2` at the two neighbouring ranks).
-/
import Mathlib.Data.EReal.Basic
import Mathlib.Data.EReal.Operations
import Mathlib.Algebra.BigOperators.Fin
import Mathlib.Algebra.BigOperators.Intervals
import Mathlib.Logic.Equiv.Fin.Basic
import Idealize.ShloMosaic.Lib.ValueIdx

noncomputable section

open scoped BigOperators
open Idealize.ShloMosaic Idealize.ShloMosaic.ValueIdx

namespace Cert.LibFiniteSums

/-! ## Re-indexing -/

/-- A sum over `Fin N` with `N = m * n` is the double sum over `a < m`, `b < n` at position `b + n * a`. -/
theorem sum_split {M : Type*} [AddCommMonoid M] (m n N : ℕ) (h : m * n = N) (g : Fin N → M) :
    ∑ x, g x = ∑ a : Fin m, ∑ b : Fin n,
      g ⟨b.val + n * a.val, h ▸ (finProdFinEquiv (a, b)).isLt⟩ := by
  subst h
  rw [← Equiv.sum_comp finProdFinEquiv g, Fintype.sum_prod_type]
  rfl

/-- Four nested sums: the inner two move outside. -/
theorem sum_comm4 {M : Type*} [AddCommMonoid M] {α β γ δ : Type*} [Fintype α] [Fintype β] [Fintype γ] [Fintype δ]
    (X : α → β → γ → δ → M) :
    ∑ a, ∑ b, ∑ c, ∑ d, X a b c d = ∑ c, ∑ d, ∑ a, ∑ b, X a b c d := by
  calc ∑ a, ∑ b, ∑ c, ∑ d, X a b c d
      = ∑ a, ∑ c, ∑ b, ∑ d, X a b c d := Finset.sum_congr rfl fun a _ => Finset.sum_comm
    _ = ∑ c, ∑ a, ∑ b, ∑ d, X a b c d := Finset.sum_comm
    _ = ∑ c, ∑ a, ∑ d, ∑ b, X a b c d :=
        Finset.sum_congr rfl fun c _ => Finset.sum_congr rfl fun a _ => Finset.sum_comm
    _ = ∑ c, ∑ d, ∑ a, ∑ b, X a b c d := Finset.sum_congr rfl fun c _ => Finset.sum_comm

/-! ## A non-negative real factor and a finite sum -/

/-- `(∑ f) * x = ∑ (f * x)` for a real `x ≥ 0`, whatever the terms are (infinities of both signs included). -/
theorem sum_mul_coe {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha,
      EReal.right_distrib_of_nonneg_of_ne_top (EReal.coe_nonneg.mpr hx) (EReal.coe_ne_top x), ih]

/-! ## Sums over index sets of rank 1 and 3 -/

/-- A sum over a rank-1 index set is the sum over its one coordinate. -/
def idxEquiv1 {n : Nat} : (⟨1, ![n]⟩ : Shape).Idx ≃ Fin n where
  toFun i := i 0
  invFun a := ix1 a
  left_inv i := (eq_ix1 i).symm
  right_inv _ := rfl
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibFiniteSums

end
-- ==== Proof.PoolSum.lean ====
/-
  The pooled column sum in its two groupings.

  The second layer's regions cut the rows into blocks of 2000 and store, for each block, eight copies of an eighth of
  the block's column sum; the host then adds up all stored rows. Adding the eight copies gives the block's column sum
  back (at every extended real), and the blocks' sums add up to the sum over all rows.
-/
import proofs.«125567_j52707838656535_2_alg».proof.Proof.LibMeanPoolAlgebra
import proofs.«125567_j52707838656535_2_alg».proof.Proof.LibFiniteSums

noncomputable section

open scoped BigOperators
open Idealize.ShloMosaic

namespace Cert.PoolSum

/-- The block a stored row belongs to: eight stored rows per block. -/
def blockOf {R nb : ℕ} (h : R = 8 * nb) (r : Fin R) : Fin nb := ⟨r.val / 8, by have := r.isLt; omega⟩

/-- Row `p` of block `b`, among all `n = 2000 · nb` rows. -/
def blockRow {n nb : ℕ} (h : n = 2000 * nb) (b : Fin nb) (p : Fin 2000) : Fin n :=
  ⟨p.val + 2000 * b.val, by have := b.isLt; have := p.isLt; omega⟩

theorem blockOf_val {R nb : ℕ} (h : R = 8 * nb) (r : Fin R) : (blockOf h r).val = r.val / 8 := rfl
theorem blockRow_val {n nb : ℕ} (h : n = 2000 * nb) (b : Fin nb) (p : Fin 2000) :
    (blockRow h b p).val = p.val + 2000 * b.val := rfl

/-- All stored rows added up: the sum over all rows of the array. -/
theorem stored_sum {n R nb : ℕ} (hn : n = 2000 * nb) (hR : R = 8 * nb) (f : Fin n → EReal) :
    ∑ r : Fin R, (∑ p : Fin 2000, f (blockRow hn (blockOf hR r) p)) * Ideal.ofBits .f32 0x3E000000#32
      = ∑ i : Fin n, f i := by
  rw [Cert.SageAlgebra.ofBits_eighth,
    Cert.LibFiniteSums.sum_split nb 8 R (by omega), Cert.LibFiniteSums.sum_split nb 2000 n (by omega)]
  refine Finset.sum_congr rfl fun a _ => ?_
  have hb : ∀ b : Fin 8, blockOf hR (⟨b.val + 8 * a.val, by have := a.isLt; have := b.isLt; omega⟩ : Fin R) = a := fun b =>
    Fin.ext (by have := b.isLt; show (b.val + 8 * a.val) / 8 = a.val; omega)
  calc ∑ b : Fin 8, (∑ p : Fin 2000, f (blockRow hn (blockOf hR ⟨b.val + 8 * a.val, _⟩) p)) * (((1 : ℝ) / 8 : ℝ) : EReal)
      = ∑ _b : Fin 8, (∑ p : Fin 2000, f (blockRow hn a p)) * (((1 : ℝ) / 8 : ℝ) : EReal) :=
        Finset.sum_congr rfl fun b _ => by rw [hb b]
    _ = ∑ p : Fin 2000, f (blockRow hn a p) := Cert.SageAlgebra.eight_eighths _
    _ = _ := Finset.sum_congr rfl fun p _ => congrArg f (Fin.ext rfl)

end Cert.PoolSum

end
-- ==== Proof.LayerTwoArrays.lean ====
/-
  What the second layer's two pipelined regions leave in their result arrays, as one function of the arrays the
  region finds at its entry.

  Grid point t stages rows 2000·t … 2000·t + 1999 of the aggregated rows, the reciprocal-count column, the first
  layer's rows and the input rows, with the whole weight matrices and bias rows, and writes back 8 rows: stored rows
  8·t … 8·t + 7 of the result each hold an eighth of the column sums of the block's 2000 clamped layer-two rows. The
  50 (resp. 25) blocks of 8 stored rows tile the 400 (resp. 200) rows of the result.
-/
import proofs.«125567_j52707838656535_2_alg».proof.Proof.Gen.KernelIdeal.Frame
import proofs.«125567_j52707838656535_2_alg».proof.Proof.KernelBodies
import proofs.«125567_j52707838656535_2_alg».proof.Proof.PoolSum
import Idealize.ShloMosaic.Lib.Pipeline.Value
import Idealize.ShloMosaic.Lib.ValueIdx

set_option maxRecDepth 16384

noncomputable section

namespace Cert.KernelIdeal.PoolArrays

open Cert.KernelIdeal Cert.KernelIdeal.Gen Cert.KernelIdeal.Bodies Cert.PoolSum
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem origin2 : (![0, 0] : Fin 2 → Nat) = fun _ => 0 := funext fun a => by fin_cases a <;> rfl

/-- The layer-two entry at row `r`, column `s` of whole arrays with `n` rows. -/
def layer2At {n : ℕ} (A : (⟨2, ![n, 256]⟩ : Shape).Idx → EReal) (INV : (⟨2, ![n, 1]⟩ : Shape).Idx → EReal)
    (ROOT : (⟨2, ![n, 256]⟩ : Shape).Idx → EReal) (SKIP : (⟨2, ![n, 128]⟩ : Shape).Idx → EReal)
    (WL WR : (⟨2, ![256, 256]⟩ : Shape).Idx → EReal) (WS : (⟨2, ![128, 256]⟩ : Shape).Idx → EReal)
    (B BS : (⟨2, ![1, 256]⟩ : Shape).Idx → EReal) (r : Fin n) (s : Fin 256) : EReal :=
  max (((((∑ k : Fin 256, (A (ix2 r k) * INV (ix2 r (0 : Fin 1))) * WL (ix2 k s))
    + ∑ k : Fin 256, ROOT (ix2 r k) * WR (ix2 k s)) + ∑ k : Fin 128, SKIP (ix2 r k) * WS (ix2 k s))
    + B (ix2 (0 : Fin 1) s)) + BS (ix2 (0 : Fin 1) s)) 0

/-- A block's entry is the whole arrays' entry, once every block read is the array's read on the block's row. -/
theorem layer2Entry_eq {n : ℕ} (b0 : Vec Ideal S2000x256 .f32) (b1 : Vec Ideal S2000x1 .f32) (b2 : Vec Ideal S2000x256 .bf16)
    (b3 : Vec Ideal S2000x128 .f32) (b4 b6 : Vec Ideal S256x256 .f32) (b7 : Vec Ideal S128x256 .f32) (b5 b8 : Vec Ideal S1x256 .f32)
    (A : (⟨2, ![n, 256]⟩ : Shape).Idx → EReal) (INV : (⟨2, ![n, 1]⟩ : Shape).Idx → EReal)
    (ROOT : (⟨2, ![n, 256]⟩ : Shape).Idx → EReal) (SKIP : (⟨2, ![n, 128]⟩ : Shape).Idx → EReal)
    (WL WR : (⟨2, ![256, 256]⟩ : Shape).Idx → EReal) (WS : (⟨2, ![128, 256]⟩ : Shape).Idx → EReal)
    (B BS : (⟨2, ![1, 256]⟩ : Shape).Idx → EReal)
    (p : Fin 2000) (q : Fin 256) (r : Fin n) (s : Fin 256)
    (h0 : ∀ k : Fin 256, b0 (ix2 p k) = A (ix2 r k)) (h1 : b1 (ix2 p (0 : Fin 1)) = INV (ix2 r (0 : Fin 1)))
    (h2 : ∀ k : Fin 256, b2 (ix2 p k) = ROOT (ix2 r k)) (h3 : ∀ k : Fin 128, b3 (ix2 p k) = SKIP (ix2 r k))
    (h4 : ∀ k : Fin 256, b4 (ix2 k q) = WL (ix2 k s)) (h6 : ∀ k : Fin 256, b6 (ix2 k q) = WR (ix2 k s))
    (h7 : ∀ k : Fin 128, b7 (ix2 k q) = WS (ix2 k s))
    (h5 : b5 (ix2 (0 : Fin 1) q) = B (ix2 (0 : Fin 1) s)) (h8 : b8 (ix2 (0 : Fin 1) q) = BS (ix2 (0 : Fin 1) s)) :
    layer2Entry b0 b1 b2 b3 b4 b6 b7 b5 b8 p q = layer2At A INV ROOT SKIP WL WR WS B BS r s := by
  unfold layer2Entry layer2At
  rw [h1, h5, h8]
  refine congrArg₂ max (congrArg₂ (· + ·) (congrArg₂ (· + ·) (congrArg₂ (· + ·) (congrArg₂ (· + ·) ?_ ?_) ?_) rfl) rfl) rfl
  · exact Finset.sum_congr rfl fun k _ => by rw [h0 k, h4 k]
  · exact Finset.sum_congr rfl fun k _ => by rw [h2 k, h6 k]
  · exact Finset.sum_congr rfl fun k _ => by rw [h3 k, h7 k]

/-! ## Region 2: the paper side, 50 blocks of 2000 rows, 8 stored rows per block -/

/-- The block index of every window at every point of region 2's grid. -/
theorem where2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The result array of region 2 as a function of the arrays at its entry. -/
def result2 (c : Dev nD) : S400x256.Idx → EReal := fun i =>
  (∑ p : Fin 2000, layer2At (n := 100000) (V c main_v55) (V c main_v8) (V c main_v40) (V c main_arg1) (V c main_v67)
      (V c main_v68) (V c main_v69) (V c main_v70) (V c main_v71)
      (blockRow (n := 100000) (nb := 50) (by norm_num) (blockOf (R := 400) (nb := 50) (by norm_num) (i 0)) p) (i 1))
    * Ideal.ofBits .f32 0x3E000000#32

set_option maxHeartbeats 1600000 in
theorem flushed2 (c : Dev nD) (t : Fin cfg2.N) :
    (dat2 V c).flushed 9 t = ((cfg2.win 9).blk t).view.read (Elt Ideal) (result2 V c) := by
  show (cfg2.win 9).cut (grid2.coords t) ((dat2 V c).after 9 t) = _
  rw [after2_9]
  unfold out2_9
  rw [View.canon_unit_zero origin2]
  simp only [View.ld_unit_zero (S := S2000x256) origin2, View.ld_unit_zero (S := S2000x128) origin2,
    View.ld_unit_zero (S := S2000x1) origin2, View.ld_unit_zero (S := S256x256) origin2,
    View.ld_unit_zero (S := S128x256) origin2, View.ld_unit_zero (S := S1x256) origin2]
  obtain ⟨e00, e01, e10, e11, e20, e21, e30, e31, e40, e41, e50, e51, e60, e61, e70, e71, e80, e81, e90, e91⟩ := where2 t
  have htN : t.val < 50 := by have h := t.isLt; have hN : grid2.N = 50 := N_2; exact hN ▸ h
  funext j
  obtain ⟨u, q, rfl⟩ : ∃ (u : Fin 8) (q : Fin 256), j = ix2 u q := ⟨j 0, j 1, eq_ix2 j⟩
  have hr : ((((cfg2.win 9).blk t).view.emb (ix2 u q)) 0).val = t.val * 8 + 1 * u.val := by
    show win2_9.index t (0 : Fin 2) * 8 + 1 * u.val = _
    rw [e90]
  have hs : ((((cfg2.win 9).blk t).view.emb (ix2 u q)) 1).val = q.val := by
    show win2_9.index t (1 : Fin 2) * 256 + 1 * q.val = _
    rw [e91]; omega
  refine (sage2_store _ u q).trans ?_
  refine (congrArg (· * Ideal.ofBits .f32 0x3E000000#32) (sage2_colsum _ _ _ _ _ _ _ _ _ q)).trans ?_
  show _ = (∑ p : Fin 2000, layer2At (n := 100000) _ _ _ _ _ _ _ _ _
      (blockRow (n := 100000) (nb := 50) _ (blockOf (R := 400) (nb := 50) _ ((((cfg2.win 9).blk t).view.emb (ix2 u q)) 0)) p)
      ((((cfg2.win 9).blk t).view.emb (ix2 u q)) 1)) * _
  generalize ((((cfg2.win 9).blk t).view.emb (ix2 u q)) 0) = r0 at hr
  generalize ((((cfg2.win 9).blk t).view.emb (ix2 u q)) 1) = s at hs
  have hsq : s = q := Fin.ext hs
  subst hsq
  refine congrArg (· * Ideal.ofBits .f32 0x3E000000#32) (Finset.sum_congr rfl fun p _ => ?_)
  have hrow : (blockRow (n := 100000) (nb := 50) (by norm_num) (blockOf (R := 400) (nb := 50) (by norm_num) r0) p).val
      = t.val * 2000 + p.val := by
    show p.val + 2000 * (r0.val / 8) = t.val * 2000 + p.val
    have := u.isLt; omega
  generalize blockRow (n := 100000) (nb := 50) _ (blockOf (R := 400) (nb := 50) _ r0) p = r at hrow
  refine layer2Entry_eq _ _ _ _ _ _ _ _ _ _ _ _ _ _ _ _ _ _ p s r s ?_ ?_ ?_ ?_ ?_ ?_ ?_ ?_ ?_
  · intro k
    show V c main_v55 (((cfg2.win 0).blk t).view.emb (ix2 p k)) = V c main_v55 (ix2 r k)
    refine congrArg (V c main_v55) (funext fun a => Fin.ext ?_)
    match a with
    | ⟨0, _⟩ => show win2_0.index t (0 : Fin 2) * 2000 + 1 * p.val = r.val; omega
    | ⟨1, _⟩ => show win2_0.index t (1 : Fin 2) * 256 + 1 * k.val = k.val; omega
  ·
    show V c main_v8 (((cfg2.win 1).blk t).view.emb (ix2 p (0 : Fin 1))) = V c main_v8 (ix2 r (0 : Fin 1))
    refine congrArg (V c main_v8) (funext fun a => Fin.ext ?_)
    match a with
    | ⟨0, _⟩ => show win2_1.index t (0 : Fin 2) * 2000 + 1 * p.val = r.val; omega
    | ⟨1, _⟩ => show win2_1.index t (1 : Fin 2) * 1 + 1 * 0 = 0; omega
  · intro k
    show V c main_v40 (((cfg2.win 2).blk t).view.emb (ix2 p k)) = V c main_v40 (ix2 r k)
    refine congrArg (V c main_v40) (funext fun a => Fin.ext ?_)
    match a with
    | ⟨0, _⟩ => show win2_2.index t (0 : Fin 2) * 2000 + 1 * p.val = r.val; omega
    | ⟨1, _⟩ => show win2_2.index t (1 : Fin 2) * 256 + 1 * k.val = k.val; omega
  · intro k
    show V c main_arg1 (((cfg2.win 3).blk t).view.emb (ix2 p k)) = V c main_arg1 (ix2 r k)
    refine congrArg (V c main_arg1) (funext fun a => Fin.ext ?_)
    match a with
    | ⟨0, _⟩ => show win2_3.index t (0 : Fin 2) * 2000 + 1 * p.val = r.val; omega
    | ⟨1, _⟩ => show win2_3.index t (1 : Fin 2) * 128 + 1 * k.val = k.val; omega
  · intro k
    show V c main_v67 (((cfg2.win 4).blk t).view.emb (ix2 k s)) = V c main_v67 (ix2 k s)
    refine congrArg (V c main_v67) (funext fun a => Fin.ext ?_)
    match a with
    | ⟨0, _⟩ => show win2_4.index t (0 : Fin 2) * 256 + 1 * k.val = k.val; omega
    | ⟨1, _⟩ => show win2_4.index t (1 : Fin 2) * 256 + 1 * s.val = s.val; omega
  · intro k
    show V c main_v68 (((cfg2.win 6).blk t).view.emb (ix2 k s)) = V c main_v68 (ix2 k s)
    refine congrArg (V c main_v68) (funext fun a => Fin.ext ?_)
    match a with
    | ⟨0, _⟩ => show win2_6.index t (0 : Fin 2) * 256 + 1 * k.val = k.val; omega
    | ⟨1, _⟩ => show win2_6.index t (1 : Fin 2) * 256 + 1 * s.val = s.val; omega
  · intro k
    show V c main_v69 (((cfg2.win 7).blk t).view.emb (ix2 k s)) = V c main_v69 (ix2 k s)
    refine congrArg (V c main_v69) (funext fun a => Fin.ext ?_)
    match a with
    | ⟨0, _⟩ => show win2_7.index t (0 : Fin 2) * 128 + 1 * k.val = k.val; omega
    | ⟨1, _⟩ => show win2_7.index t (1 : Fin 2) * 256 + 1 * s.val = s.val; omega
  ·
    show V c main_v70 (((cfg2.win 5).blk t).view.emb (ix2 (0 : Fin 1) s)) = V c main_v70 (ix2 (0 : Fin 1) s)
    refine congrArg (V c main_v70) (funext fun a => Fin.ext ?_)
    match a with
    | ⟨0, _⟩ => show win2_5.index t (0 : Fin 2) * 1 + 1 * 0 = 0; omega
    | ⟨1, _⟩ => show win2_5.index t (1 : Fin 2) * 256 + 1 * s.val = s.val; omega
  ·
    show V c main_v71 (((cfg2.win 8).blk t).view.emb (ix2 (0 : Fin 1) s)) = V c main_v71 (ix2 (0 : Fin 1) s)
    refine congrArg (V c main_v71) (funext fun a => Fin.ext ?_)
    match a with
    | ⟨0, _⟩ => show win2_8.index t (0 : Fin 2) * 1 + 1 * 0 = 0; omega
    | ⟨1, _⟩ => show win2_8.index t (1 : Fin 2) * 256 + 1 * s.val = s.val; omega

/-- An index of the result array lies in point `t`'s block iff each coordinate is in the block's range. -/
theorem mem_block2 (t : Fin cfg2.N) (i : S400x256.Idx) :
    i ∈ ((cfg2.win 9).blk t).view.set ↔ ∀ a : Fin 2, win2_9.index t a * S8x256.size a ≤ (i a).val
      ∧ (i a).val < win2_9.index t a * S8x256.size a + S8x256.size a := by
  show i ∈ ((View.whole main_v72).slice (win2_9.rect t)).set ↔ _
  rw [View.set_slice_whole, Rect.mem_set_unit]
  exact Iff.rfl

/-- Stored row `r` lies in the block of point `r / 8`. -/
theorem cover2 (i : S400x256.Idx) :
    ∃ t : Fin cfg2.N, (cfg2.win 9).flush t = true ∧ i ∈ ((cfg2.win 9).blk t).view.set := by
  have hi0 : (i 0).val < 400 := (i 0).isLt
  have hi1 : (i 1).val < 256 := (i 1).isLt
  have hN : grid2.N = 50 := N_2
  let t : Fin cfg2.N := ⟨(i 0).val / 8, by show (i 0).val / 8 < grid2.N; omega⟩
  obtain ⟨-, -, -, -, -, -, -, -, -, -, -, -, -, -, -, -, -, -, e90, e91⟩ := where2 t
  have ht : t.val = (i 0).val / 8 := rfl
  refine ⟨t, flush2_9 t, ?_⟩
  rw [mem_block2]
  intro a
  match a with
  | ⟨0, _⟩ => show win2_9.index t (0 : Fin 2) * 8 ≤ (i 0).val ∧ (i 0).val < win2_9.index t (0 : Fin 2) * 8 + 8; omega
  | ⟨1, _⟩ => show win2_9.index t (1 : Fin 2) * 256 ≤ (i 1).val ∧ (i 1).val < win2_9.index t (1 : Fin 2) * 256 + 256; omega

/-- Region 2's result array after the region. -/
theorem final2 (c : Dev nD) : (dat2 V c).arrAt 9 cfg2.N = result2 V c :=
  (dat2 V c).arrAt_eq_of_cover 9 (result2 V c) (fun t _ => flushed2 V c t) cover2

/-! ## Region 3: the author side, 25 blocks of 2000 rows, 8 stored rows per block -/

/-- The block index of every window at every point of region 3's grid. -/
theorem where3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- The result array of region 3 as a function of the arrays at its entry. -/
def result3 (c : Dev nD) : S200x256.Idx → EReal := fun i =>
  (∑ p : Fin 2000, layer2At (n := 50000) (V c main_v66) (V c main_v16) (V c main_v44) (V c main_arg0) (V c main_v77)
      (V c main_v78) (V c main_v79) (V c main_v80) (V c main_v81)
      (blockRow (n := 50000) (nb := 25) (by norm_num) (blockOf (R := 200) (nb := 25) (by norm_num) (i 0)) p) (i 1))
    * Ideal.ofBits .f32 0x3E000000#32

set_option maxHeartbeats 1600000 in
theorem flushed3 (c : Dev nD) (t : Fin cfg3.N) :
    (dat3 V c).flushed 9 t = ((cfg3.win 9).blk t).view.read (Elt Ideal) (result3 V c) := by
  show (cfg3.win 9).cut (grid3.coords t) ((dat3 V c).after 9 t) = _
  rw [after3_9]
  unfold out3_9
  rw [View.canon_unit_zero origin2]
  simp only [View.ld_unit_zero (S := S2000x256) origin2, View.ld_unit_zero (S := S2000x128) origin2,
    View.ld_unit_zero (S := S2000x1) origin2, View.ld_unit_zero (S := S256x256) origin2,
    View.ld_unit_zero (S := S128x256) origin2, View.ld_unit_zero (S := S1x256) origin2]
  obtain ⟨e00, e01, e10, e11, e20, e21, e30, e31, e40, e41, e50, e51, e60, e61, e70, e71, e80, e81, e90, e91⟩ := where3 t
  have htN : t.val < 25 := by have h := t.isLt; have hN : grid3.N = 25 := N_3; exact hN ▸ h
  funext j
  obtain ⟨u, q, rfl⟩ : ∃ (u : Fin 8) (q : Fin 256), j = ix2 u q := ⟨j 0, j 1, eq_ix2 j⟩
  have hr : ((((cfg3.win 9).blk t).view.emb (ix2 u q)) 0).val = t.val * 8 + 1 * u.val := by
    show win3_9.index t (0 : Fin 2) * 8 + 1 * u.val = _
    rw [e90]
  have hs : ((((cfg3.win 9).blk t).view.emb (ix2 u q)) 1).val = q.val := by
    show win3_9.index t (1 : Fin 2) * 256 + 1 * q.val = _
    rw [e91]; omega
  refine (show k3_pay1 (F := Ideal) (k3_pay2 (F := Ideal) _ _ _ _ _ _ _ _ _) (ix2 u q) = k2_pay1 (F := Ideal) (k2_pay2 (F := Ideal) _ _ _ _ _ _ _ _ _) (ix2 u q) from rfl).trans ?_
  refine (sage2_store _ u q).trans ?_
  refine (congrArg (· * Ideal.ofBits .f32 0x3E000000#32) (sage2_colsum _ _ _ _ _ _ _ _ _ q)).trans ?_
  show _ = (∑ p : Fin 2000, layer2At (n := 50000) _ _ _ _ _ _ _ _ _
      (blockRow (n := 50000) (nb := 25) _ (blockOf (R := 200) (nb := 25) _ ((((cfg3.win 9).blk t).view.emb (ix2 u q)) 0)) p)
      ((((cfg3.win 9).blk t).view.emb (ix2 u q)) 1)) * _
  generalize ((((cfg3.win 9).blk t).view.emb (ix2 u q)) 0) = r0 at hr
  generalize ((((cfg3.win 9).blk t).view.emb (ix2 u q)) 1) = s at hs
  have hsq : s = q := Fin.ext hs
  subst hsq
  refine congrArg (· * Ideal.ofBits .f32 0x3E000000#32) (Finset.sum_congr rfl fun p _ => ?_)
  have hrow : (blockRow (n := 50000) (nb := 25) (by norm_num) (blockOf (R := 200) (nb := 25) (by norm_num) r0) p).val
      = t.val * 2000 + p.val := by
    show p.val + 2000 * (r0.val / 8) = t.val * 2000 + p.val
    have := u.isLt; omega
  generalize blockRow (n := 50000) (nb := 25) _ (blockOf (R := 200) (nb := 25) _ r0) p = r at hrow
  refine layer2Entry_eq _ _ _ _ _ _ _ _ _ _ _ _ _ _ _ _ _ _ p s r s ?_ ?_ ?_ ?_ ?_ ?_ ?_ ?_ ?_
  · intro k
    show V c main_v66 (((cfg3.win 0).blk t).view.emb (ix2 p k)) = V c main_v66 (ix2 r k)
    refine congrArg (V c main_v66) (funext fun a => Fin.ext ?_)
    match a with
    | ⟨0, _⟩ => show win3_0.index t (0 : Fin 2) * 2000 + 1 * p.val = r.val; omega
    | ⟨1, _⟩ => show win3_0.index t (1 : Fin 2) * 256 + 1 * k.val = k.val; omega
  ·
    show V c main_v16 (((cfg3.win 1).blk t).view.emb (ix2 p (0 : Fin 1))) = V c main_v16 (ix2 r (0 : Fin 1))
    refine congrArg (V c main_v16) (funext fun a => Fin.ext ?_)
    match a with
    | ⟨0, _⟩ => show win3_1.index t (0 : Fin 2) * 2000 + 1 * p.val = r.val; omega
    | ⟨1, _⟩ => show win3_1.index t (1 : Fin 2) * 1 + 1 * 0 = 0; omega
  · intro k
    show V c main_v44 (((cfg3.win 2).blk t).view.emb (ix2 p k)) = V c main_v44 (ix2 r k)
    refine congrArg (V c main_v44) (funext fun a => Fin.ext ?_)
    match a with
    | ⟨0, _⟩ => show win3_2.index t (0 : Fin 2) * 2000 + 1 * p.val = r.val; omega
    | ⟨1, _⟩ => show win3_2.index t (1 : Fin 2) * 256 + 1 * k.val = k.val; omega
  · intro k
    show V c main_arg0 (((cfg3.win 3).blk t).view.emb (ix2 p k)) = V c main_arg0 (ix2 r k)
    refine congrArg (V c main_arg0) (funext fun a => Fin.ext ?_)
    match a with
    | ⟨0, _⟩ => show win3_3.index t (0 : Fin 2) * 2000 + 1 * p.val = r.val; omega
    | ⟨1, _⟩ => show win3_3.index t (1 : Fin 2) * 128 + 1 * k.val = k.val; omega
  · intro k
    show V c main_v77 (((cfg3.win 4).blk t).view.emb (ix2 k s)) = V c main_v77 (ix2 k s)
    refine congrArg (V c main_v77) (funext fun a => Fin.ext ?_)
    match a with
    | ⟨0, _⟩ => show win3_4.index t (0 : Fin 2) * 256 + 1 * k.val = k.val; omega
    | ⟨1, _⟩ => show win3_4.index t (1 : Fin 2) * 256 + 1 * s.val = s.val; omega
  · intro k
    show V c main_v78 (((cfg3.win 6).blk t).view.emb (ix2 k s)) = V c main_v78 (ix2 k s)
    refine congrArg (V c main_v78) (funext fun a => Fin.ext ?_)
    match a with
    | ⟨0, _⟩ => show win3_6.index t (0 : Fin 2) * 256 + 1 * k.val = k.val; omega
    | ⟨1, _⟩ => show win3_6.index t (1 : Fin 2) * 256 + 1 * s.val = s.val; omega
  · intro k
    show V c main_v79 (((cfg3.win 7).blk t).view.emb (ix2 k s)) = V c main_v79 (ix2 k s)
    refine congrArg (V c main_v79) (funext fun a => Fin.ext ?_)
    match a with
    | ⟨0, _⟩ => show win3_7.index t (0 : Fin 2) * 128 + 1 * k.val = k.val; omega
    | ⟨1, _⟩ => show win3_7.index t (1 : Fin 2) * 256 + 1 * s.val = s.val; omega
  ·
    show V c main_v80 (((cfg3.win 5).blk t).view.emb (ix2 (0 : Fin 1) s)) = V c main_v80 (ix2 (0 : Fin 1) s)
    refine congrArg (V c main_v80) (funext fun a => Fin.ext ?_)
    match a with
    | ⟨0, _⟩ => show win3_5.index t (0 : Fin 2) * 1 + 1 * 0 = 0; omega
    | ⟨1, _⟩ => show win3_5.index t (1 : Fin 2) * 256 + 1 * s.val = s.val; omega
  ·
    show V c main_v81 (((cfg3.win 8).blk t).view.emb (ix2 (0 : Fin 1) s)) = V c main_v81 (ix2 (0 : Fin 1) s)
    refine congrArg (V c main_v81) (funext fun a => Fin.ext ?_)
    match a with
    | ⟨0, _⟩ => show win3_8.index t (0 : Fin 2) * 1 + 1 * 0 = 0; omega
    | ⟨1, _⟩ => show win3_8.index t (1 : Fin 2) * 256 + 1 * s.val = s.val; omega

/-- An index of the result array lies in point `t`'s block iff each coordinate is in the block's range. -/
theorem mem_block3 (t : Fin cfg3.N) (i : S200x256.Idx) :
    i ∈ ((cfg3.win 9).blk t).view.set ↔ ∀ a : Fin 2, win3_9.index t a * S8x256.size a ≤ (i a).val
      ∧ (i a).val < win3_9.index t a * S8x256.size a + S8x256.size a := by
  show i ∈ ((View.whole main_v82).slice (win3_9.rect t)).set ↔ _
  rw [View.set_slice_whole, Rect.mem_set_unit]
  exact Iff.rfl

/-- Stored row `r` lies in the block of point `r / 8`. -/
theorem cover3 (i : S200x256.Idx) :
    ∃ t : Fin cfg3.N, (cfg3.win 9).flush t = true ∧ i ∈ ((cfg3.win 9).blk t).view.set := by
  have hi0 : (i 0).val < 200 := (i 0).isLt
  have hi1 : (i 1).val < 256 := (i 1).isLt
  have hN : grid3.N = 25 := N_3
  let t : Fin cfg3.N := ⟨(i 0).val / 8, by show (i 0).val / 8 < grid3.N; omega⟩
  obtain ⟨-, -, -, -, -, -, -, -, -, -, -, -, -, -, -, -, -, -, e90, e91⟩ := where3 t
  have ht : t.val = (i 0).val / 8 := rfl
  refine ⟨t, flush3_9 t, ?_⟩
  rw [mem_block3]
  intro a
  match a with
  | ⟨0, _⟩ => show win3_9.index t (0 : Fin 2) * 8 ≤ (i 0).val ∧ (i 0).val < win3_9.index t (0 : Fin 2) * 8 + 8; omega
  | ⟨1, _⟩ => show win3_9.index t (1 : Fin 2) * 256 ≤ (i 1).val ∧ (i 1).val < win3_9.index t (1 : Fin 2) * 256 + 256; omega

/-- Region 3's result array after the region. -/
theorem final3 (c : Dev nD) : (dat3 V c).arrAt 9 cfg3.N = result3 V c :=
  (dat3 V c).arrAt_eq_of_cover 9 (result3 V c) (fun t _ => flushed3 V c t) cover3

end Cert.KernelIdeal.PoolArrays

end
-- ==== Proof.LayerSpellings.lean ====
/-
  The layer entries in the kernel's spelling and in the reference's.

  The kernel multiplies an aggregated row by the reciprocal of the clamped count, multiplies by transposed weight
  matrices, and adds the bias rows last; the reference divides by the clamped count, contracts with the weights'
  second axis, and adds the first bias before the root product. Entry by entry these agree on the extended reals:
  the clamped count is at least one, so the product with its reciprocal is the quotient, and the additions only
  change order.
-/
import proofs.«125567_j52707838656535_2_alg».proof.Proof.LibMeanPoolAlgebra
import proofs.«125567_j52707838656535_2_alg».proof.Proof.LayerOneArrays
import proofs.«125567_j52707838656535_2_alg».proof.Proof.LayerTwoArrays
import Idealize.ShloMosaic.Lib.ValueIdx
import Idealize.ShloMosaic.Lib.IdealHost

noncomputable section

namespace Cert.LayerSpellings

open Cert.KernelIdeal.Arrays Cert.KernelIdeal.PoolArrays Cert.SageAlgebra
open Idealize.ShloMosaic Idealize.ShloMosaic.ValueIdx
open scoped BigOperators

/-- A layer-one entry: the kernel's spelling is the reference's. -/
theorem layer1_spellings {n : ℕ} (A : (⟨2, ![n, 128]⟩ : Shape).Idx → EReal) (cnt : (⟨1, ![n]⟩ : Shape).Idx → EReal)
    (INV : (⟨2, ![n, 1]⟩ : Shape).Idx → EReal) (X : (⟨2, ![n, 128]⟩ : Shape).Idx → EReal)
    (WL : (⟨2, ![128, 256]⟩ : Shape).Idx → EReal) (B : (⟨2, ![1, 256]⟩ : Shape).Idx → EReal)
    (WR : (⟨2, ![128, 256]⟩ : Shape).Idx → EReal)
    (wl : (⟨2, ![256, 128]⟩ : Shape).Idx → EReal) (b : (⟨1, ![256]⟩ : Shape).Idx → EReal)
    (wr : (⟨2, ![256, 128]⟩ : Shape).Idx → EReal) (A' X' : (⟨2, ![n, 128]⟩ : Shape).Idx → EReal) (r : Fin n) (s : Fin 256)
    (hA : ∀ k : Fin 128, A (ix2 r k) = A' (ix2 r k)) (hX : ∀ k : Fin 128, X (ix2 r k) = X' (ix2 r k))
    (hINV : INV (ix2 r (0 : Fin 1))
      = Ideal.div (Ideal.ofBits .f32 0x3F800000#32) (max (cnt (ix1 r)) (Ideal.ofBits .f32 0x3F800000#32)))
    (hWL : ∀ k : Fin 128, WL (ix2 k s) = wl (ix2 s k)) (hB : B (ix2 (0 : Fin 1) s) = b (ix1 s))
    (hWR : ∀ k : Fin 128, WR (ix2 k s) = wr (ix2 s k)) :
    layer1At A INV X WL B WR r s
      = max (((∑ k : Fin 128, Ideal.div (A' (ix2 r k)) (max (cnt (ix1 r)) (Ideal.ofBits .f32 0x3F800000#32)) * wl (ix2 s k))
          + b (ix1 s)) + ∑ k : Fin 128, X' (ix2 r k) * wr (ix2 s k)) (Ideal.ofBits .f32 0x00000000#32) := by
  unfold layer1At
  rw [hINV, hB, Ideal.ofBits_one_f32, Ideal.ofBits_zero_f32, sum3_comm]
  refine congrArg₂ max (congrArg₂ (· + ·) (congrArg₂ (· + ·) ?_ rfl) ?_) rfl
  · exact Finset.sum_congr rfl fun k _ => by rw [mul_recip_count, hWL k, hA k]
  · exact Finset.sum_congr rfl fun k _ => by rw [hWR k, hX k]

/-- A layer-two entry: the kernel's spelling is the reference's. -/
theorem layer2_spellings {n : ℕ} (A : (⟨2, ![n, 256]⟩ : Shape).Idx → EReal) (cnt : (⟨1, ![n]⟩ : Shape).Idx → EReal)
    (INV : (⟨2, ![n, 1]⟩ : Shape).Idx → EReal) (ROOT : (⟨2, ![n, 256]⟩ : Shape).Idx → EReal)
    (SKIP : (⟨2, ![n, 128]⟩ : Shape).Idx → EReal)
    (WL WR : (⟨2, ![256, 256]⟩ : Shape).Idx → EReal) (WS : (⟨2, ![128, 256]⟩ : Shape).Idx → EReal)
    (B BS : (⟨2, ![1, 256]⟩ : Shape).Idx → EReal)
    (wl wr : (⟨2, ![256, 256]⟩ : Shape).Idx → EReal) (ws : (⟨2, ![256, 128]⟩ : Shape).Idx → EReal)
    (b bs : (⟨1, ![256]⟩ : Shape).Idx → EReal) (A' ROOT' : (⟨2, ![n, 256]⟩ : Shape).Idx → EReal)
    (SKIP' : (⟨2, ![n, 128]⟩ : Shape).Idx → EReal) (r : Fin n) (s : Fin 256)
    (hA : ∀ k : Fin 256, A (ix2 r k) = A' (ix2 r k)) (hROOT : ∀ k : Fin 256, ROOT (ix2 r k) = ROOT' (ix2 r k))
    (hSKIP : ∀ k : Fin 128, SKIP (ix2 r k) = SKIP' (ix2 r k))
    (hINV : INV (ix2 r (0 : Fin 1))
      = Ideal.div (Ideal.ofBits .f32 0x3F800000#32) (max (cnt (ix1 r)) (Ideal.ofBits .f32 0x3F800000#32)))
    (hWL : ∀ k : Fin 256, WL (ix2 k s) = wl (ix2 s k)) (hWR : ∀ k : Fin 256, WR (ix2 k s) = wr (ix2 s k))
    (hWS : ∀ k : Fin 128, WS (ix2 k s) = ws (ix2 s k))
    (hB : B (ix2 (0 : Fin 1) s) = b (ix1 s)) (hBS : BS (ix2 (0 : Fin 1) s) = bs (ix1 s)) :
    layer2At A INV ROOT SKIP WL WR WS B BS r s
      = max (((((∑ k : Fin 256, Ideal.div (A' (ix2 r k)) (max (cnt (ix1 r)) (Ideal.ofBits .f32 0x3F800000#32)) * wl (ix2 s k))
          + b (ix1 s)) + ∑ k : Fin 256, ROOT' (ix2 r k) * wr (ix2 s k)) + ∑ k : Fin 128, SKIP' (ix2 r k) * ws (ix2 s k))
          + bs (ix1 s)) (Ideal.ofBits .f32 0x00000000#32) := by
  unfold layer2At
  rw [hINV, hB, hBS, Ideal.ofBits_one_f32, Ideal.ofBits_zero_f32, sum5_comm]
  refine congrArg₂ max (congrArg₂ (· + ·) (congrArg₂ (· + ·) (congrArg₂ (· + ·) (congrArg₂ (· + ·) ?_ rfl) ?_) ?_) rfl) rfl
  · exact Finset.sum_congr rfl fun k _ => by rw [mul_recip_count, hWL k, hA k]
  · exact Finset.sum_congr rfl fun k _ => by rw [hWR k, hROOT k]
  · exact Finset.sum_congr rfl fun k _ => by rw [hWS k, hSKIP k]

/-- A vector cast to a column reads, at `(i, u)`, the vector at `i`. -/
theorem column_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.LayerSpellings

end
-- ==== Proof.LayerAgreement.lean ====
/-
  The kernel's layer arrays are the reference's stages.

  The first layer's result arrays are the reference's first-layer activations (entry by entry, by the two spellings of
  a layer entry); hence the second layer's aggregated rows, gathered from and scattered over the same arrays by the
  same index vectors, are the reference's; hence every second-layer entry the kernel's regions add up is the
  reference's second-layer activation at that entry.
-/
import proofs.«125567_j52707838656535_2_alg».proof.Proof.KernelGlue
import proofs.«125567_j52707838656535_2_alg».proof.Proof.RefLayers
import proofs.«125567_j52707838656535_2_alg».proof.Proof.LayerSpellings
import Idealize.ShloMosaic.Lib.ValueLayout

set_option maxRecDepth 16384

noncomputable section

namespace Cert.LayerAgreement

open Cert.KernelIdeal Cert.KernelIdeal.Gen Cert.KernelIdeal.Glue
open Cert.KernelIdeal.Arrays Cert.KernelIdeal.PoolArrays Cert.LayerSpellings Cert.PoolSum
open Cert.ReferenceIdeal.Read Cert.ReferenceIdeal.Layers
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-- The reciprocal-count column at a row: one over the clamped count. -/
theorem recip_read {n : ℕ} (ones cnts c13 : FVec Ideal ⟨1, ![n]⟩ .f32)
    (h : (⟨1, ![n]⟩ : Shape).ShapeCasts ⟨2, ![n, 1]⟩) (r : Fin n)
    (hones : ones (ix1 r) = Ideal.ofBits .f32 0x3F800000#32)
    (hcnt : cnts (ix1 r) = max (c13 (ix1 r)) (Ideal.ofBits .f32 0x3F800000#32)) :
    shapeCast ⟨2, ![n, 1]⟩ (Host.divf ones cnts) h (ix2 r (0 : Fin 1))
      = Ideal.div (Ideal.ofBits .f32 0x3F800000#32) (max (c13 (ix1 r)) (Ideal.ofBits .f32 0x3F800000#32)) := by
  refine (column_apply _ h r 0).trans ?_
  show Ideal.div (ones (ix1 r)) (cnts (ix1 r)) = _
  rw [hones, hcnt]

/-! ## Layer one -/

theorem layer1P (c : Dev nD) :
    result0 (V1 m ρ) c = (val_main_v27 (F := Ideal) (arg m c main_arg0) (arg m c main_arg1) (arg m c main_arg2) (arg m c main_arg3) (arg m c main_arg6) (arg m c main_arg7) (arg m c main_arg8) : S100000x256.Idx → EReal) := by
  funext i
  obtain ⟨r, s, rfl⟩ : ∃ (r : Fin 100000) (s : Fin 256), i = ix2 r s := ⟨i 0, i 1, eq_ix2 i⟩
  refine Eq.trans ?_ (h1p_apply _ _ _ _ _ _ _ r s).symm
  exact layer1_spellings (n := 100000) _ (val_main_v13 (F := Ideal) (arg m c main_arg3)) _ _ _ _ _
    (arg m c main_arg6) (arg m c main_arg7) (arg m c main_arg8) (val_main_v9 (F := Ideal) (arg m c main_arg0) (arg m c main_arg2) (arg m c main_arg3)) (arg m c main_arg1) r s
    (fun k => congrFun (W1_main_v26 m ρ c) (ix2 r k)) (fun k => congrFun (W1_main_arg1 m ρ c) (ix2 r k))
    ((congrFun (W1_main_v8 m ρ c) (ix2 r (0 : Fin 1))).trans
      (recip_read (n := 100000) _ _ (val_main_v13 (F := Ideal) (arg m c main_arg3)) _ r rfl rfl))
    (fun k => (congrFun (W1_main_v37 m ρ c) (ix2 k s)).trans (by rw [val_main_v19_apply, idx_v19]))
    ((congrFun (W1_main_v39 m ρ c) (ix2 (0 : Fin 1) s)).trans (shapeCast_a_1a_apply _ _ (0 : Fin 1) s))
    (fun k => (congrFun (W1_main_v38 m ρ c) (ix2 k s)).trans (by rw [val_main_v24_apply, idx_v24]))

theorem layer1A (c : Dev nD) :
    result1 (V3 m ρ) c = (val_main_v55 (F := Ideal) (arg m c main_arg0) (arg m c main_arg1) (arg m c main_arg4) (arg m c main_arg5) (arg m c main_arg9) (arg m c main_arg10) (arg m c main_arg11) : S50000x256.Idx → EReal) := by
  funext i
  obtain ⟨r, s, rfl⟩ : ∃ (r : Fin 50000) (s : Fin 256), i = ix2 r s := ⟨i 0, i 1, eq_ix2 i⟩
  refine Eq.trans ?_ (h1a_apply _ _ _ _ _ _ _ r s).symm
  exact layer1_spellings (n := 50000) _ (val_main_v41 (F := Ideal) (arg m c main_arg5)) _ _ _ _ _
    (arg m c main_arg9) (arg m c main_arg10) (arg m c main_arg11) (val_main_v37 (F := Ideal) (arg m c main_arg1) (arg m c main_arg4) (arg m c main_arg5)) (arg m c main_arg0) r s
    (fun k => congrFun (W3_main_v36 m ρ c) (ix2 r k)) (fun k => congrFun (W3_main_arg0 m ρ c) (ix2 r k))
    ((congrFun (W3_main_v16 m ρ c) (ix2 r (0 : Fin 1))).trans
      (recip_read (n := 50000) _ _ (val_main_v41 (F := Ideal) (arg m c main_arg5)) _ r rfl rfl))
    (fun k => (congrFun (W3_main_v41 m ρ c) (ix2 k s)).trans (by rw [val_main_v47_apply, idx_v47]))
    ((congrFun (W3_main_v43 m ρ c) (ix2 (0 : Fin 1) s)).trans (shapeCast_a_1a_apply _ _ (0 : Fin 1) s))
    (fun k => (congrFun (W3_main_v42 m ρ c) (ix2 k s)).trans (by rw [val_main_v52_apply, idx_v52]))

/-- The first layer's result arrays in memory after their regions. -/
theorem h1p_mem (c : Dev nD) :
    W2 m ρ c (Proc.devRef .tc main_v40) = (val_main_v27 (F := Ideal) (arg m c main_arg0) (arg m c main_arg1) (arg m c main_arg2) (arg m c main_arg3) (arg m c main_arg6) (arg m c main_arg7) (arg m c main_arg8) : S100000x256.Idx → EReal) :=
  (W2_arr m ρ c 6).trans ((final0 (V1 m ρ) c).trans (layer1P m ρ c))

theorem h1a_mem (c : Dev nD) :
    W4 m ρ c (Proc.devRef .tc main_v44) = (val_main_v55 (F := Ideal) (arg m c main_arg0) (arg m c main_arg1) (arg m c main_arg4) (arg m c main_arg5) (arg m c main_arg9) (arg m c main_arg10) (arg m c main_arg11) : S50000x256.Idx → EReal) :=
  (W4_arr m ρ c 6).trans ((final1 (V3 m ρ) c).trans (layer1A m ρ c))

/-! ## Layer two: the aggregated rows -/

theorem agg2P (c : Dev nD) :
    W5 m ρ c (Proc.devRef .tc main_v55) = (val_main_v65 (F := Ideal) (arg m c main_arg0) (arg m c main_arg1) (arg m c main_arg2) (arg m c main_arg3) (arg m c main_arg4) (arg m c main_arg5) (arg m c main_arg9) (arg m c main_arg10) (arg m c main_arg11) : S100000x256.Idx → EReal) := by
  refine (W5_main_v55 m ρ c).trans ?_
  rw [h1a_mem m ρ c]
  rfl

theorem agg2A (c : Dev nD) :
    W7 m ρ c (Proc.devRef .tc main_v66) = (val_main_v92 (F := Ideal) (arg m c main_arg0) (arg m c main_arg1) (arg m c main_arg2) (arg m c main_arg3) (arg m c main_arg4) (arg m c main_arg5) (arg m c main_arg6) (arg m c main_arg7) (arg m c main_arg8) : S50000x256.Idx → EReal) := by
  refine (W7_main_v66 m ρ c).trans ?_
  rw [h1p_mem m ρ c]
  rfl

/-! ## Layer two: an entry -/

theorem layer2P (c : Dev nD) (r : Fin 100000) (s : Fin 256) :
    layer2At (n := 100000) (V5 m ρ c main_v55) (V5 m ρ c main_v8) (V5 m ρ c main_v40) (V5 m ρ c main_arg1)
        (V5 m ρ c main_v67) (V5 m ρ c main_v68) (V5 m ρ c main_v69) (V5 m ρ c main_v70) (V5 m ρ c main_v71) r s
      = val_main_v123 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg20) (arg m c main_arg21) (ix2 r s) := by
  refine Eq.trans ?_ (h2p_apply _ _ _ _ _ _ _ _ _ _ _ _ _ _ _ _ _ r s).symm
  exact layer2_spellings (n := 100000) _ (val_main_v69 (F := Ideal) (arg m c main_arg3)) _ _ _ _ _ _ _ _
    (arg m c main_arg12) (arg m c main_arg14) (arg m c main_arg20) (arg m c main_arg13) (arg m c main_arg21)
    (val_main_v65 (F := Ideal) (arg m c main_arg0) (arg m c main_arg1) (arg m c main_arg2) (arg m c main_arg3) (arg m c main_arg4) (arg m c main_arg5) (arg m c main_arg9) (arg m c main_arg10) (arg m c main_arg11)) (val_main_v27 (F := Ideal) (arg m c main_arg0) (arg m c main_arg1) (arg m c main_arg2) (arg m c main_arg3) (arg m c main_arg6) (arg m c main_arg7) (arg m c main_arg8)) (arg m c main_arg1) r s
    (fun k => congrFun (agg2P m ρ c) (ix2 r k))
    (fun k => congrFun ((W5_main_v40 m ρ c).trans (h1p_mem m ρ c)) (ix2 r k))
    (fun k => congrFun (W5_main_arg1 m ρ c) (ix2 r k))
    ((congrFun (W5_main_v8 m ρ c) (ix2 r (0 : Fin 1))).trans
      (recip_read (n := 100000) _ _ (val_main_v69 (F := Ideal) (arg m c main_arg3)) _ r rfl rfl))
    (fun k => (congrFun (W5_main_v67 m ρ c) (ix2 k s)).trans (by rw [val_main_v75_apply, idx_v75]))
    (fun k => (congrFun (W5_main_v68 m ρ c) (ix2 k s)).trans (by rw [val_main_v80_apply, idx_v80]))
    (fun k => (congrFun (W5_main_v69 m ρ c) (ix2 k s)).trans (by rw [val_main_v117_apply, idx_v117]))
    ((congrFun (W5_main_v70 m ρ c) (ix2 (0 : Fin 1) s)).trans (shapeCast_a_1a_apply _ _ (0 : Fin 1) s))
    ((congrFun (W5_main_v71 m ρ c) (ix2 (0 : Fin 1) s)).trans (shapeCast_a_1a_apply _ _ (0 : Fin 1) s))

theorem layer2A (c : Dev nD) (r : Fin 50000) (s : Fin 256) :
    layer2At (n := 50000) (V7 m ρ c main_v66) (V7 m ρ c main_v16) (V7 m ρ c main_v44) (V7 m ρ c main_arg0)
        (V7 m ρ c main_v77) (V7 m ρ c main_v78) (V7 m ρ c main_v79) (V7 m ρ c main_v80) (V7 m ρ c main_v81) r s
      = val_main_v116 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg15) (arg m c main_arg16) (arg m c main_arg17) (arg m c main_arg18) (arg m c main_arg19) (ix2 r s) := by
  refine Eq.trans ?_ (h2a_apply _ _ _ _ _ _ _ _ _ _ _ _ _ _ _ _ _ r s).symm
  exact layer2_spellings (n := 50000) _ (val_main_v96 (F := Ideal) (arg m c main_arg5)) _ _ _ _ _ _ _ _
    (arg m c main_arg15) (arg m c main_arg17) (arg m c main_arg18) (arg m c main_arg16) (arg m c main_arg19)
    (val_main_v92 (F := Ideal) (arg m c main_arg0) (arg m c main_arg1) (arg m c main_arg2) (arg m c main_arg3) (arg m c main_arg4) (arg m c main_arg5) (arg m c main_arg6) (arg m c main_arg7) (arg m c main_arg8)) (val_main_v55 (F := Ideal) (arg m c main_arg0) (arg m c main_arg1) (arg m c main_arg4) (arg m c main_arg5) (arg m c main_arg9) (arg m c main_arg10) (arg m c main_arg11)) (arg m c main_arg0) r s
    (fun k => congrFun (agg2A m ρ c) (ix2 r k))
    (fun k => congrFun ((W7_main_v44 m ρ c).trans (h1a_mem m ρ c)) (ix2 r k))
    (fun k => congrFun (W7_main_arg0 m ρ c) (ix2 r k))
    ((congrFun (W7_main_v16 m ρ c) (ix2 r (0 : Fin 1))).trans
      (recip_read (n := 50000) _ _ (val_main_v96 (F := Ideal) (arg m c main_arg5)) _ r rfl rfl))
    (fun k => (congrFun (W7_main_v77 m ρ c) (ix2 k s)).trans (by rw [val_main_v102_apply, idx_v102]))
    (fun k => (congrFun (W7_main_v78 m ρ c) (ix2 k s)).trans (by rw [val_main_v107_apply, idx_v107]))
    (fun k => (congrFun (W7_main_v79 m ρ c) (ix2 k s)).trans (by rw [val_main_v110_apply, idx_v110]))
    ((congrFun (W7_main_v80 m ρ c) (ix2 (0 : Fin 1) s)).trans (shapeCast_a_1a_apply _ _ (0 : Fin 1) s))
    ((congrFun (W7_main_v81 m ρ c) (ix2 (0 : Fin 1) s)).trans (shapeCast_a_1a_apply _ _ (0 : Fin 1) s))

end Cert.LayerAgreement

end
-- ==== Proof.KernelTail.lean ====
import proofs.«125567_j52707838656535_2_alg».proof.Proof.Gen.KernelIdeal.Frame
import proofs.«125567_j52707838656535_2_alg».proof.Proof.Gen.ReferenceIdeal.Read
import Idealize.ShloMosaic.Lib.StableHlo.Run
import Idealize.ShloMosaic.Lib.IdealHost

/-!
# The tail of the kernel program: the two mean pools and the dense head

After its last region the kernel program pools each node type's layer-two rows (a column sum divided by the
node count), joins the two pooled rows and applies two dense layers. The same chain of operations ends the
reference, so both results are one function `head` of the two pooled rows and the four head arrays.
-/

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo
open scoped BigOperators

section Defs
variable {F : FTy → Type} [FloatOps F]

/-- The first dense layer on the pooled author row `pa` and the pooled paper row `pp`: join them, contract with
    the transposed weights, add the bias. -/
def dense1 (pa pp : (⟨S1x256, .f32⟩ : BufTy).Contents (Elt F)) (a22 : (⟨S256x512, .f32⟩ : BufTy).Contents (Elt F))
    (a23 : (⟨S256, .f32⟩ : BufTy).Contents (Elt F)) : (⟨S1x256, .f32⟩ : BufTy).Contents (Elt F) :=
  addf
    (Host.dotGeneral dot_S1x512_S512x256_S1x256_1_0_0_1_n_n none
      (concatenate S1x512 1 [⟨S1x256, pa⟩, ⟨S1x256, pp⟩] concatenates_S1x256_S1x256_S1x512_d1 : (⟨S1x512, .f32⟩ : BufTy).Contents (Elt F))
      (transpose S512x256 [1, 0] a22 transposes_S256x512_S512x256_1_0 : (⟨S512x256, .f32⟩ : BufTy).Contents (Elt F)))
    (broadcastInDim S1x256 ![1] bcast_S256_S1x256_1 a23 : (⟨S1x256, .f32⟩ : BufTy).Contents (Elt F))

/-- The clamp below at zero. -/
def clamp (x : (⟨S1x256, .f32⟩ : BufTy).Contents (Elt F)) : (⟨S1x256, .f32⟩ : BufTy).Contents (Elt F) :=
  maximumf x (broadcastInDim S1x256 ![] bcast_S_S1x256 (constant S_ .f32 0x00000000#32 : (⟨S_, .f32⟩ : BufTy).Contents (Elt F)) : (⟨S1x256, .f32⟩ : BufTy).Contents (Elt F))

/-- The second dense layer: contract with the transposed weights, add the bias. -/
def dense2 (x : (⟨S1x256, .f32⟩ : BufTy).Contents (Elt F)) (a24 : (⟨S16x256, .f32⟩ : BufTy).Contents (Elt F))
    (a25 : (⟨S16, .f32⟩ : BufTy).Contents (Elt F)) : (⟨S1x16, .f32⟩ : BufTy).Contents (Elt F) :=
  addf
    (Host.dotGeneral dot_S1x256_S256x16_S1x16_1_0_0_1_n_n none x
      (transpose S256x16 [1, 0] a24 transposes_S16x256_S256x16_1_0 : (⟨S256x16, .f32⟩ : BufTy).Contents (Elt F)))
    (broadcastInDim S1x16 ![1] bcast_S16_S1x16_1 a25 : (⟨S1x16, .f32⟩ : BufTy).Contents (Elt F))

/-- The dense head: the first layer, the clamp, the second layer. -/
def head (pa pp : (⟨S1x256, .f32⟩ : BufTy).Contents (Elt F)) (a22 : (⟨S256x512, .f32⟩ : BufTy).Contents (Elt F))
    (a23 : (⟨S256, .f32⟩ : BufTy).Contents (Elt F)) (a24 : (⟨S16x256, .f32⟩ : BufTy).Contents (Elt F))
    (a25 : (⟨S16, .f32⟩ : BufTy).Contents (Elt F)) : (⟨S1x16, .f32⟩ : BufTy).Contents (Elt F) :=
  dense2 (clamp (dense1 pa pp a22 a23)) a24 a25

/-- The mean over the 400 rows of a paper-side array: the column sum from zero, divided by the paper count. -/
def poolP (y : (⟨S400x256, .f32⟩ : BufTy).Contents (Elt F)) : (⟨S1x256, .f32⟩ : BufTy).Contents (Elt F) :=
  Host.divf (broadcastInDim S1x256 ![1] bcast_S256_S1x256_1 (Host.reduceAdd y (constant S_ .f32 0x00000000#32 : (⟨S_, .f32⟩ : BufTy).Contents (Elt F)) reducesTo_S400x256_S256_d0 h_S_ : (⟨S256, .f32⟩ : BufTy).Contents (Elt F)) : (⟨S1x256, .f32⟩ : BufTy).Contents (Elt F))
    (broadcastInDim S1x256 ![] bcast_S_S1x256 (constant S_ .f32 0x47C35000#32 : (⟨S_, .f32⟩ : BufTy).Contents (Elt F)) : (⟨S1x256, .f32⟩ : BufTy).Contents (Elt F))

/-- The mean over the 200 rows of an author-side array: the column sum from zero, divided by the author count. -/
def poolA (y : (⟨S200x256, .f32⟩ : BufTy).Contents (Elt F)) : (⟨S1x256, .f32⟩ : BufTy).Contents (Elt F) :=
  Host.divf (broadcastInDim S1x256 ![1] bcast_S256_S1x256_1 (Host.reduceAdd y (constant S_ .f32 0x00000000#32 : (⟨S_, .f32⟩ : BufTy).Contents (Elt F)) reducesTo_S200x256_S256_d0 h_S_ : (⟨S256, .f32⟩ : BufTy).Contents (Elt F)) : (⟨S1x256, .f32⟩ : BufTy).Contents (Elt F))
    (broadcastInDim S1x256 ![] bcast_S_S1x256 (constant S_ .f32 0x47435000#32 : (⟨S_, .f32⟩ : BufTy).Contents (Elt F)) : (⟨S1x256, .f32⟩ : BufTy).Contents (Elt F))

end Defs

/-! ## The reference ends with the same head -/

theorem ref_v141_eq_head (x0 : (⟨Cert.ReferenceIdeal.S50000x128, .f32⟩ : BufTy).Contents (Elt Ideal)) (x1 : (⟨Cert.ReferenceIdeal.S100000x128, .f32⟩ : BufTy).Contents (Elt Ideal)) (x2 : (⟨Cert.ReferenceIdeal.S300000, .i32⟩ : BufTy).Contents (Elt Ideal)) (x3 : (⟨Cert.ReferenceIdeal.S300000, .i32⟩ : BufTy).Contents (Elt Ideal)) (x4 : (⟨Cert.ReferenceIdeal.S300000, .i32⟩ : BufTy).Contents (Elt Ideal)) (x5 : (⟨Cert.ReferenceIdeal.S300000, .i32⟩ : BufTy).Contents (Elt Ideal)) (x6 : (⟨Cert.ReferenceIdeal.S256x128, .f32⟩ : BufTy).Contents (Elt Ideal)) (x7 : (⟨Cert.ReferenceIdeal.S256, .f32⟩ : BufTy).Contents (Elt Ideal)) (x8 : (⟨Cert.ReferenceIdeal.S256x128, .f32⟩ : BufTy).Contents (Elt Ideal)) (x9 : (⟨Cert.ReferenceIdeal.S256x128, .f32⟩ : BufTy).Contents (Elt Ideal)) (x10 : (⟨Cert.ReferenceIdeal.S256, .f32⟩ : BufTy).Contents (Elt Ideal)) (x11 : (⟨Cert.ReferenceIdeal.S256x128, .f32⟩ : BufTy).Contents (Elt Ideal)) (x12 : (⟨Cert.ReferenceIdeal.S256x256, .f32⟩ : BufTy).Contents (Elt Ideal)) (x13 : (⟨Cert.ReferenceIdeal.S256, .f32⟩ : BufTy).Contents (Elt Ideal)) (x14 : (⟨Cert.ReferenceIdeal.S256x256, .f32⟩ : BufTy).Contents (Elt Ideal)) (x15 : (⟨Cert.ReferenceIdeal.S256x256, .f32⟩ : BufTy).Contents (Elt Ideal)) (x16 : (⟨Cert.ReferenceIdeal.S256, .f32⟩ : BufTy).Contents (Elt Ideal)) (x17 : (⟨Cert.ReferenceIdeal.S256x256, .f32⟩ : BufTy).Contents (Elt Ideal)) (x18 : (⟨Cert.ReferenceIdeal.S256x128, .f32⟩ : BufTy).Contents (Elt Ideal)) (x19 : (⟨Cert.ReferenceIdeal.S256, .f32⟩ : BufTy).Contents (Elt Ideal)) (x20 : (⟨Cert.ReferenceIdeal.S256x128, .f32⟩ : BufTy).Contents (Elt Ideal)) (x21 : (⟨Cert.ReferenceIdeal.S256, .f32⟩ : BufTy).Contents (Elt Ideal)) (x22 : (⟨Cert.ReferenceIdeal.S256x512, .f32⟩ : BufTy).Contents (Elt Ideal)) (x23 : (⟨Cert.ReferenceIdeal.S256, .f32⟩ : BufTy).Contents (Elt Ideal)) (x24 : (⟨Cert.ReferenceIdeal.S16x256, .f32⟩ : BufTy).Contents (Elt Ideal)) (x25 : (⟨Cert.ReferenceIdeal.S16, .f32⟩ : BufTy).Contents (Elt Ideal)) :
    Cert.ReferenceIdeal.Read.val_main_v141 (F := Ideal) x0 x1 x2 x3 x4 x5 x6 x7 x8 x9 x10 x11 x12 x13 x14 x15 x16 x17 x18 x19 x20 x21 x22 x23 x24 x25
      = head (F := Ideal) (Cert.ReferenceIdeal.Read.val_main_v127 (F := Ideal) x0 x1 x2 x3 x4 x5 x6 x7 x8 x9 x10 x11 x15 x16 x17 x18 x19) (Cert.ReferenceIdeal.Read.val_main_v131 (F := Ideal) x0 x1 x2 x3 x4 x5 x6 x7 x8 x9 x10 x11 x12 x13 x14 x20 x21) x22 x23 x24 x25 := rfl

/-! ## The pools at an index -/

theorem poolP_apply (y : (⟨S400x256, .f32⟩ : BufTy).Contents (Elt Ideal)) (j : Fin 256) :
    poolP (F := Ideal) y (ValueIdx.ix2 (0 : Fin 1) j)
      = Ideal.div (Ideal.ofBits .f32 0x00000000#32 + ∑ r : Fin 400, y (ValueIdx.ix2 r j)) (Ideal.ofBits .f32 0x47C35000#32) := by
  unfold poolP
  rw [ValueIdx.hostDivf_apply, ValueIdx.broadcastInDim_scalar_apply,
    broadcastInDim_apply _ bcast_S256_S1x256_1 _ (ValueIdx.ix2 (0 : Fin 1) j) (ValueIdx.ix1 j) (fun a => match a with
      | ⟨0, _⟩ => by show j.val = if (256 : Nat) = 1 then 0 else j.val; rw [if_neg (by decide)]),
    ValueIdx.hostReduceAdd_apply, Ideal.hostReduceAdd_single reducesTo_S400x256_S256_d0 (by decide)]
  refine congrArg₂ Ideal.div (congrArg (_ + ·) (Finset.sum_congr rfl fun k _ => ?_)) rfl
  exact congrArg y (funext fun a => Fin.ext (by match a with | ⟨0, _⟩ => rfl | ⟨1, _⟩ => rfl))

theorem poolA_apply (y : (⟨S200x256, .f32⟩ : BufTy).Contents (Elt Ideal)) (j : Fin 256) :
    poolA (F := Ideal) y (ValueIdx.ix2 (0 : Fin 1) j)
      = Ideal.div (Ideal.ofBits .f32 0x00000000#32 + ∑ r : Fin 200, y (ValueIdx.ix2 r j)) (Ideal.ofBits .f32 0x47435000#32) := by
  unfold poolA
  rw [ValueIdx.hostDivf_apply, ValueIdx.broadcastInDim_scalar_apply,
    broadcastInDim_apply _ bcast_S256_S1x256_1 _ (ValueIdx.ix2 (0 : Fin 1) j) (ValueIdx.ix1 j) (fun a => match a with
      | ⟨0, _⟩ => by show j.val = if (256 : Nat) = 1 then 0 else j.val; rw [if_neg (by decide)]),
    ValueIdx.hostReduceAdd_apply, Ideal.hostReduceAdd_single reducesTo_S200x256_S256_d0 (by decide)]
  refine congrArg₂ Ideal.div (congrArg (_ + ·) (Finset.sum_congr rfl fun k _ => ?_)) rfl
  exact congrArg y (funext fun a => Fin.ext (by match a with | ⟨0, _⟩ => rfl | ⟨1, _⟩ => rfl))

/-! ## The kernel program's tail, buffer by buffer

A buffer that a stretch of host operations does not write is carried across it unchanged, and one that is no
window of the last region is carried across that region; the head arrays therefore still hold their launch
contents wherever the tail reads them. -/

variable (m : (ℓ : Loc nD τ sig) → Buf (Elt Ideal) ℓ) (ρ : Dev nD → PrngReg)

theorem W10_arg24 (c : Dev nD) : W10 m ρ c (Proc.devRef .tc main_arg24) = m ((c : Thread nD τ).loc main_arg24) :=
  (StableHlo.after_of_forall_not_mem (b := Proc.devRef .tc main_arg24) hostOps4_2 (W10 m ρ c) (List.forall_iff_forall_mem.mp (by
    simp only [hostOps4_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans (W11_main_arg24 m ρ c)

theorem W10_arg25 (c : Dev nD) : W10 m ρ c (Proc.devRef .tc main_arg25) = m ((c : Thread nD τ).loc main_arg25) :=
  (StableHlo.after_of_forall_not_mem (b := Proc.devRef .tc main_arg25) hostOps4_2 (W10 m ρ c) (List.forall_iff_forall_mem.mp (by
    simp only [hostOps4_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans (W11_main_arg25 m ρ c)

theorem W8_arg22 (c : Dev nD) : W8 m ρ c (Proc.devRef .tc main_arg22) = m ((c : Thread nD τ).loc main_arg22) :=
  (StableHlo.after_of_forall_not_mem (b := Proc.devRef .tc main_arg22) hostOps4 (W8 m ρ c) (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans
  ((StableHlo.after_of_forall_not_mem (b := Proc.devRef .tc main_arg22) hostOps4_1 (W9 m ρ c) (List.forall_iff_forall_mem.mp (by
    simp only [hostOps4_1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans
  ((StableHlo.after_of_forall_not_mem (b := Proc.devRef .tc main_arg22) hostOps4_2 (W10 m ρ c) (List.forall_iff_forall_mem.mp (by
    simp only [hostOps4_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans (W11_main_arg22 m ρ c)))

theorem W8_arg23 (c : Dev nD) : W8 m ρ c (Proc.devRef .tc main_arg23) = m ((c : Thread nD τ).loc main_arg23) :=
  (StableHlo.after_of_forall_not_mem (b := Proc.devRef .tc main_arg23) hostOps4 (W8 m ρ c) (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans
  ((StableHlo.after_of_forall_not_mem (b := Proc.devRef .tc main_arg23) hostOps4_1 (W9 m ρ c) (List.forall_iff_forall_mem.mp (by
    simp only [hostOps4_1, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans
  ((StableHlo.after_of_forall_not_mem (b := Proc.devRef .tc main_arg23) hostOps4_2 (W10 m ρ c) (List.forall_iff_forall_mem.mp (by
    simp only [hostOps4_2, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))).symm.trans (W11_main_arg23 m ρ c)))

/-! What each stretch of host operations leaves at the buffers the tail reads, from any contents `V` at its start. -/

theorem after3_v76 (V : Valuation τ sig (Elt Ideal)) :
    StableHlo.after hostOps3 V (Proc.devRef .tc main_v76) = poolP (F := Ideal) (V (Proc.devRef .tc main_v72)) := by
  after_results
  rfl

theorem after4_v91 (V : Valuation τ sig (Elt Ideal)) :
    StableHlo.after hostOps4 V (Proc.devRef .tc main_v91)
      = dense1 (F := Ideal) (poolA (F := Ideal) (V (Proc.devRef .tc main_v82))) (V (Proc.devRef .tc main_v76)) (V (Proc.devRef .tc main_arg22)) (V (Proc.devRef .tc main_arg23)) := by
  after_results
  rfl

theorem after4_1_v92 (V : Valuation τ sig (Elt Ideal)) :
    StableHlo.after hostOps4_1 V (Proc.devRef .tc main_v92) = clamp (F := Ideal) (V (Proc.devRef .tc main_v91)) := by
  after_results
  rfl

theorem after4_2_v96 (V : Valuation τ sig (Elt Ideal)) :
    StableHlo.after hostOps4_2 V (Proc.devRef .tc main_v96)
      = dense2 (F := Ideal) (V (Proc.devRef .tc main_v92)) (V (Proc.devRef .tc main_arg24)) (V (Proc.devRef .tc main_arg25)) := by
  after_results
  rfl

/-- The paper pool is computed before the last region, from the paper rows as that stretch finds them. -/
theorem W7_v76 (c : Dev nD) : W7 m ρ c (Proc.devRef .tc main_v76) = poolP (F := Ideal) (W6 m ρ c (Proc.devRef .tc main_v72)) :=
  after3_v76 (W6 m ρ c)

/-- The last region does not touch the paper pool. -/
theorem W8_v76 (c : Dev nD) : W8 m ρ c (Proc.devRef .tc main_v76) = poolP (F := Ideal) (W6 m ρ c (Proc.devRef .tc main_v72)) :=
  (W8_of_ne m ρ c main_v76 (by decide)).trans (W7_v76 m ρ c)

/-- The first dense layer before its clamp. -/
theorem W9_v91 (c : Dev nD) : W9 m ρ c (Proc.devRef .tc main_v91)
    = dense1 (F := Ideal) (poolA (F := Ideal) (W8 m ρ c (Proc.devRef .tc main_v82))) (W8 m ρ c (Proc.devRef .tc main_v76))
        (W8 m ρ c (Proc.devRef .tc main_arg22)) (W8 m ρ c (Proc.devRef .tc main_arg23)) :=
  after4_v91 (W8 m ρ c)

/-- The clamp. -/
theorem W10_v92 (c : Dev nD) : W10 m ρ c (Proc.devRef .tc main_v92) = clamp (F := Ideal) (W9 m ρ c (Proc.devRef .tc main_v91)) :=
  after4_1_v92 (W9 m ρ c)

/-- The second dense layer. -/
theorem W11_v96_step (c : Dev nD) : W11 m ρ c (Proc.devRef .tc main_v96)
    = dense2 (F := Ideal) (W10 m ρ c (Proc.devRef .tc main_v92)) (W10 m ρ c (Proc.devRef .tc main_arg24)) (W10 m ρ c (Proc.devRef .tc main_arg25)) :=
  after4_2_v96 (W10 m ρ c)

/-- The kernel program's result: the head on the two pools and the launch contents of the four head arrays. -/
theorem W11_v96 (c : Dev nD) : W11 m ρ c (Proc.devRef .tc main_v96)
    = head (F := Ideal) (poolA (F := Ideal) (W8 m ρ c (Proc.devRef .tc main_v82))) (poolP (F := Ideal) (W6 m ρ c (Proc.devRef .tc main_v72)))
        (m ((c : Thread nD τ).loc main_arg22)) (m ((c : Thread nD τ).loc main_arg23)) (m ((c : Thread nD τ).loc main_arg24)) (m ((c : Thread nD τ).loc main_arg25)) := by
  rw [W11_v96_step, W10_v92, W9_v91, W8_v76, W8_arg22, W8_arg23, W10_arg24, W10_arg25]
  rfl

end Cert.KernelIdeal.Tail
-- ==== Proof.Agreement.lean ====
/-
  The kernel's result is the reference's.

  The second layer's stored column sums add up to the reference's column sums of its second-layer activations (eight
  eighths per block, the blocks tiling the rows); so the two pooled means are the reference's, and the head applied
  to them is the reference's result.
-/
import proofs.«125567_j52707838656535_2_alg».proof.Proof.LayerAgreement
import proofs.«125567_j52707838656535_2_alg».proof.Proof.KernelTail

set_option maxRecDepth 16384

noncomputable section

namespace Cert.Agreement

open Cert.KernelIdeal Cert.KernelIdeal.Gen Cert.KernelIdeal.Glue Cert.KernelIdeal.Tail Cert.LayerAgreement
open Cert.KernelIdeal.Arrays Cert.KernelIdeal.PoolArrays Cert.LayerSpellings Cert.PoolSum
open Cert.ReferenceIdeal.Read Cert.ReferenceIdeal.Layers
open Idealize.ShloMosaic Idealize.ShloMosaic.TcCoe Idealize.SL.Sem Idealize.ShloMosaic.ValueIdx
open scoped BigOperators

variable (m : (ℓ : Loc nD τ sig) → Buf (Elt Ideal) ℓ) (ρ : Dev nD → PrngReg)

/-! ## The pooled means -/

theorem storedP (c : Dev nD) (j : Fin 256) :
    @Finset.sum (Fin 400) EReal _ Finset.univ (fun r => W6 m ρ c (Proc.devRef .tc main_v72) (ix2 r j))
      = ∑ i : Fin 100000, val_main_v123 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg20) (arg m c main_arg21) (ix2 i j) := by
  rw [show (W6 m ρ c (Proc.devRef .tc main_v72) : S400x256.Idx → EReal) = result2 (V5 m ρ) c from
    (W6_arr m ρ c 9).trans (final2 (V5 m ρ) c)]
  exact (stored_sum (n := 100000) (R := 400) (nb := 50) (by norm_num) (by norm_num)
    (fun i => layer2At (n := 100000) (V5 m ρ c main_v55) (V5 m ρ c main_v8) (V5 m ρ c main_v40) (V5 m ρ c main_arg1)
        (V5 m ρ c main_v67) (V5 m ρ c main_v68) (V5 m ρ c main_v69) (V5 m ρ c main_v70) (V5 m ρ c main_v71) i j)).trans
    (Finset.sum_congr rfl fun i _ => layer2P m ρ c i j)

theorem storedA (c : Dev nD) (j : Fin 256) :
    @Finset.sum (Fin 200) EReal _ Finset.univ (fun r => W8 m ρ c (Proc.devRef .tc main_v82) (ix2 r j))
      = ∑ i : Fin 50000, val_main_v116 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg15) (arg m c main_arg16) (arg m c main_arg17) (arg m c main_arg18) (arg m c main_arg19) (ix2 i j) := by
  rw [show (W8 m ρ c (Proc.devRef .tc main_v82) : S200x256.Idx → EReal) = result3 (V7 m ρ) c from
    (W8_arr m ρ c 9).trans (final3 (V7 m ρ) c)]
  exact (stored_sum (n := 50000) (R := 200) (nb := 25) (by norm_num) (by norm_num)
    (fun i => layer2At (n := 50000) (V7 m ρ c main_v66) (V7 m ρ c main_v16) (V7 m ρ c main_v44) (V7 m ρ c main_arg0)
        (V7 m ρ c main_v77) (V7 m ρ c main_v78) (V7 m ρ c main_v79) (V7 m ρ c main_v80) (V7 m ρ c main_v81) i j)).trans
    (Finset.sum_congr rfl fun i _ => layer2A m ρ c i j)

theorem pooledP (c : Dev nD) :
    Cert.KernelIdeal.Tail.poolP (F := Ideal) (W6 m ρ c (Proc.devRef .tc main_v72))
      = (val_main_v131 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg20) (arg m c main_arg21) : S1x256.Idx → EReal) := by
  funext i
  obtain ⟨u, j, rfl⟩ : ∃ (u : Fin 1) (j : Fin 256), i = ix2 u j := ⟨i 0, i 1, eq_ix2 i⟩
  obtain rfl : u = 0 := Subsingleton.elim _ _
  rw [Cert.KernelIdeal.Tail.poolP_apply, Cert.ReferenceIdeal.Layers.poolP_apply]
  exact congrArg (fun z : EReal => Ideal.div (Ideal.ofBits .f32 0x00000000#32 + z) (Ideal.ofBits .f32 0x47C35000#32)) (storedP m ρ c j)

theorem pooledA (c : Dev nD) :
    Cert.KernelIdeal.Tail.poolA (F := Ideal) (W8 m ρ c (Proc.devRef .tc main_v82))
      = (val_main_v127 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg15) (arg m c main_arg16) (arg m c main_arg17) (arg m c main_arg18) (arg m c main_arg19) : S1x256.Idx → EReal) := by
  funext i
  obtain ⟨u, j, rfl⟩ : ∃ (u : Fin 1) (j : Fin 256), i = ix2 u j := ⟨i 0, i 1, eq_ix2 i⟩
  obtain rfl : u = 0 := Subsingleton.elim _ _
  rw [Cert.KernelIdeal.Tail.poolA_apply, Cert.ReferenceIdeal.Layers.poolA_apply]
  exact congrArg (fun z : EReal => Ideal.div (Ideal.ofBits .f32 0x00000000#32 + z) (Ideal.ofBits .f32 0x47435000#32)) (storedA m ρ c j)

/-! ## The result -/

/-- The kernel's result buffer ends at the reference's result term of the same argument arrays. -/
theorem result_eq (c : Dev nD) :
    W11 m ρ c (Proc.devRef .tc main_v96)
      = (val_main_v141 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25) : S1x16.Idx → EReal) := by
  rw [W11_v96 m ρ c, pooledP m ρ c, pooledA m ρ c, ref_v141_eq_head]

end Cert.Agreement

end
-- ==== Proof.lean ====
/-
  The certificate of a two-layer mean-aggregating graph network on two node types (authors and papers), followed by
  a global mean pool per type and a two-layer head: the kernel's entry point against its reference, on the extended
  reals.

  The kernel computes each layer's dense part in pipelined regions over blocks of 2000 rows, scaling the
  aggregated neighbour rows by the reciprocal of the clamped neighbour count, and folds the second layer's pooling
  into its regions (each block stores eighths of its column sums on eight rows, which the host adds up); the
  reference divides by the clamped count, adds the bias before the root product, and pools the full second-layer
  activations. At the ideal values the two agree array by array (Proof/Agreement.lean): the clamped count is at least
  one, so multiplying by its reciprocal is dividing by it; the additions differ only in order; eight eighths of a
  column sum are the column sum, at the infinities too; and the gathers, scatters and the head are the same
  operations of equal arrays. No finiteness of the inputs is used.

  The three frames: the two kernel programs' frames are the launch of the four regions among the host stretches,
  every argument buffer carried unchanged through every segment; the reference has no region, and its frame is its
  run with the result dropped. The idealization changed nothing that needs a rule (the ledger is empty).
-/
import proofs.«125567_j52707838656535_2_alg».proof.Defs
import proofs.«125567_j52707838656535_2_alg».proof.Proof.Gen.Kernel
import proofs.«125567_j52707838656535_2_alg».proof.Proof.Gen.Kernel.Skeleton
import proofs.«125567_j52707838656535_2_alg».proof.Proof.Gen.Kernel.Launch
import proofs.«125567_j52707838656535_2_alg».proof.Proof.Gen.Kernel.Points
import proofs.«125567_j52707838656535_2_alg».proof.Proof.Gen.Kernel.Frame
import proofs.«125567_j52707838656535_2_alg».proof.Proof.Gen.KernelIdeal
import proofs.«125567_j52707838656535_2_alg».proof.Proof.Gen.KernelIdeal.Skeleton
import proofs.«125567_j52707838656535_2_alg».proof.Proof.Gen.KernelIdeal.Launch
import proofs.«125567_j52707838656535_2_alg».proof.Proof.Gen.KernelIdeal.Points
import proofs.«125567_j52707838656535_2_alg».proof.Proof.Gen.KernelIdeal.Frame
import proofs.«125567_j52707838656535_2_alg».proof.Proof.Gen.ReferenceIdeal
import proofs.«125567_j52707838656535_2_alg».proof.Proof.Gen.ReferenceIdeal.Run
import proofs.«125567_j52707838656535_2_alg».proof.Proof.Gen.ReferenceIdeal.Read
import proofs.«125567_j52707838656535_2_alg».proof.Proof.Gen.Pre_finite_inputs
import proofs.«125567_j52707838656535_2_alg».proof.Proof.KernelOutcome
import proofs.«125567_j52707838656535_2_alg».proof.Proof.Agreement
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs, run from memories agreeing on the arguments, end at the reference's result term of the
    kernel's argument arrays. -/
theorem algebraic : Cert.algebraic_KernelIdeal_ReferenceIdeal := by
  intro m ρ m' ρ' _ hagree
  refine ⟨fun c => Cert.KernelIdeal.Gen.W11 m ρ c (Proc.devRef .tc Cert.KernelIdeal.main_v96),
    Cert.KernelIdeal.Outcome.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25⟩ := hagree c
  rw [Cert.ReferenceIdeal.Read.val_main_v141_eq, h0, h1, h2, h3, h4, h5, h6, h7, h8, h9, h10, h11, h12, h13, h14, h15, h16, h17, h18, h19, h20, h21, h22, h23, h24, h25]
  exact (Cert.Agreement.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
